-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S3x32x32 : Shape := ⟨3, ![3, 32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_arg9 : FVec F S32 .f32) (main_arg10 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S32 .f32) (main_arg6 : FVec F S32 .f32) (main_arg7 : FVec F S3x32x32 .f32) (main_arg8 : FVec F S32 .f32) (main_arg9 : FVec F S32 .f32) (main_arg10 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S3x32x32 .f32 := Host.absf main_arg7
  let main_cst_10 : FVec F S_ .f32 := constant S_ .f32 0x7F800000#32
  let main_v30 : FVec F S3x32x32 .f32 := broadcastInDim S3x32x32 ![] bcast_S_S3x32x32 main_cst_10
  let main_v31 : IVec S3x32x32 1 := cmpf .olt main_v29 main_v30
  let main_c_11 : IVec S_ 1 := constantI S_ 1 1#1
  let main_v32 : IVec S_ 1 := (fun x v => Host.reduce IntOp.andi x v reducesTo_S3x32x32_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S1600000 .f32) (main_arg3 : FVec F S3x32x32 .f32) (main_arg4 : FVec F S32 .f32) (main_arg5 : FVec F S32 .f32) (main_arg6 : FVec F S32 .f32) (main_arg7 : FVec F S3x32x32 .f32) (main_arg8 : FVec F S32 .f32) (main_arg9 : FVec F S32 .f32) (main_arg10 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x32x32 .f32 := Host.absf main_arg3
  let main_cst_2 : FVec F S_ .f32 := constant S_ .f32 0x7F800000#32
  let main_v10 : FVec F S3x32x32 .f32 := broadcastInDim S3x32x32 ![] bcast_S_S3x32x32 main_cst_2
  let main_v11 : IVec S3x32x32 1 := cmpf .olt main_v9 main_v10
  let main_c_3 : IVec S_ 1 := constantI S_ 1 1#1
  let main_v12 : IVec S_ 1 := (fun x v => Host.reduce IntOp.andi x v reducesTo_S3x32x32_S_d0_1_2 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S3x32x32 : Shape := ⟨3, ![3, 32, 32]⟩
abbrev S32 : Shape := ⟨1, ![32]⟩
abbrev S1x1600000 : Shape := ⟨2, ![1, 1600000]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S10000x32 : Shape := ⟨2, ![10000, 32]⟩
abbrev S1x32x32 : Shape := ⟨3, ![1, 32, 32]⟩
abbrev S32x32 : Shape := ⟨2, ![32, 32]⟩

abbrev nBuf : Space → Nat
  | .hbm => 91
  | .vmem => 44
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S3x32x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S3x32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S1600000x1, .f32⟩
  | .hbm, ⟨29, _⟩ => ⟨S1600000x32, .f32⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S1600000x1, .f32⟩
  | .hbm, ⟨45, _⟩ => ⟨S1600000x32, .f32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S100000x32, .f32⟩
  | .hbm, ⟨52, _⟩ => ⟨S1x32, .f32⟩
  | .hbm, ⟨53, _⟩ => ⟨S1x32, .f32⟩
  | .hbm, ⟨54, _⟩ => ⟨S100000x32, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x32, .f32⟩
  | .hbm, ⟨64, _⟩ => ⟨S1600000x1, .f32⟩
  | .hbm, ⟨65, _⟩ => ⟨S1600000x32, .f32⟩
  | .hbm, ⟨66, _⟩ => ⟨S1600000x32, .f32⟩
  | .hbm, ⟨67, _⟩ => ⟨S_, .f32⟩
  | .hbm, ⟨68, _⟩ => ⟨S100000x32, .f32⟩
  | .hbm, ⟨69, _⟩ => ⟨S1600000x1, .i32⟩
  | .hbm, ⟨70, _⟩ => ⟨S100000x32, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x32, .f32⟩
  | .hbm, ⟨80, _⟩ => ⟨S1600000x1, .f32⟩
  | .hbm, ⟨81, _⟩ => ⟨S1600000x32, .f32⟩
  | .hbm, ⟨82, _⟩ => ⟨S1600000x32, .f32⟩
  | .hbm, ⟨83, _⟩ => ⟨S_, .f32⟩
  | .hbm, ⟨84, _⟩ => ⟨S100000x32, .f32⟩
  | .hbm, ⟨85, _⟩ => ⟨S1600000x1, .i32⟩
  | .hbm, ⟨86, _⟩ => ⟨S100000x32, .f32⟩
  | .hbm, ⟨87, _⟩ => ⟨S100000x32, .f32⟩
  | .hbm, ⟨88, _⟩ => ⟨S1x32, .f32⟩
  | .hbm, ⟨89, _⟩ => ⟨S1x32, .f32⟩
  | .hbm, ⟨90, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S3x32x32, .f32⟩
  | .local _ .vmem, ⟨7, _⟩ => ⟨S32, .f32⟩
  | .local _ .vmem, ⟨8, _⟩ => ⟨S10000x32, .f32⟩
  | .local _ .vmem, ⟨9, _⟩ => ⟨S10000x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S3x32x32, .f32⟩
  | .local _ .vmem, ⟨29, _⟩ => ⟨S32, .f32⟩
  | .local _ .vmem, ⟨30, _⟩ => ⟨S10000x32, .f32⟩
  | .local _ .vmem, ⟨31, _⟩ => ⟨S10000x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S10000x32, .f32⟩
  | .local _ .vmem, ⟨37, _⟩ => ⟨S10000x32, .f32⟩
  | .local _ .vmem, ⟨38, _⟩ => ⟨S1x32, .f32⟩
  | .local _ .vmem, ⟨39, _⟩ => ⟨S1x32, .f32⟩
  | .local _ .vmem, ⟨40, _⟩ => ⟨S1x32, .f32⟩
  | .local _ .vmem, ⟨41, _⟩ => ⟨S1x32, .f32⟩
  | .local _ .vmem, ⟨42, _⟩ => ⟨S10000x32, .f32⟩
  | .local _ .vmem, ⟨43, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62_0 : Ref sig .tc := ⟨.hbm, 87, rfl⟩
abbrev main_v62_1 : Ref sig .tc := ⟨.hbm, 88, rfl⟩
abbrev main_v62_2 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v47 : BitVec 1 := Scalar.cmpi .eq arg0 c9_i32
  let v48 : BitVec 32 := Scalar.extui v47
  let c0_i32_24 : BitVec 32 := 0#32
  let v49 : BitVec 1 := Scalar.cmpi .ne v48 c0_i32_24
  v49

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S3x32x32_S3x32x32_0_0_0 : ∀ a, (![0, 0, 0] : Fin 3 → Nat) a + S3x32x32.size a ≤ S3x32x32.size a
  h_S3x32x32 : 0 < S3x32x32.numel
  inb_S32_S32_0 : ∀ a, (![0] : Fin 1 → Nat) a + S32.size a ≤ S32.size a
  h_S32 : 0 < S32.numel
  slices_S3x32x32_o0_0_0_S1x32x32 : S3x32x32.Slices ![0, 0, 0] S1x32x32
  shapeCasts_S1x32x32_S32x32 : S1x32x32.ShapeCasts S32x32
  bitsLt_bf16_f32 : FTy.bits .bf16 < FTy.bits .f32
  slices_S3x32x32_o1_0_0_S1x32x32 : S3x32x32.Slices ![1, 0, 0] S1x32x32
  slices_S3x32x32_o2_0_0_S1x32x32 : S3x32x32.Slices ![2, 0, 0] S1x32x32
  broadcasts_S1x32_S10000x32 : S1x32.Broadcasts S10000x32
  reduces_S10000x32_S32 : S10000x32.Reduces [0] S32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32x32.size a ≤ S3x32x32.size a
  hwx0_3 : ∀ i : grid0.Coords, EltTy.bits .f32 = 32 ∨ (Rect.block (s := S3x32x32) S3x32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x32x32.size a ≤ S3x32x32.size a
  hwx2_3 : ∀ i : grid2.Coords, EltTy.bits .f32 = 32 ∨ (Rect.block (s := S3x32x32) S3x32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34_0) S10000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_1) S1x32.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34_2) S1x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v34_0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34_1) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34_2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S10000x32.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S1x32.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S1x32.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v62_0) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62_1) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62_2) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S3x32x32 : Shape := ⟨3, ![3, 32, 32]⟩
abbrev S32 : Shape := ⟨1, ![32]⟩
abbrev S1x1600000 : Shape := ⟨2, ![1, 1600000]⟩
abbrev S1x32x32 : Shape := ⟨3, ![1, 32, 32]⟩
abbrev S32x32 : Shape := ⟨2, ![32, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 183
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S3x32x32, .f32⟩
  | 4 => ⟨S32, .f32⟩
  | 5 => ⟨S32, .f32⟩
  | 6 => ⟨S32, .f32⟩
  | 7 => ⟨S3x32x32, .f32⟩
  | 8 => ⟨S32, .f32⟩
  | 9 => ⟨S32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S1x32x32, .f32⟩
  | 16 => ⟨S32x32, .f32⟩
  | 17 => ⟨S100000x32, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x32, .f32⟩
  | 27 => ⟨S1600000x1, .f32⟩
  | 28 => ⟨S1600000x32, .f32⟩
  | 29 => ⟨S1600000x32, .f32⟩
  | 30 => ⟨S_, .f32⟩
  | 31 => ⟨S100000x32, .f32⟩
  | 32 => ⟨S1600000x1, .i32⟩
  | 33 => ⟨S100000x32, .f32⟩
  | 34 => ⟨S1x32x32, .f32⟩
  | 35 => ⟨S32x32, .f32⟩
  | 36 => ⟨S100000x32, .f32⟩
  | 37 => ⟨S100000x32, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x32, .f32⟩
  | 47 => ⟨S1600000x1, .f32⟩
  | 48 => ⟨S1600000x32, .f32⟩
  | 49 => ⟨S1600000x32, .f32⟩
  | 50 => ⟨S_, .f32⟩
  | 51 => ⟨S100000x32, .f32⟩
  | 52 => ⟨S1600000x1, .i32⟩
  | 53 => ⟨S100000x32, .f32⟩
  | 54 => ⟨S1x32x32, .f32⟩
  | 55 => ⟨S32x32, .f32⟩
  | 56 => ⟨S100000x32, .f32⟩
  | 57 => ⟨S100000x32, .f32⟩
  | 58 => ⟨S1x32, .f32⟩
  | 59 => ⟨S100000x32, .f32⟩
  | 60 => ⟨S100000x32, .f32⟩
  | 61 => ⟨S_, .f32⟩
  | 62 => ⟨S32, .f32⟩
  | 63 => ⟨S_, .f32⟩
  | 64 => ⟨S32, .f32⟩
  | 65 => ⟨S32, .f32⟩
  | 66 => ⟨S1x32, .f32⟩
  | 67 => ⟨S100000x32, .f32⟩
  | 68 => ⟨S100000x32, .f32⟩
  | 69 => ⟨S100000x32, .f32⟩
  | 70 => ⟨S_, .f32⟩
  | 71 => ⟨S32, .f32⟩
  | 72 => ⟨S_, .f32⟩
  | 73 => ⟨S32, .f32⟩
  | 74 => ⟨S32, .f32⟩
  | 75 => ⟨S1x32, .f32⟩
  | 76 => ⟨S100000x32, .f32⟩
  | 77 => ⟨S100000x32, .f32⟩
  | 78 => ⟨S_, .f32⟩
  | 79 => ⟨S32, .f32⟩
  | 80 => ⟨S32, .f32⟩
  | 81 => ⟨S32, .f32⟩
  | 82 => ⟨S1x32, .f32⟩
  | 83 => ⟨S100000x32, .f32⟩
  | 84 => ⟨S100000x32, .f32⟩
  | 85 => ⟨S1x32, .f32⟩
  | 86 => ⟨S100000x32, .f32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S_, .f32⟩
  | 93 => ⟨S100000x32, .f32⟩
  | 94 => ⟨S100000x32, .i1⟩
  | 95 => ⟨S_, .f32⟩
  | 96 => ⟨S100000x32, .f32⟩
  | 97 => ⟨S100000x32, .f32⟩
  | 98 => ⟨S100000x32, .f32⟩
  | 99 => ⟨S1x32x32, .f32⟩
  | 100 => ⟨S32x32, .f32⟩
  | 101 => ⟨S100000x32, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x1, .f32⟩
  | 112 => ⟨S1600000x32, .f32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S1x32x32, .f32⟩
  | 119 => ⟨S32x32, .f32⟩
  | 120 => ⟨S100000x32, .f32⟩
  | 121 => ⟨S100000x32, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x32, .f32⟩

abbrev hbmTy0_1 (i : Nat) : BufTy := match i % 128 with
  | 0 => ⟨S1600000, .i32⟩
  | 1 => ⟨S1600000x1, .i32⟩
  | 2 => ⟨S1600000x32, .f32⟩
  | 3 => ⟨S1600000x1, .f32⟩
  | 4 => ⟨S1600000x32, .f32⟩
  | 5 => ⟨S1600000x32, .f32⟩
  | 6 => ⟨S_, .f32⟩
  | 7 => ⟨S100000x32, .f32⟩
  | 8 => ⟨S1600000x1, .i32⟩
  | 9 => ⟨S100000x32, .f32⟩
  | 10 => ⟨S1x32x32, .f32⟩
  | 11 => ⟨S32x32, .f32⟩
  | 12 => ⟨S100000x32, .f32⟩
  | 13 => ⟨S100000x32, .f32⟩
  | 14 => ⟨S1x32, .f32⟩
  | 15 => ⟨S100000x32, .f32⟩
  | 16 => ⟨S100000x32, .f32⟩
  | 17 => ⟨S_, .f32⟩
  | 18 => ⟨S32, .f32⟩
  | 19 => ⟨S_, .f32⟩
  | 20 => ⟨S32, .f32⟩
  | 21 => ⟨S32, .f32⟩
  | 22 => ⟨S1x32, .f32⟩
  | 23 => ⟨S100000x32, .f32⟩
  | 24 => ⟨S100000x32, .f32⟩
  | 25 => ⟨S100000x32, .f32⟩
  | 26 => ⟨S_, .f32⟩
  | 27 => ⟨S32, .f32⟩
  | 28 => ⟨S_, .f32⟩
  | 29 => ⟨S32, .f32⟩
  | 30 => ⟨S32, .f32⟩
  | 31 => ⟨S1x32, .f32⟩
  | 32 => ⟨S100000x32, .f32⟩
  | 33 => ⟨S100000x32, .f32⟩
  | 34 => ⟨S_, .f32⟩
  | 35 => ⟨S32, .f32⟩
  | 36 => ⟨S32, .f32⟩
  | 37 => ⟨S32, .f32⟩
  | 38 => ⟨S1x32, .f32⟩
  | 39 => ⟨S100000x32, .f32⟩
  | 40 => ⟨S100000x32, .f32⟩
  | 41 => ⟨S1x32, .f32⟩
  | 42 => ⟨S100000x32, .f32⟩
  | 43 => ⟨S100000x32, .f32⟩
  | 44 => ⟨S1x32, .f32⟩
  | 45 => ⟨S100000x32, .f32⟩
  | 46 => ⟨S100000x32, .f32⟩
  | 47 => ⟨S_, .f32⟩
  | 48 => ⟨S_, .f32⟩
  | 49 => ⟨S100000x32, .f32⟩
  | 50 => ⟨S100000x32, .i1⟩
  | 51 => ⟨S_, .f32⟩
  | 52 => ⟨S100000x32, .f32⟩
  | 53 => ⟨S100000x32, .f32⟩
  | 54 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_10 : Ref sig .tc := ⟨.hbm, 102, rfl⟩
abbrev main_v73 : Ref sig .tc := ⟨.hbm, 103, rfl⟩
abbrev main_v74 : Ref sig .tc := ⟨.hbm, 104, rfl⟩
abbrev main_c_11 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_12 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_13 : Ref sig .tc := ⟨.hbm, 122, rfl⟩
abbrev main_v90 : Ref sig .tc := ⟨.hbm, 123, rfl⟩
abbrev main_v91 : Ref sig .tc := ⟨.hbm, 124, rfl⟩
abbrev main_c_14 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_15 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_16 : Ref sig .tc := ⟨.hbm, 145, rfl⟩
abbrev main_v110 : Ref sig .tc := ⟨.hbm, 146, rfl⟩
abbrev main_cst_17 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_18 : Ref sig .tc := ⟨.hbm, 154, rfl⟩
abbrev main_v117 : Ref sig .tc := ⟨.hbm, 155, rfl⟩
abbrev main_cst_19 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_20 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_21 : Ref sig .tc := ⟨.hbm, 175, rfl⟩
abbrev main_call1_cst : Ref sig .tc := ⟨.hbm, 176, rfl⟩
abbrev main_call1_v0 : Ref sig .tc := ⟨.hbm, 177, rfl⟩
abbrev main_call1_v1 : Ref sig .tc := ⟨.hbm, 178, rfl⟩
abbrev main_call1_v2 : Ref sig .tc := ⟨.hbm, 179, rfl⟩
abbrev main_call1_v3 : Ref sig .tc := ⟨.hbm, 180, rfl⟩
abbrev main_call1_v4 : Ref sig .tc := ⟨.hbm, 181, rfl⟩
abbrev main_v135 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x32x32_S1x32x32_0_0_0 : S3x32x32.Slices ![0, 0, 0] S1x32x32
  shapeCasts_S1x32x32_S32x32 : S1x32x32.ShapeCasts S32x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S3x32x32_S1x32x32_1_0_0 : S3x32x32.Slices ![1, 0, 0] S1x32x32
  slices_S3x32x32_S1x32x32_2_0_0 : S3x32x32.Slices ![2, 0, 0] S1x32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KB.Comb0Runs.lean ====
/-
  Region 0 of the program: the combine kernel on a grid of ten row blocks, what its three control cases share.
  At every point the body stores one block of z = x·W₀ + h1·W₁ + h2·W₂ + b and adds the block's column sums of z and
  of z² into two 1×32 scratch rows; the first point zeroes the scratch first; the last point also stores the mean row
  (sum / n) and the variance row (sum of squares / n − mean²). Here: the windows' blocks, the two branch conditions
  in closed form over the grid, where the two late outputs are idle, and the memrefs the body is called on.
-/
import proofs.«101999_j28329604284662_1_alg».proof.Proof.Gen.Kernel.Launch
import proofs.«101999_j28329604284662_1_alg».proof.Proof.Gen.Kernel.Skeleton
import proofs.«101999_j28329604284662_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- "This is the first point": the body's first branch condition, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the body's second branch condition. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! Where the windows are idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point the body stores nothing into output 6 and the pipeline does not write it back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_last : ∀ t : Fin cfg0.N, cond0_1 (grid0.coords t) → cfg0.idle 6 (grid0.coords t) = false := by decide +kernel
/-- Away from the last point the body stores nothing into output 7 and the pipeline does not write it back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_last : ∀ t : Fin cfg0.N, cond0_1 (grid0.coords t) → cfg0.idle 7 (grid0.coords t) = false := by decide +kernel

/-- One staging buffer of each output window, through which its contents are stated. -/
abbrev VO0_5 : View sig .tc .vmem S10000x32 .f32 := (Memref.whole cc0_stg5_0 : Memref sig .tc .vmem S10000x32 .f32).view
abbrev VO0_6 : View sig .tc .vmem S1x32 .f32 := (Memref.whole cc0_stg6_0 : Memref sig .tc .vmem S1x32 .f32).view
abbrev VO0_7 : View sig .tc .vmem S1x32 .f32 := (Memref.whole cc0_stg7_0 : Memref sig .tc .vmem S1x32 .f32).view
/-- Each window's current staging memref at point `t`, as the pipeline passes it. -/
abbrev ms0_0 (t : Fin cfg0.N) : Memref sig .tc .vmem S10000x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
/-- The two scratch rows: whole scoped buffers of the kernel's own, passed beside the windows. -/
abbrev scM0_0 : Memref sig .tc .vmem S1x32 .f32 := Memref.whole cc0_scratch0
abbrev scM0_1 : Memref sig .tc .vmem S1x32 .f32 := Memref.whole cc0_scratch1
abbrev VS0_0 : View sig .tc .vmem S1x32 .f32 := scM0_0.view
abbrev VS0_1 : View sig .tc .vmem S1x32 .f32 := scM0_1.view

/-- The region's untouched-scoped-buffers invariant with the two scratch rows taken out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.KB.Comb0RunA.lean ====
/-
  Region 0, the combine kernel's body run whole at the first point (the scratch rows zeroed first; the two late outputs idle): on whole staging memrefs — the five inputs' at
  given contents, the block output's at anything — it runs to its return holding the inputs' as they were and every
  buffer it stored into with its stores written, the list of stores of each being what the run finds.
-/
import proofs.«101999_j28329604284662_1_alg».proof.Proof.KB.Comb0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Comb0RunB.lean ====
/-
  Region 0, the combine kernel's body run whole at a middle point (the scratch rows carried; the two late outputs idle): on whole staging memrefs — the five inputs' at
  given contents, the block output's at anything — it runs to its return holding the inputs' as they were and every
  buffer it stored into with its stores written, the list of stores of each being what the run finds.
-/
import proofs.«101999_j28329604284662_1_alg».proof.Proof.KB.Comb0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Comb0RunC.lean ====
/-
  Region 0, the combine kernel's body run whole at the last point (the scratch rows carried; the mean and variance rows stored): on whole staging memrefs — the five inputs' at
  given contents, the block output's at anything — it runs to its return holding the inputs' as they were and every
  buffer it stored into with its stores written, the list of stores of each being what the run finds.
-/
import proofs.«101999_j28329604284662_1_alg».proof.Proof.KB.Comb0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KB.Comb0.lean ====
/-
  Region 0, the combine kernel: what every buffer the body stores into holds per control case, what the block
  output, the two late outputs and the two scratch rows hold after each grid point (the scratch rows of one point are
  the next point's starting sums), the region's invariant carrying the scratch rows from point to point, the
  pipeline's proof data at an arbitrary region-entry contents `V`, and the body obligation at every point.
-/
import proofs.«101999_j28329604284662_1_alg».proof.Proof.KB.Comb0RunA
import proofs.«101999_j28329604284662_1_alg».proof.Proof.KB.Comb0RunB
import proofs.«101999_j28329604284662_1_alg».proof.Proof.KB.Comb0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Per case: each stored buffer's stores cover it, and what it then holds -/
theorem cover0_A_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S10000x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).1 (by sl_whole_mem) y
def out0_A_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S10000x32 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
theorem scover0_A_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S1x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).2.1 (by sl_whole_mem) y
def sout0_A_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S1x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S1x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).2.2.1 (by sl_whole_mem) y
def sout0_A_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S1x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S10000x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out0_B_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S10000x32 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def sout0_B_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S1x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def sout0_B_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S1x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover0_C_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S10000x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out0_C_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S10000x32 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
theorem cover0_C_6 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def out0_C_6 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover0_C_7 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def out0_C_7 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover0_C_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 (by sl_whole_mem) y
def sout0_C_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover0_C_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 (by sl_whole_mem) y
def sout0_C_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- What the three outputs' staging buffers and the two scratch rows hold after a point. -/
structure Outs0 (F : FTy → Type) [FloatOps F] where
  o5 : Vec F S10000x32 .f32
  o6 : Vec F S1x32 .f32
  o7 : Vec F S1x32 .f32
  s0 : Vec F S1x32 .f32
  s1 : Vec F S1x32 .f32

/-- THE ACCUMULATION, point by point: the first point's case from nothing; every later point's case from the scratch rows
    the point before left. Away from the last point the two late outputs are idle and their entries here are placeholders
    nothing consults (the blocks of their arrays). -/
def outsAt0 (c : Dev nD) : (n : ℕ) → n < cfg0.N → Outs0 F
  | 0, hn => ⟨out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩),
      iblk0 V c 6 ⟨0, hn⟩, iblk0 V c 7 ⟨0, hn⟩,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩)⟩
  | n + 1, hn =>
    if h9 : n + 1 = 9 then
      ⟨out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1⟩
    else
      ⟨out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        iblk0 V c 6 ⟨n + 1, hn⟩, iblk0 V c 7 ⟨n + 1, hn⟩,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1⟩

/-- The accumulation at the first point. -/
theorem outsAt0_A (c : Dev nD) (t : Fin cfg0.N) (h0 : t.val = 0) :
    outsAt0 V c t.val t.isLt = ⟨out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
      iblk0 V c 6 t, iblk0 V c 7 t,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t)⟩ := by
  obtain ⟨n, hn⟩ := t
  cases n with
  | zero => rfl
  | succ n => exact absurd h0 (Nat.succ_ne_zero n)

/-- The accumulation at a middle point: over what the point before left in the scratch rows. -/
theorem outsAt0_B (c : Dev nD) (t : Fin cfg0.N) (h0 : ¬t.val = 0) (h9 : ¬t.val = 9) :
    outsAt0 V c t.val t.isLt = ⟨out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      iblk0 V c 6 t, iblk0 V c 7 t,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩ := by
  obtain ⟨n, hn⟩ := t
  cases n with
  | zero => exact absurd rfl h0
  | succ n => exact (dif_neg h9).trans rfl

/-- The accumulation at the last point. -/
theorem outsAt0_C (c : Dev nD) (t : Fin cfg0.N) (h0 : ¬t.val = 0) (h9 : t.val = 9) :
    outsAt0 V c t.val t.isLt = ⟨out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩ := by
  obtain ⟨n, hn⟩ := t
  cases n with
  | zero => exact absurd rfl h0
  | succ n => exact (dif_pos h9).trans rfl

/-- The region's invariant before position `n`: before the first point every scoped buffer at anything; afterwards the
    two scratch rows at what the point before left in them, the other scoped buffers at anything, the generator register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).s0) ∗ owns (c : Thread nD τ) scM0_1 fullShare ((outsAt0 V c n hn).s1))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).s0) ∗ owns (c : Thread nD τ) scM0_1 fullShare ((outsAt0 V c n hn).s1))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).s0) ∗ owns (c : Thread nD τ) scM0_1 fullShare ((outsAt0 V c (n - 1) (by omega)).s1))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The pipeline's proof data on core `c`: the arrays as the region finds them; after the body at point `t` each input's
    buffer at its block and the outputs' at the accumulation's entries; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).o5
    | ⟨6, _⟩ => (outsAt0 V c t.val t.isLt).o6
    | ⟨7, _⟩ => (outsAt0 V c t.val t.isLt).o7
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the point's position says which case runs; the invariant
    hands the body the two scratch rows at what the point before left (at anything at the first point) and takes them
    back at this point's contents; away from the last point the two late outputs' buffers are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have h9 : ¬t.val = 9 := by omega
    rw [Dat.leavesExact_idle (dat0 V c) 6 t (idleAt0_6 t (fun h => h9 ((hcond0_1 t).mp h))) (noFlush0_6 t (fun h => h9 ((hcond0_1 t).mp h))),
      Dat.leavesExact_idle (dat0 V c) 7 t (idleAt0_7 t (fun h => h9 ((hcond0_1 t).mp h))) (noFlush0_7 t (fun h => h9 ((hcond0_1 t).mp h)))]
    rw [outsAt0_A V c t h0]
    unfold out0_A_5 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h9 ((hcond0_1 t).mp h)) (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · have hz : t.val ≠ 0 := h0
    by_cases h9 : t.val = 9
    · rw [show (dat0 V c).leavesExact 6 t = owns (c : Thread nD τ) (ms0_6 t) fullShare ((dat0 V c).after 6 t) from by
        unfold Dat.leavesExact; rw [liveAt0_6_last t ((hcond0_1 t).mpr h9)], after0_6]
      rw [show (dat0 V c).leavesExact 7 t = owns (c : Thread nD τ) (ms0_7 t) fullShare ((dat0 V c).after 7 t) from by
        unfold Dat.leavesExact; rw [liveAt0_7_last t ((hcond0_1 t).mpr h9)], after0_7]
      rw [outsAt0_C V c t h0 h9]
      unfold out0_C_5 out0_C_6 out0_C_7 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h9) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    · rw [Dat.leavesExact_idle (dat0 V c) 6 t (idleAt0_6 t (fun h => h9 ((hcond0_1 t).mp h))) (noFlush0_6 t (fun h => h9 ((hcond0_1 t).mp h))),
        Dat.leavesExact_idle (dat0 V c) 7 t (idleAt0_7 t (fun h => h9 ((hcond0_1 t).mp h))) (noFlush0_7 t (fun h => h9 ((hcond0_1 t).mp h)))]
      rw [outsAt0_B V c t h0 h9]
      unfold out0_B_5 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h9 ((hcond0_1 t).mp h)) (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the untouched-scoped-buffers form back: the scratch rows' contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end Cert.Kernel.Hand

end
-- ==== Proof.KB.Norm1.lean ====
/-
  Region 1 of the program: the normalise-and-rectify kernel on a grid of ten row blocks. Each point loads a block of
  10000 rows, the mean row, the variance row, the scale row and the shift row, and stores ONE block: a pointwise
  function of those five loads. Here: what the body leaves in the output's staging buffer as a function of the loaded
  blocks, the body's triple, the pipeline's proof data at an arbitrary region-entry contents `V`, and the body obligation
  at every grid point. Nothing is carried between points.
-/
import proofs.«101999_j28329604284662_1_alg».proof.Proof.Gen.Kernel.Launch
import proofs.«101999_j28329604284662_1_alg».proof.Proof.Gen.Kernel.Skeleton
import proofs.«101999_j28329604284662_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether or not the pipeline
    fetched it there, for any proof data whose array is `V`'s and whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the array at every point, whether or not the pipeline
    fetched it there, for any proof data whose array is `V`'s and whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the array at every point, whether or not the pipeline
    fetched it there, for any proof data whose array is `V`'s and whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the array at every point, whether or not the pipeline
    fetched it there, for any proof data whose array is `V`'s and whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the array at every point, whether or not the pipeline
    fetched it there, for any proof data whose array is `V`'s and whose body leaves that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×32 block, and the whole 1×32 row, as the body's loads and its store address them. -/
abbrev rBlk1 : Rect S10000x32 := Rect.unit (s := S10000x32) ![0, 0] S10000x32.size inb_S10000x32_S10000x32_0_0
abbrev rRow1 : Rect S1x32 := Rect.unit (s := S1x32) ![0, 0] S1x32.size inb_S1x32_S1x32_0_0

/-- What the body leaves in the output's staging buffer: its one store, of the pointwise function of the five loads. -/
def out1_5 (x0 : Vec F S10000x32 .f32) (x1 x2 x3 x4 : Vec F S1x32 .f32) : Vec F S10000x32 .f32 :=
  View.canon [⟨rBlk1, k1_pay1 (View.ld x0 rBlk1) (View.ld x1 rRow1) (View.ld x2 rRow1) (View.ld x3 rRow1) (View.ld x4 rRow1)⟩]

/-- The one store covers the buffer. -/
theorem cover1_5 (p0 : Vec F S10000x32 .f32) (y : S10000x32.Idx) :
    ∃ pc ∈ ([⟨rBlk1, p0⟩] : List (View.Piece (Elt F) S10000x32 .f32)), y ∈ pc.1.set :=
  View.cover_of_tiled [⟨rBlk1, p0⟩] S10000x32.size (by rfl) y

set_option maxHeartbeats 4000000 in
/-- The body on whole staging memrefs, the five inputs' at given contents and the output's at anything, runs to its
    return holding the inputs' as they were and the output's at `out1_5` of the inputs'. -/
theorem sound_kernel1 (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S10000x32 .f32) (harg6 : arg6.IsWhole)
    (x0 : Vec F S10000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__norm_act_kernel i arg1 harg1 arg2 harg2 arg3 harg3 arg4 harg4 arg5 harg5 arg6 harg6) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input's
    buffer at its block and the output's at `out1_5` of the input blocks; the invariant the scoped buffers and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Comb2Runs.lean ====
/-
  Region 2 of the program: the combine kernel on a grid of ten row blocks, what its three control cases share.
  At every point the body stores one block of z = x·W₀ + h1·W₁ + h2·W₂ + b and adds the block's column sums of z and
  of z² into two 1×32 scratch rows; the first point zeroes the scratch first; the last point also stores the mean row
  (sum / n) and the variance row (sum of squares / n − mean²). Here: the windows' blocks, the two branch conditions
  in closed form over the grid, where the two late outputs are idle, and the memrefs the body is called on.
-/
import proofs.«101999_j28329604284662_1_alg».proof.Proof.Gen.Kernel.Launch
import proofs.«101999_j28329604284662_1_alg».proof.Proof.Gen.Kernel.Skeleton
import proofs.«101999_j28329604284662_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block of the array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- "This is the first point": the body's first branch condition, from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the body's second branch condition. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! Where the windows are idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the body stores nothing into output 6 and the pipeline does not write it back; at the last point it is live. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_last : ∀ t : Fin cfg2.N, cond2_1 (grid2.coords t) → cfg2.idle 6 (grid2.coords t) = false := by decide +kernel
/-- Away from the last point the body stores nothing into output 7 and the pipeline does not write it back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_last : ∀ t : Fin cfg2.N, cond2_1 (grid2.coords t) → cfg2.idle 7 (grid2.coords t) = false := by decide +kernel

/-- One staging buffer of each output window, through which its contents are stated. -/
abbrev VO2_5 : View sig .tc .vmem S10000x32 .f32 := (Memref.whole cc2_stg5_0 : Memref sig .tc .vmem S10000x32 .f32).view
abbrev VO2_6 : View sig .tc .vmem S1x32 .f32 := (Memref.whole cc2_stg6_0 : Memref sig .tc .vmem S1x32 .f32).view
abbrev VO2_7 : View sig .tc .vmem S1x32 .f32 := (Memref.whole cc2_stg7_0 : Memref sig .tc .vmem S1x32 .f32).view
/-- Each window's current staging memref at point `t`, as the pipeline passes it. -/
abbrev ms2_0 (t : Fin cfg2.N) : Memref sig .tc .vmem S10000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
/-- The two scratch rows: whole scoped buffers of the kernel's own, passed beside the windows. -/
abbrev scM2_0 : Memref sig .tc .vmem S1x32 .f32 := Memref.whole cc2_scratch0
abbrev scM2_1 : Memref sig .tc .vmem S1x32 .f32 := Memref.whole cc2_scratch1
abbrev VS2_0 : View sig .tc .vmem S1x32 .f32 := scM2_0.view
abbrev VS2_1 : View sig .tc .vmem S1x32 .f32 := scM2_1.view

/-- The region's untouched-scoped-buffers invariant with the two scratch rows taken out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.KB.Comb2RunA.lean ====
/-
  Region 2, the combine kernel's body run whole at the first point (the scratch rows zeroed first; the two late outputs idle): on whole staging memrefs — the five inputs' at
  given contents, the block output's at anything — it runs to its return holding the inputs' as they were and every
  buffer it stored into with its stores written, the list of stores of each being what the run finds.
-/
import proofs.«101999_j28329604284662_1_alg».proof.Proof.KB.Comb2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Comb2RunB.lean ====
/-
  Region 2, the combine kernel's body run whole at a middle point (the scratch rows carried; the two late outputs idle): on whole staging memrefs — the five inputs' at
  given contents, the block output's at anything — it runs to its return holding the inputs' as they were and every
  buffer it stored into with its stores written, the list of stores of each being what the run finds.
-/
import proofs.«101999_j28329604284662_1_alg».proof.Proof.KB.Comb2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Comb2RunC.lean ====
/-
  Region 2, the combine kernel's body run whole at the last point (the scratch rows carried; the mean and variance rows stored): on whole staging memrefs — the five inputs' at
  given contents, the block output's at anything — it runs to its return holding the inputs' as they were and every
  buffer it stored into with its stores written, the list of stores of each being what the run finds.
-/
import proofs.«101999_j28329604284662_1_alg».proof.Proof.KB.Comb2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KB.Comb2.lean ====
/-
  Region 2, the combine kernel: what every buffer the body stores into holds per control case, what the block
  output, the two late outputs and the two scratch rows hold after each grid point (the scratch rows of one point are
  the next point's starting sums), the region's invariant carrying the scratch rows from point to point, the
  pipeline's proof data at an arbitrary region-entry contents `V`, and the body obligation at every point.
-/
import proofs.«101999_j28329604284662_1_alg».proof.Proof.KB.Comb2RunA
import proofs.«101999_j28329604284662_1_alg».proof.Proof.KB.Comb2RunB
import proofs.«101999_j28329604284662_1_alg».proof.Proof.KB.Comb2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Per case: each stored buffer's stores cover it, and what it then holds -/
theorem cover2_A_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S10000x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).1 (by sl_whole_mem) y
def out2_A_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S10000x32 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
theorem scover2_A_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).2.1 (by sl_whole_mem) y
def sout2_A_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S1x32 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
theorem scover2_A_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).2.2.1 (by sl_whole_mem) y
def sout2_A_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S1x32 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
theorem cover2_B_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S10000x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out2_B_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S10000x32 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
theorem scover2_B_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def sout2_B_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S1x32 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover2_B_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def sout2_B_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S1x32 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover2_C_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S10000x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out2_C_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S10000x32 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
theorem cover2_C_6 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def out2_C_6 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover2_C_7 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def out2_C_7 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover2_C_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 (by sl_whole_mem) y
def sout2_C_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover2_C_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 (by sl_whole_mem) y
def sout2_C_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- What the three outputs' staging buffers and the two scratch rows hold after a point. -/
structure Outs2 (F : FTy → Type) [FloatOps F] where
  o5 : Vec F S10000x32 .f32
  o6 : Vec F S1x32 .f32
  o7 : Vec F S1x32 .f32
  s0 : Vec F S1x32 .f32
  s1 : Vec F S1x32 .f32

/-- THE ACCUMULATION, point by point: the first point's case from nothing; every later point's case from the scratch rows
    the point before left. Away from the last point the two late outputs are idle and their entries here are placeholders
    nothing consults (the blocks of their arrays). -/
def outsAt2 (c : Dev nD) : (n : ℕ) → n < cfg2.N → Outs2 F
  | 0, hn => ⟨out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩),
      iblk2 V c 6 ⟨0, hn⟩, iblk2 V c 7 ⟨0, hn⟩,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩)⟩
  | n + 1, hn =>
    if h9 : n + 1 = 9 then
      ⟨out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1⟩
    else
      ⟨out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        iblk2 V c 6 ⟨n + 1, hn⟩, iblk2 V c 7 ⟨n + 1, hn⟩,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1⟩

/-- The accumulation at the first point. -/
theorem outsAt2_A (c : Dev nD) (t : Fin cfg2.N) (h0 : t.val = 0) :
    outsAt2 V c t.val t.isLt = ⟨out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
      iblk2 V c 6 t, iblk2 V c 7 t,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t)⟩ := by
  obtain ⟨n, hn⟩ := t
  cases n with
  | zero => rfl
  | succ n => exact absurd h0 (Nat.succ_ne_zero n)

/-- The accumulation at a middle point: over what the point before left in the scratch rows. -/
theorem outsAt2_B (c : Dev nD) (t : Fin cfg2.N) (h0 : ¬t.val = 0) (h9 : ¬t.val = 9) :
    outsAt2 V c t.val t.isLt = ⟨out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      iblk2 V c 6 t, iblk2 V c 7 t,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩ := by
  obtain ⟨n, hn⟩ := t
  cases n with
  | zero => exact absurd rfl h0
  | succ n => exact (dif_neg h9).trans rfl

/-- The accumulation at the last point. -/
theorem outsAt2_C (c : Dev nD) (t : Fin cfg2.N) (h0 : ¬t.val = 0) (h9 : t.val = 9) :
    outsAt2 V c t.val t.isLt = ⟨out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩ := by
  obtain ⟨n, hn⟩ := t
  cases n with
  | zero => exact absurd rfl h0
  | succ n => exact (dif_pos h9).trans rfl

/-- The region's invariant before position `n`: before the first point every scoped buffer at anything; afterwards the
    two scratch rows at what the point before left in them, the other scoped buffers at anything, the generator register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).s0) ∗ owns (c : Thread nD τ) scM2_1 fullShare ((outsAt2 V c n hn).s1))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).s0) ∗ owns (c : Thread nD τ) scM2_1 fullShare ((outsAt2 V c n hn).s1))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).s0) ∗ owns (c : Thread nD τ) scM2_1 fullShare ((outsAt2 V c (n - 1) (by omega)).s1))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The pipeline's proof data on core `c`: the arrays as the region finds them; after the body at point `t` each input's
    buffer at its block and the outputs' at the accumulation's entries; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).o5
    | ⟨6, _⟩ => (outsAt2 V c t.val t.isLt).o6
    | ⟨7, _⟩ => (outsAt2 V c t.val t.isLt).o7
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).o5 := by dsimp only [dat2]
theorem after2_6 (c : Dev nD) (t : Fin cfg2.N) : (dat2 V c).after 6 t = (outsAt2 V c t.val t.isLt).o6 := by dsimp only [dat2]
theorem after2_7 (c : Dev nD) (t : Fin cfg2.N) : (dat2 V c).after 7 t = (outsAt2 V c t.val t.isLt).o7 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the point's position says which case runs; the invariant
    hands the body the two scratch rows at what the point before left (at anything at the first point) and takes them
    back at this point's contents; away from the last point the two late outputs' buffers are handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val = 0
  · have h9 : ¬t.val = 9 := by omega
    rw [Dat.leavesExact_idle (dat2 V c) 6 t (idleAt2_6 t (fun h => h9 ((hcond2_1 t).mp h))) (noFlush2_6 t (fun h => h9 ((hcond2_1 t).mp h))),
      Dat.leavesExact_idle (dat2 V c) 7 t (idleAt2_7 t (fun h => h9 ((hcond2_1 t).mp h))) (noFlush2_7 t (fun h => h9 ((hcond2_1 t).mp h)))]
    rw [outsAt2_A V c t h0]
    unfold out2_A_5 sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h9 ((hcond2_1 t).mp h)) (iblk2 V c 0 t) (iblk2 V c 1 t) (iblk2 V c 2 t) (iblk2 V c 3 t) (iblk2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _ _ _)
    isplitl [H6]; · iexists _; iexact H6
    iexists _; iexact H7
  · have hz : t.val ≠ 0 := h0
    by_cases h9 : t.val = 9
    · rw [show (dat2 V c).leavesExact 6 t = owns (c : Thread nD τ) (ms2_6 t) fullShare ((dat2 V c).after 6 t) from by
        unfold Dat.leavesExact; rw [liveAt2_6_last t ((hcond2_1 t).mpr h9)], after2_6]
      rw [show (dat2 V c).leavesExact 7 t = owns (c : Thread nD τ) (ms2_7 t) fullShare ((dat2 V c).after 7 t) from by
        unfold Dat.leavesExact; rw [liveAt2_7_last t ((hcond2_1 t).mpr h9)], after2_7]
      rw [outsAt2_C V c t h0 h9]
      unfold out2_C_5 out2_C_6 out2_C_7 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h9) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c _ _ _ _ _ _ _ _ _ _ _ _ _ _ _ _ _ _ _ _ _ _ _ _ _ _ _ _ _ _)
    · rw [Dat.leavesExact_idle (dat2 V c) 6 t (idleAt2_6 t (fun h => h9 ((hcond2_1 t).mp h))) (noFlush2_6 t (fun h => h9 ((hcond2_1 t).mp h))),
        Dat.leavesExact_idle (dat2 V c) 7 t (idleAt2_7 t (fun h => h9 ((hcond2_1 t).mp h))) (noFlush2_7 t (fun h => h9 ((hcond2_1 t).mp h)))]
      rw [outsAt2_B V c t h0 h9]
      unfold out2_B_5 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h9 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the untouched-scoped-buffers form back: the scratch rows' contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout2 (c : Dev nD) : (dat2 V c).Φ (Fin.last cfg2.N) ⊢ (Pipeline.ΦA spec2 c : sProp 𝕄) :=
  Phi_out2 V c _ (by rw [Fin.val_last]; have : cfg2.N = 10 := N_2; omega)

end Cert.Kernel.Hand

end
-- ==== Proof.KB.Norm3.lean ====
/-
  Region 3 of the program: the normalise-and-rectify kernel on a grid of ten row blocks. Each point loads a block of
  10000 rows, the mean row, the variance row, the scale row and the shift row, and stores ONE block: a pointwise
  function of those five loads. Here: what the body leaves in the output's staging buffer as a function of the loaded
  blocks, the body's triple, the pipeline's proof data at an arbitrary region-entry contents `V`, and the body obligation
  at every grid point. Nothing is carried between points.
-/
import proofs.«101999_j28329604284662_1_alg».proof.Proof.Gen.Kernel.Launch
import proofs.«101999_j28329604284662_1_alg».proof.Proof.Gen.Kernel.Skeleton
import proofs.«101999_j28329604284662_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every point, whether or not the pipeline
    fetched it there, for any proof data whose array is `V`'s and whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block of the array at every point, whether or not the pipeline
    fetched it there, for any proof data whose array is `V`'s and whose body leaves that block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block of the array at every point, whether or not the pipeline
    fetched it there, for any proof data whose array is `V`'s and whose body leaves that block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block of the array at every point, whether or not the pipeline
    fetched it there, for any proof data whose array is `V`'s and whose body leaves that block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block of the array at every point, whether or not the pipeline
    fetched it there, for any proof data whose array is `V`'s and whose body leaves that block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×32 block, and the whole 1×32 row, as the body's loads and its store address them. -/
abbrev rBlk3 : Rect S10000x32 := Rect.unit (s := S10000x32) ![0, 0] S10000x32.size inb_S10000x32_S10000x32_0_0
abbrev rRow3 : Rect S1x32 := Rect.unit (s := S1x32) ![0, 0] S1x32.size inb_S1x32_S1x32_0_0

/-- What the body leaves in the output's staging buffer: its one store, of the pointwise function of the five loads. -/
def out3_5 (x0 : Vec F S10000x32 .f32) (x1 x2 x3 x4 : Vec F S1x32 .f32) : Vec F S10000x32 .f32 :=
  View.canon [⟨rBlk3, k3_pay1 (View.ld x0 rBlk3) (View.ld x1 rRow3) (View.ld x2 rRow3) (View.ld x3 rRow3) (View.ld x4 rRow3)⟩]

/-- The one store covers the buffer. -/
theorem cover3_5 (p0 : Vec F S10000x32 .f32) (y : S10000x32.Idx) :
    ∃ pc ∈ ([⟨rBlk3, p0⟩] : List (View.Piece (Elt F) S10000x32 .f32)), y ∈ pc.1.set :=
  View.cover_of_tiled [⟨rBlk3, p0⟩] S10000x32.size (by rfl) y

set_option maxHeartbeats 4000000 in
/-- The body on whole staging memrefs, the five inputs' at given contents and the output's at anything, runs to its
    return holding the inputs' as they were and the output's at `out3_5` of the inputs'. -/
theorem sound_kernel3 (c : Dev nD) (E : Set ℕ) (i : grid3.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S10000x32 .f32) (harg6 : arg6.IsWhole)
    (x0 : Vec F S10000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__norm_act_kernel i arg1 harg1 arg2 harg2 arg3 harg3 arg4 harg4 arg5 harg5 arg6 harg6) K := by
  simp only [cc3__norm_act_kernel_eq_skeleton]; unfold cc3__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's proof data on core `c`: the arrays as the region finds them; after the body at point `t` each input's
    buffer at its block and the output's at `out3_5` of the input blocks; the invariant the scoped buffers and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1600000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Frame.lean ====
/-
  The program's run from the launch to the return. Its @main is a stretch of host operations (the two neighbourhood
  sums of the input), the combine kernel, the normalise kernel, a second stretch of host operations (the two
  neighbourhood sums of the first layer's output), and the two kernels again. Here: the buffers' contents at every
  boundary between two of these six items, as a fold from the launch memory; every pipeline's proof data at its
  region's entry contents; each region as a segment over the thread state "every unscoped buffer at the boundary's
  contents, the generator register at some state, nothing owed"; and the run: every weakly fair execution terminates,
  nothing faulting, with every unscoped buffer at the last boundary's contents.
-/
import proofs.«101999_j28329604284662_1_alg».proof.Proof.KB.Comb0
import proofs.«101999_j28329604284662_1_alg».proof.Proof.KB.Norm1
import proofs.«101999_j28329604284662_1_alg».proof.Proof.KB.Comb2
import proofs.«101999_j28329604284662_1_alg».proof.Proof.KB.Norm3
import proofs.«101999_j28329604284662_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the pipeline leaves (the inputs as entered, each output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs folded),
    every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V4 m ρ) c
    unfold Pipeline.ΦA at h
    rw [show (pdats m ρ 2 c).Φ 0 = (dat2 (V4 m ρ) c).Φ 0 from rfl]
    iintro ⟨Hp, -, Hr⟩
    iapply h
    isplitl [Hr]; · iexact Hr
    iexact Hp
  hout c := by
    rw [Pipeline.ownSems0_none, show (pdats m ρ 2 c).Φ (Fin.last _) = (dat2 (V4 m ρ) c).Φ (Fin.last cfg2.N) from rfl]
    have h := hout2 (V4 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN. At the compiled mesh, from any memory with zero counters, every weakly fair execution of @main on the
    TensorCores terminates, nothing faulting, and every final state holds every unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KB.FrameArgs.lean ====
/-
  The argument arrays end as launched: no host operation writes one, and a region either reads one through an input
  window (whose array the pipeline leaves as it found it) or does not touch it; so the fold of the buffers' contents,
  read at an argument, walks back to the launch memory. With the run, that is the frame claim.
-/
import proofs.«101999_j28329604284662_1_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := (W5_arr m ρ c 3).trans (((dat2 (V4 m ρ) c).arrAt_in 3 rfl _).trans (A_eq2 (V4 m ρ) c 3))
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := (W5_arr m ρ c 4).trans (((dat2 (V4 m ρ) c).arrAt_in 4 rfl _).trans (A_eq2 (V4 m ρ) c 4))
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- THE FRAME at any instance: every weakly fair execution of @main terminates, nothing faulting, and every final state
    has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run m ρ)

/-- The same run with the result named: the result array ends at the last boundary's contents of its buffer, the eleven
    arguments as launched. -/
theorem run_out : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v63 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run m ρ)

end Cert.Kernel.Hand

end
-- ==== Proof.KI.Comb0Runs.lean ====
/-
  Region 0 of the program: the combine kernel on a grid of ten row blocks, what its three control cases share.
  At every point the body stores one block of z = x·W₀ + h1·W₁ + h2·W₂ + b and adds the block's column sums of z and
  of z² into two 1×32 scratch rows; the first point zeroes the scratch first; the last point also stores the mean row
  (sum / n) and the variance row (sum of squares / n − mean²). Here: the windows' blocks, the two branch conditions
  in closed form over the grid, where the two late outputs are idle, and the memrefs the body is called on.
-/
import proofs.«101999_j28329604284662_1_alg».proof.Proof.Gen.KernelIdeal.Launch
import proofs.«101999_j28329604284662_1_alg».proof.Proof.Gen.KernelIdeal.Skeleton
import proofs.«101999_j28329604284662_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- "This is the first point": the body's first branch condition, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the body's second branch condition. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! Where the windows are idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point the body stores nothing into output 6 and the pipeline does not write it back; at the last point it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_last : ∀ t : Fin cfg0.N, cond0_1 (grid0.coords t) → cfg0.idle 6 (grid0.coords t) = false := by decide +kernel
/-- Away from the last point the body stores nothing into output 7 and the pipeline does not write it back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_last : ∀ t : Fin cfg0.N, cond0_1 (grid0.coords t) → cfg0.idle 7 (grid0.coords t) = false := by decide +kernel

/-- One staging buffer of each output window, through which its contents are stated. -/
abbrev VO0_5 : View sig .tc .vmem S10000x32 .f32 := (Memref.whole cc0_stg5_0 : Memref sig .tc .vmem S10000x32 .f32).view
abbrev VO0_6 : View sig .tc .vmem S1x32 .f32 := (Memref.whole cc0_stg6_0 : Memref sig .tc .vmem S1x32 .f32).view
abbrev VO0_7 : View sig .tc .vmem S1x32 .f32 := (Memref.whole cc0_stg7_0 : Memref sig .tc .vmem S1x32 .f32).view
/-- Each window's current staging memref at point `t`, as the pipeline passes it. -/
abbrev ms0_0 (t : Fin cfg0.N) : Memref sig .tc .vmem S10000x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
/-- The two scratch rows: whole scoped buffers of the kernel's own, passed beside the windows. -/
abbrev scM0_0 : Memref sig .tc .vmem S1x32 .f32 := Memref.whole cc0_scratch0
abbrev scM0_1 : Memref sig .tc .vmem S1x32 .f32 := Memref.whole cc0_scratch1
abbrev VS0_0 : View sig .tc .vmem S1x32 .f32 := scM0_0.view
abbrev VS0_1 : View sig .tc .vmem S1x32 .f32 := scM0_1.view

/-- The region's untouched-scoped-buffers invariant with the two scratch rows taken out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Comb0RunA.lean ====
/-
  Region 0, the combine kernel's body run whole at the first point (the scratch rows zeroed first; the two late outputs idle): on whole staging memrefs — the five inputs' at
  given contents, the block output's at anything — it runs to its return holding the inputs' as they were and every
  buffer it stored into with its stores written, the list of stores of each being what the run finds.
-/
import proofs.«101999_j28329604284662_1_alg».proof.Proof.KI.Comb0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Comb0RunB.lean ====
/-
  Region 0, the combine kernel's body run whole at a middle point (the scratch rows carried; the two late outputs idle): on whole staging memrefs — the five inputs' at
  given contents, the block output's at anything — it runs to its return holding the inputs' as they were and every
  buffer it stored into with its stores written, the list of stores of each being what the run finds.
-/
import proofs.«101999_j28329604284662_1_alg».proof.Proof.KI.Comb0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Comb0RunC.lean ====
/-
  Region 0, the combine kernel's body run whole at the last point (the scratch rows carried; the mean and variance rows stored): on whole staging memrefs — the five inputs' at
  given contents, the block output's at anything — it runs to its return holding the inputs' as they were and every
  buffer it stored into with its stores written, the list of stores of each being what the run finds.
-/
import proofs.«101999_j28329604284662_1_alg».proof.Proof.KI.Comb0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_kernel_eq_skeleton]; unfold cc0__combine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Comb0.lean ====
/-
  Region 0, the combine kernel: what every buffer the body stores into holds per control case, what the block
  output, the two late outputs and the two scratch rows hold after each grid point (the scratch rows of one point are
  the next point's starting sums), the region's invariant carrying the scratch rows from point to point, the
  pipeline's proof data at an arbitrary region-entry contents `V`, and the body obligation at every point.
-/
import proofs.«101999_j28329604284662_1_alg».proof.Proof.KI.Comb0RunA
import proofs.«101999_j28329604284662_1_alg».proof.Proof.KI.Comb0RunB
import proofs.«101999_j28329604284662_1_alg».proof.Proof.KI.Comb0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Per case: each stored buffer's stores cover it, and what it then holds -/
theorem cover0_A_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S10000x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).1 (by sl_whole_mem) y
def out0_A_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S10000x32 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
theorem scover0_A_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S1x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).2.1 (by sl_whole_mem) y
def sout0_A_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S1x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) (y : S1x32.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 hc1 x0 x1 x2 x3 x4).2.2.1 (by sl_whole_mem) y
def sout0_A_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i)
    (x0 x1 x2 : Vec F S10000x32 .f32) (x3 : Vec F S3x32x32 .f32) (x4 : Vec F S32 .f32) : Vec F S1x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S10000x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out0_B_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S10000x32 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def sout0_B_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S1x32 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def sout0_B_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i)
    (x0 x1 x2 : Vec F S10000x32 .f32) (x3 : Vec F S3x32x32 .f32) (x4 : Vec F S32 .f32) (xs0 xs1 : Vec F S1x32 .f32) : Vec F S1x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover0_C_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S10000x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out0_C_5 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S10000x32 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
theorem cover0_C_6 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def out0_C_6 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover0_C_7 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def out0_C_7 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover0_C_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 (by sl_whole_mem) y
def sout0_C_0 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover0_C_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) (y : S1x32.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 (by sl_whole_mem) y
def sout0_C_1 (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i)
    (x0 x1 x2 : Vec F S10000x32 .f32) (x3 : Vec F S3x32x32 .f32) (x4 : Vec F S32 .f32) (xs0 xs1 : Vec F S1x32 .f32) : Vec F S1x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- What the three outputs' staging buffers and the two scratch rows hold after a point. -/
structure Outs0 (F : FTy → Type) [FloatOps F] where
  o5 : Vec F S10000x32 .f32
  o6 : Vec F S1x32 .f32
  o7 : Vec F S1x32 .f32
  s0 : Vec F S1x32 .f32
  s1 : Vec F S1x32 .f32

/-- THE ACCUMULATION, point by point: the first point's case from nothing; every later point's case from the scratch rows
    the point before left. Away from the last point the two late outputs are idle and their entries here are placeholders
    nothing consults (the blocks of their arrays). -/
def outsAt0 (c : Dev nD) : (n : ℕ) → n < cfg0.N → Outs0 F
  | 0, hn => ⟨out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩),
      iblk0 V c 6 ⟨0, hn⟩, iblk0 V c 7 ⟨0, hn⟩,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 9 from by decide)) (iblk0 V c 0 ⟨0, hn⟩) (iblk0 V c 1 ⟨0, hn⟩) (iblk0 V c 2 ⟨0, hn⟩) (iblk0 V c 3 ⟨0, hn⟩) (iblk0 V c 4 ⟨0, hn⟩)⟩
  | n + 1, hn =>
    if h9 : n + 1 = 9 then
      ⟨out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h9) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1⟩
    else
      ⟨out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        iblk0 V c 6 ⟨n + 1, hn⟩, iblk0 V c 7 ⟨n + 1, hn⟩,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h9 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).s0 (outsAt0 c n (Nat.lt_of_succ_lt hn)).s1⟩

/-- The accumulation at the first point. -/
theorem outsAt0_A (c : Dev nD) (t : Fin cfg0.N) (h0 : t.val = 0) :
    outsAt0 V c t.val t.isLt = ⟨out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
      iblk0 V c 6 t, iblk0 V c 7 t,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t)⟩ := by
  obtain ⟨n, hn⟩ := t
  cases n with
  | zero => rfl
  | succ n => exact absurd h0 (Nat.succ_ne_zero n)

/-- The accumulation at a middle point: over what the point before left in the scratch rows. -/
theorem outsAt0_B (c : Dev nD) (t : Fin cfg0.N) (h0 : ¬t.val = 0) (h9 : ¬t.val = 9) :
    outsAt0 V c t.val t.isLt = ⟨out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      iblk0 V c 6 t, iblk0 V c 7 t,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩ := by
  obtain ⟨n, hn⟩ := t
  cases n with
  | zero => exact absurd rfl h0
  | succ n => exact (dif_neg h9).trans rfl

/-- The accumulation at the last point. -/
theorem outsAt0_C (c : Dev nD) (t : Fin cfg0.N) (h0 : ¬t.val = 0) (h9 : t.val = 9) :
    outsAt0 V c t.val t.isLt = ⟨out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩ := by
  obtain ⟨n, hn⟩ := t
  cases n with
  | zero => exact absurd rfl h0
  | succ n => exact (dif_pos h9).trans rfl

/-- The region's invariant before position `n`: before the first point every scoped buffer at anything; afterwards the
    two scratch rows at what the point before left in them, the other scoped buffers at anything, the generator register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).s0) ∗ owns (c : Thread nD τ) scM0_1 fullShare ((outsAt0 V c n hn).s1))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).s0) ∗ owns (c : Thread nD τ) scM0_1 fullShare ((outsAt0 V c n hn).s1))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).s0) ∗ owns (c : Thread nD τ) scM0_1 fullShare ((outsAt0 V c (n - 1) (by omega)).s1))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The pipeline's proof data on core `c`: the arrays as the region finds them; after the body at point `t` each input's
    buffer at its block and the outputs' at the accumulation's entries; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).o5
    | ⟨6, _⟩ => (outsAt0 V c t.val t.isLt).o6
    | ⟨7, _⟩ => (outsAt0 V c t.val t.isLt).o7
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the point's position says which case runs; the invariant
    hands the body the two scratch rows at what the point before left (at anything at the first point) and takes them
    back at this point's contents; away from the last point the two late outputs' buffers are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have h9 : ¬t.val = 9 := by omega
    rw [Dat.leavesExact_idle (dat0 V c) 6 t (idleAt0_6 t (fun h => h9 ((hcond0_1 t).mp h))) (noFlush0_6 t (fun h => h9 ((hcond0_1 t).mp h))),
      Dat.leavesExact_idle (dat0 V c) 7 t (idleAt0_7 t (fun h => h9 ((hcond0_1 t).mp h))) (noFlush0_7 t (fun h => h9 ((hcond0_1 t).mp h)))]
    rw [outsAt0_A V c t h0]
    unfold out0_A_5 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h9 ((hcond0_1 t).mp h)) (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · have hz : t.val ≠ 0 := h0
    by_cases h9 : t.val = 9
    · rw [show (dat0 V c).leavesExact 6 t = owns (c : Thread nD τ) (ms0_6 t) fullShare ((dat0 V c).after 6 t) from by
        unfold Dat.leavesExact; rw [liveAt0_6_last t ((hcond0_1 t).mpr h9)], after0_6]
      rw [show (dat0 V c).leavesExact 7 t = owns (c : Thread nD τ) (ms0_7 t) fullShare ((dat0 V c).after 7 t) from by
        unfold Dat.leavesExact; rw [liveAt0_7_last t ((hcond0_1 t).mpr h9)], after0_7]
      rw [outsAt0_C V c t h0 h9]
      unfold out0_C_5 out0_C_6 out0_C_7 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h9) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    · rw [Dat.leavesExact_idle (dat0 V c) 6 t (idleAt0_6 t (fun h => h9 ((hcond0_1 t).mp h))) (noFlush0_6 t (fun h => h9 ((hcond0_1 t).mp h))),
        Dat.leavesExact_idle (dat0 V c) 7 t (idleAt0_7 t (fun h => h9 ((hcond0_1 t).mp h))) (noFlush0_7 t (fun h => h9 ((hcond0_1 t).mp h)))]
      rw [outsAt0_B V c t h0 h9]
      unfold out0_B_5 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h9 ((hcond0_1 t).mp h)) (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the untouched-scoped-buffers form back: the scratch rows' contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end Cert.KernelIdeal.Hand

end
-- ==== Proof.KI.Norm1.lean ====
/-
  Region 1 of the program: the normalise-and-rectify kernel on a grid of ten row blocks. Each point loads a block of
  10000 rows, the mean row, the variance row, the scale row and the shift row, and stores ONE block: a pointwise
  function of those five loads. Here: what the body leaves in the output's staging buffer as a function of the loaded
  blocks, the body's triple, the pipeline's proof data at an arbitrary region-entry contents `V`, and the body obligation
  at every grid point. Nothing is carried between points.
-/
import proofs.«101999_j28329604284662_1_alg».proof.Proof.Gen.KernelIdeal.Launch
import proofs.«101999_j28329604284662_1_alg».proof.Proof.Gen.KernelIdeal.Skeleton
import proofs.«101999_j28329604284662_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether or not the pipeline
    fetched it there, for any proof data whose array is `V`'s and whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the array at every point, whether or not the pipeline
    fetched it there, for any proof data whose array is `V`'s and whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the array at every point, whether or not the pipeline
    fetched it there, for any proof data whose array is `V`'s and whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the array at every point, whether or not the pipeline
    fetched it there, for any proof data whose array is `V`'s and whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the array at every point, whether or not the pipeline
    fetched it there, for any proof data whose array is `V`'s and whose body leaves that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×32 block, and the whole 1×32 row, as the body's loads and its store address them. -/
abbrev rBlk1 : Rect S10000x32 := Rect.unit (s := S10000x32) ![0, 0] S10000x32.size inb_S10000x32_S10000x32_0_0
abbrev rRow1 : Rect S1x32 := Rect.unit (s := S1x32) ![0, 0] S1x32.size inb_S1x32_S1x32_0_0

/-- What the body leaves in the output's staging buffer: its one store, of the pointwise function of the five loads. -/
def out1_5 (x0 : Vec F S10000x32 .f32) (x1 x2 x3 x4 : Vec F S1x32 .f32) : Vec F S10000x32 .f32 :=
  View.canon [⟨rBlk1, k1_pay1 (View.ld x0 rBlk1) (View.ld x1 rRow1) (View.ld x2 rRow1) (View.ld x3 rRow1) (View.ld x4 rRow1)⟩]

/-- The one store covers the buffer. -/
theorem cover1_5 (p0 : Vec F S10000x32 .f32) (y : S10000x32.Idx) :
    ∃ pc ∈ ([⟨rBlk1, p0⟩] : List (View.Piece (Elt F) S10000x32 .f32)), y ∈ pc.1.set :=
  View.cover_of_tiled [⟨rBlk1, p0⟩] S10000x32.size (by rfl) y

set_option maxHeartbeats 4000000 in
/-- The body on whole staging memrefs, the five inputs' at given contents and the output's at anything, runs to its
    return holding the inputs' as they were and the output's at `out1_5` of the inputs'. -/
theorem sound_kernel1 (c : Dev nD) (E : Set ℕ) (i : grid1.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S10000x32 .f32) (harg6 : arg6.IsWhole)
    (x0 : Vec F S10000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__norm_act_kernel i arg1 harg1 arg2 harg2 arg3 harg3 arg4 harg4 arg5 harg5 arg6 harg6) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each input's
    buffer at its block and the output's at `out1_5` of the input blocks; the invariant the scoped buffers and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Comb2Runs.lean ====
/-
  Region 2 of the program: the combine kernel on a grid of ten row blocks, what its three control cases share.
  At every point the body stores one block of z = x·W₀ + h1·W₁ + h2·W₂ + b and adds the block's column sums of z and
  of z² into two 1×32 scratch rows; the first point zeroes the scratch first; the last point also stores the mean row
  (sum / n) and the variance row (sum of squares / n − mean²). Here: the windows' blocks, the two branch conditions
  in closed form over the grid, where the two late outputs are idle, and the memrefs the body is called on.
-/
import proofs.«101999_j28329604284662_1_alg».proof.Proof.Gen.KernelIdeal.Launch
import proofs.«101999_j28329604284662_1_alg».proof.Proof.Gen.KernelIdeal.Skeleton
import proofs.«101999_j28329604284662_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block of the array at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- "This is the first point": the body's first branch condition, from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the body's second branch condition. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! Where the windows are idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the body stores nothing into output 6 and the pipeline does not write it back; at the last point it is live. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_last : ∀ t : Fin cfg2.N, cond2_1 (grid2.coords t) → cfg2.idle 6 (grid2.coords t) = false := by decide +kernel
/-- Away from the last point the body stores nothing into output 7 and the pipeline does not write it back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_last : ∀ t : Fin cfg2.N, cond2_1 (grid2.coords t) → cfg2.idle 7 (grid2.coords t) = false := by decide +kernel

/-- One staging buffer of each output window, through which its contents are stated. -/
abbrev VO2_5 : View sig .tc .vmem S10000x32 .f32 := (Memref.whole cc2_stg5_0 : Memref sig .tc .vmem S10000x32 .f32).view
abbrev VO2_6 : View sig .tc .vmem S1x32 .f32 := (Memref.whole cc2_stg6_0 : Memref sig .tc .vmem S1x32 .f32).view
abbrev VO2_7 : View sig .tc .vmem S1x32 .f32 := (Memref.whole cc2_stg7_0 : Memref sig .tc .vmem S1x32 .f32).view
/-- Each window's current staging memref at point `t`, as the pipeline passes it. -/
abbrev ms2_0 (t : Fin cfg2.N) : Memref sig .tc .vmem S10000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
/-- The two scratch rows: whole scoped buffers of the kernel's own, passed beside the windows. -/
abbrev scM2_0 : Memref sig .tc .vmem S1x32 .f32 := Memref.whole cc2_scratch0
abbrev scM2_1 : Memref sig .tc .vmem S1x32 .f32 := Memref.whole cc2_scratch1
abbrev VS2_0 : View sig .tc .vmem S1x32 .f32 := scM2_0.view
abbrev VS2_1 : View sig .tc .vmem S1x32 .f32 := scM2_1.view

/-- The region's untouched-scoped-buffers invariant with the two scratch rows taken out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Comb2RunA.lean ====
/-
  Region 2, the combine kernel's body run whole at the first point (the scratch rows zeroed first; the two late outputs idle): on whole staging memrefs — the five inputs' at
  given contents, the block output's at anything — it runs to its return holding the inputs' as they were and every
  buffer it stored into with its stores written, the list of stores of each being what the run finds.
-/
import proofs.«101999_j28329604284662_1_alg».proof.Proof.KI.Comb2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Comb2RunB.lean ====
/-
  Region 2, the combine kernel's body run whole at a middle point (the scratch rows carried; the two late outputs idle): on whole staging memrefs — the five inputs' at
  given contents, the block output's at anything — it runs to its return holding the inputs' as they were and every
  buffer it stored into with its stores written, the list of stores of each being what the run finds.
-/
import proofs.«101999_j28329604284662_1_alg».proof.Proof.KI.Comb2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (LS0 : List (View.Piece (Elt F) S1x32 .f32)), { LS1 : List (View.Piece (Elt F) S1x32 .f32) //
      ∀ (xi6 xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Comb2RunC.lean ====
/-
  Region 2, the combine kernel's body run whole at the last point (the scratch rows carried; the mean and variance rows stored): on whole staging memrefs — the five inputs' at
  given contents, the block output's at anything — it runs to its return holding the inputs' as they were and every
  buffer it stored into with its stores written, the list of stores of each being what the run finds.
-/
import proofs.«101999_j28329604284662_1_alg».proof.Proof.KI.Comb2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) :
    Σ' (L5 : List (View.Piece (Elt F) S10000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Comb2.lean ====
/-
  Region 2, the combine kernel: what every buffer the body stores into holds per control case, what the block
  output, the two late outputs and the two scratch rows hold after each grid point (the scratch rows of one point are
  the next point's starting sums), the region's invariant carrying the scratch rows from point to point, the
  pipeline's proof data at an arbitrary region-entry contents `V`, and the body obligation at every point.
-/
import proofs.«101999_j28329604284662_1_alg».proof.Proof.KI.Comb2RunA
import proofs.«101999_j28329604284662_1_alg».proof.Proof.KI.Comb2RunB
import proofs.«101999_j28329604284662_1_alg».proof.Proof.KI.Comb2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Per case: each stored buffer's stores cover it, and what it then holds -/
theorem cover2_A_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S10000x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).1 (by sl_whole_mem) y
def out2_A_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S10000x32 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
theorem scover2_A_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).2.1 (by sl_whole_mem) y
def sout2_A_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S1x32 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
theorem scover2_A_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_wholeMem (kernelRun2_A c i arg1 harg1 arg2 harg2 arg3 harg3 arg4 harg4 arg5 harg5 arg6 harg6 arg7 harg7 arg8 harg8 arg9 harg9 arg10 harg10 hc0 hc1 x0 x1 x2 x3 x4).2.2.1 (by sl_whole_mem) y
def sout2_A_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i)
    (x0 x1 x2 : Vec F S10000x32 .f32) (x3 : Vec F S3x32x32 .f32) (x4 : Vec F S32 .f32) : Vec F S1x32 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
theorem cover2_B_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S10000x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out2_B_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S10000x32 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
theorem scover2_B_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def sout2_B_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S1x32 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover2_B_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def sout2_B_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i)
    (x0 x1 x2 : Vec F S10000x32 .f32) (x3 : Vec F S3x32x32 .f32) (x4 : Vec F S32 .f32) (xs0 xs1 : Vec F S1x32 .f32) : Vec F S1x32 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover2_C_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S10000x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).1 (by sl_whole_mem) y
def out2_C_5 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S10000x32 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
theorem cover2_C_6 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 (by sl_whole_mem) y
def out2_C_6 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover2_C_7 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 (by sl_whole_mem) y
def out2_C_7 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover2_C_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 (by sl_whole_mem) y
def sout2_C_0 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover2_C_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_wholeMem (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 (by sl_whole_mem) y
def sout2_C_1 (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i)
    (x0 x1 x2 : Vec F S10000x32 .f32) (x3 : Vec F S3x32x32 .f32) (x4 : Vec F S32 .f32) (xs0 xs1 : Vec F S1x32 .f32) : Vec F S1x32 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- What the three outputs' staging buffers and the two scratch rows hold after a point. -/
structure Outs2 (F : FTy → Type) [FloatOps F] where
  o5 : Vec F S10000x32 .f32
  o6 : Vec F S1x32 .f32
  o7 : Vec F S1x32 .f32
  s0 : Vec F S1x32 .f32
  s1 : Vec F S1x32 .f32

/-- THE ACCUMULATION, point by point: the first point's case from nothing; every later point's case from the scratch rows
    the point before left. Away from the last point the two late outputs are idle and their entries here are placeholders
    nothing consults (the blocks of their arrays). -/
def outsAt2 (c : Dev nD) : (n : ℕ) → n < cfg2.N → Outs2 F
  | 0, hn => ⟨out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩),
      iblk2 V c 6 ⟨0, hn⟩, iblk2 V c 7 ⟨0, hn⟩,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => absurd ((hcond2_1 ⟨0, hn⟩).mp h) (show ¬(0 : ℕ) = 9 from by decide)) (iblk2 V c 0 ⟨0, hn⟩) (iblk2 V c 1 ⟨0, hn⟩) (iblk2 V c 2 ⟨0, hn⟩) (iblk2 V c 3 ⟨0, hn⟩) (iblk2 V c 4 ⟨0, hn⟩)⟩
  | n + 1, hn =>
    if h9 : n + 1 = 9 then
      ⟨out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h9) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1⟩
    else
      ⟨out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        iblk2 V c 6 ⟨n + 1, hn⟩, iblk2 V c 7 ⟨n + 1, hn⟩,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h9 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).s0 (outsAt2 c n (Nat.lt_of_succ_lt hn)).s1⟩

/-- The accumulation at the first point. -/
theorem outsAt2_A (c : Dev nD) (t : Fin cfg2.N) (h0 : t.val = 0) :
    outsAt2 V c t.val t.isLt = ⟨out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
      iblk2 V c 6 t, iblk2 V c 7 t,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t)⟩ := by
  obtain ⟨n, hn⟩ := t
  cases n with
  | zero => rfl
  | succ n => exact absurd h0 (Nat.succ_ne_zero n)

/-- The accumulation at a middle point: over what the point before left in the scratch rows. -/
theorem outsAt2_B (c : Dev nD) (t : Fin cfg2.N) (h0 : ¬t.val = 0) (h9 : ¬t.val = 9) :
    outsAt2 V c t.val t.isLt = ⟨out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      iblk2 V c 6 t, iblk2 V c 7 t,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩ := by
  obtain ⟨n, hn⟩ := t
  cases n with
  | zero => exact absurd rfl h0
  | succ n => exact (dif_neg h9).trans rfl

/-- The accumulation at the last point. -/
theorem outsAt2_C (c : Dev nD) (t : Fin cfg2.N) (h0 : ¬t.val = 0) (h9 : t.val = 9) :
    outsAt2 V c t.val t.isLt = ⟨out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩ := by
  obtain ⟨n, hn⟩ := t
  cases n with
  | zero => exact absurd rfl h0
  | succ n => exact (dif_pos h9).trans rfl

/-- The region's invariant before position `n`: before the first point every scoped buffer at anything; afterwards the
    two scratch rows at what the point before left in them, the other scoped buffers at anything, the generator register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).s0) ∗ owns (c : Thread nD τ) scM2_1 fullShare ((outsAt2 V c n hn).s1))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).s0) ∗ owns (c : Thread nD τ) scM2_1 fullShare ((outsAt2 V c n hn).s1))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).s0) ∗ owns (c : Thread nD τ) scM2_1 fullShare ((outsAt2 V c (n - 1) (by omega)).s1))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The pipeline's proof data on core `c`: the arrays as the region finds them; after the body at point `t` each input's
    buffer at its block and the outputs' at the accumulation's entries; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).o5
    | ⟨6, _⟩ => (outsAt2 V c t.val t.isLt).o6
    | ⟨7, _⟩ => (outsAt2 V c t.val t.isLt).o7
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).o5 := by dsimp only [dat2]
theorem after2_6 (c : Dev nD) (t : Fin cfg2.N) : (dat2 V c).after 6 t = (outsAt2 V c t.val t.isLt).o6 := by dsimp only [dat2]
theorem after2_7 (c : Dev nD) (t : Fin cfg2.N) : (dat2 V c).after 7 t = (outsAt2 V c t.val t.isLt).o7 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the point's position says which case runs; the invariant
    hands the body the two scratch rows at what the point before left (at anything at the first point) and takes them
    back at this point's contents; away from the last point the two late outputs' buffers are handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val = 0
  · have h9 : ¬t.val = 9 := by omega
    rw [Dat.leavesExact_idle (dat2 V c) 6 t (idleAt2_6 t (fun h => h9 ((hcond2_1 t).mp h))) (noFlush2_6 t (fun h => h9 ((hcond2_1 t).mp h))),
      Dat.leavesExact_idle (dat2 V c) 7 t (idleAt2_7 t (fun h => h9 ((hcond2_1 t).mp h))) (noFlush2_7 t (fun h => h9 ((hcond2_1 t).mp h)))]
    rw [outsAt2_A V c t h0]
    unfold out2_A_5 sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h9 ((hcond2_1 t).mp h)) (iblk2 V c 0 t) (iblk2 V c 1 t) (iblk2 V c 2 t) (iblk2 V c 3 t) (iblk2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _ _ _)
    isplitl [H6]; · iexists _; iexact H6
    iexists _; iexact H7
  · have hz : t.val ≠ 0 := h0
    by_cases h9 : t.val = 9
    · rw [show (dat2 V c).leavesExact 6 t = owns (c : Thread nD τ) (ms2_6 t) fullShare ((dat2 V c).after 6 t) from by
        unfold Dat.leavesExact; rw [liveAt2_6_last t ((hcond2_1 t).mpr h9)], after2_6]
      rw [show (dat2 V c).leavesExact 7 t = owns (c : Thread nD τ) (ms2_7 t) fullShare ((dat2 V c).after 7 t) from by
        unfold Dat.leavesExact; rw [liveAt2_7_last t ((hcond2_1 t).mpr h9)], after2_7]
      rw [outsAt2_C V c t h0 h9]
      unfold out2_C_5 out2_C_6 out2_C_7 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h9) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c _ _ _ _ _ _ _ _ _ _ _ _ _ _ _ _ _ _ _ _ _ _ _ _ _ _ _ _ _ _)
    · rw [Dat.leavesExact_idle (dat2 V c) 6 t (idleAt2_6 t (fun h => h9 ((hcond2_1 t).mp h))) (noFlush2_6 t (fun h => h9 ((hcond2_1 t).mp h))),
        Dat.leavesExact_idle (dat2 V c) 7 t (idleAt2_7 t (fun h => h9 ((hcond2_1 t).mp h))) (noFlush2_7 t (fun h => h9 ((hcond2_1 t).mp h)))]
      rw [outsAt2_B V c t h0 h9]
      unfold out2_B_5 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h9 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the untouched-scoped-buffers form back: the scratch rows' contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout2 (c : Dev nD) : (dat2 V c).Φ (Fin.last cfg2.N) ⊢ (Pipeline.ΦA spec2 c : sProp 𝕄) :=
  Phi_out2 V c _ (by rw [Fin.val_last]; have : cfg2.N = 10 := N_2; omega)

end Cert.KernelIdeal.Hand

end
-- ==== Proof.KI.Norm3.lean ====
/-
  Region 3 of the program: the normalise-and-rectify kernel on a grid of ten row blocks. Each point loads a block of
  10000 rows, the mean row, the variance row, the scale row and the shift row, and stores ONE block: a pointwise
  function of those five loads. Here: what the body leaves in the output's staging buffer as a function of the loaded
  blocks, the body's triple, the pipeline's proof data at an arbitrary region-entry contents `V`, and the body obligation
  at every grid point. Nothing is carried between points.
-/
import proofs.«101999_j28329604284662_1_alg».proof.Proof.Gen.KernelIdeal.Launch
import proofs.«101999_j28329604284662_1_alg».proof.Proof.Gen.KernelIdeal.Skeleton
import proofs.«101999_j28329604284662_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every point, whether or not the pipeline
    fetched it there, for any proof data whose array is `V`'s and whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block of the array at every point, whether or not the pipeline
    fetched it there, for any proof data whose array is `V`'s and whose body leaves that block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block of the array at every point, whether or not the pipeline
    fetched it there, for any proof data whose array is `V`'s and whose body leaves that block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block of the array at every point, whether or not the pipeline
    fetched it there, for any proof data whose array is `V`'s and whose body leaves that block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block of the array at every point, whether or not the pipeline
    fetched it there, for any proof data whose array is `V`'s and whose body leaves that block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×32 block, and the whole 1×32 row, as the body's loads and its store address them. -/
abbrev rBlk3 : Rect S10000x32 := Rect.unit (s := S10000x32) ![0, 0] S10000x32.size inb_S10000x32_S10000x32_0_0
abbrev rRow3 : Rect S1x32 := Rect.unit (s := S1x32) ![0, 0] S1x32.size inb_S1x32_S1x32_0_0

/-- What the body leaves in the output's staging buffer: its one store, of the pointwise function of the five loads. -/
def out3_5 (x0 : Vec F S10000x32 .f32) (x1 x2 x3 x4 : Vec F S1x32 .f32) : Vec F S10000x32 .f32 :=
  View.canon [⟨rBlk3, k3_pay1 (View.ld x0 rBlk3) (View.ld x1 rRow3) (View.ld x2 rRow3) (View.ld x3 rRow3) (View.ld x4 rRow3)⟩]

/-- The one store covers the buffer. -/
theorem cover3_5 (p0 : Vec F S10000x32 .f32) (y : S10000x32.Idx) :
    ∃ pc ∈ ([⟨rBlk3, p0⟩] : List (View.Piece (Elt F) S10000x32 .f32)), y ∈ pc.1.set :=
  View.cover_of_tiled [⟨rBlk3, p0⟩] S10000x32.size (by rfl) y

set_option maxHeartbeats 4000000 in
/-- The body on whole staging memrefs, the five inputs' at given contents and the output's at anything, runs to its
    return holding the inputs' as they were and the output's at `out3_5` of the inputs'. -/
theorem sound_kernel3 (c : Dev nD) (E : Set ℕ) (i : grid3.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S10000x32 .f32) (harg6 : arg6.IsWhole)
    (x0 : Vec F S10000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__norm_act_kernel i arg1 harg1 arg2 harg2 arg3 harg3 arg4 harg4 arg5 harg5 arg6 harg6) K := by
  simp only [cc3__norm_act_kernel_eq_skeleton]; unfold cc3__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's proof data on core `c`: the arrays as the region finds them; after the body at point `t` each input's
    buffer at its block and the output's at `out3_5` of the input blocks; the invariant the scoped buffers and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1600000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Frame.lean ====
/-
  The program's run from the launch to the return. Its @main is a stretch of host operations (the two neighbourhood
  sums of the input), the combine kernel, the normalise kernel, a second stretch of host operations (the two
  neighbourhood sums of the first layer's output), and the two kernels again. Here: the buffers' contents at every
  boundary between two of these six items, as a fold from the launch memory; every pipeline's proof data at its
  region's entry contents; each region as a segment over the thread state "every unscoped buffer at the boundary's
  contents, the generator register at some state, nothing owed"; and the run: every weakly fair execution terminates,
  nothing faulting, with every unscoped buffer at the last boundary's contents.
-/
import proofs.«101999_j28329604284662_1_alg».proof.Proof.KI.Comb0
import proofs.«101999_j28329604284662_1_alg».proof.Proof.KI.Norm1
import proofs.«101999_j28329604284662_1_alg».proof.Proof.KI.Comb2
import proofs.«101999_j28329604284662_1_alg».proof.Proof.KI.Norm3
import proofs.«101999_j28329604284662_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what the pipeline leaves (the inputs as entered, each output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs folded),
    every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V4 m ρ) c
    unfold Pipeline.ΦA at h
    rw [show (pdats m ρ 2 c).Φ 0 = (dat2 (V4 m ρ) c).Φ 0 from rfl]
    iintro ⟨Hp, -, Hr⟩
    iapply h
    isplitl [Hr]; · iexact Hr
    iexact Hp
  hout c := by
    rw [Pipeline.ownSems0_none, show (pdats m ρ 2 c).Φ (Fin.last _) = (dat2 (V4 m ρ) c).Φ (Fin.last cfg2.N) from rfl]
    have h := hout2 (V4 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays are split
    out of the unscoped buffers and put back at the exit contents; the generator register goes into the region's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN. At the compiled mesh, from any memory with zero counters, every weakly fair execution of @main on the
    TensorCores terminates, nothing faulting, and every final state holds every unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.FrameArgs.lean ====
/-
  The argument arrays end as launched: no host operation writes one, and a region either reads one through an input
  window (whose array the pipeline leaves as it found it) or does not touch it; so the fold of the buffers' contents,
  read at an argument, walks back to the launch memory. With the run, that is the frame claim.
-/
import proofs.«101999_j28329604284662_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := (W5_arr m ρ c 3).trans (((dat2 (V4 m ρ) c).arrAt_in 3 rfl _).trans (A_eq2 (V4 m ρ) c 3))
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := (W5_arr m ρ c 4).trans (((dat2 (V4 m ρ) c).arrAt_in 4 rfl _).trans (A_eq2 (V4 m ρ) c 4))
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- THE FRAME at any instance: every weakly fair execution of @main terminates, nothing faulting, and every final state
    has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run m ρ)

/-- The same run with the result named: the result array ends at the last boundary's contents of its buffer, the eleven
    arguments as launched. -/
theorem run_out : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v63 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run m ρ)

end Cert.KernelIdeal.Hand

end
-- ==== Proof.KI.Transport.lean ====
/-
  Each buffer the value computation reads, at the boundary where it is read, carried back to where it was written: a
  region's output array is what its pipeline leaves; a buffer no item in between writes keeps its contents.
-/
import proofs.«101999_j28329604284662_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  (StableHlo.after_of_writes_sub hostOps0 _ hostOps0_writes (by decide) : W1 m ρ c (Proc.devRef .tc main_arg0) = W0 m ρ c (Proc.devRef .tc main_arg0)).trans rfl
theorem W1_main_arg3 (c : Dev nD) : W1 m ρ c (Proc.devRef .tc main_arg3) = m ((c : Thread nD τ).loc main_arg3) :=
  (StableHlo.after_of_writes_sub hostOps0 _ hostOps0_writes (by decide) : W1 m ρ c (Proc.devRef .tc main_arg3) = W0 m ρ c (Proc.devRef .tc main_arg3)).trans rfl
theorem W1_main_arg4 (c : Dev nD) : W1 m ρ c (Proc.devRef .tc main_arg4) = m ((c : Thread nD τ).loc main_arg4) :=
  (StableHlo.after_of_writes_sub hostOps0 _ hostOps0_writes (by decide) : W1 m ρ c (Proc.devRef .tc main_arg4) = W0 m ρ c (Proc.devRef .tc main_arg4)).trans rfl
theorem W2_main_v34_0 (c : Dev nD) : W2 m ρ c (Proc.devRef .tc main_v34_0) = (dat0 (V1 m ρ) c).arrAt 5 cfg0.N := W2_arr m ρ c 5
theorem W2_main_v34_1 (c : Dev nD) : W2 m ρ c (Proc.devRef .tc main_v34_1) = (dat0 (V1 m ρ) c).arrAt 6 cfg0.N := W2_arr m ρ c 6
theorem W2_main_v34_2 (c : Dev nD) : W2 m ρ c (Proc.devRef .tc main_v34_2) = (dat0 (V1 m ρ) c).arrAt 7 cfg0.N := W2_arr m ρ c 7
theorem W2_main_v4 (c : Dev nD) : W2 m ρ c (Proc.devRef .tc main_v4) = W1 m ρ c (Proc.devRef .tc main_v4) := (W2_of_ne m ρ c main_v4 (by decide))
theorem W2_main_v5 (c : Dev nD) : W2 m ρ c (Proc.devRef .tc main_v5) = W1 m ρ c (Proc.devRef .tc main_v5) := (W2_of_ne m ρ c main_v5 (by decide))
theorem W3_main_v35 (c : Dev nD) : W3 m ρ c (Proc.devRef .tc main_v35) = (dat1 (V2 m ρ) c).arrAt 5 cfg1.N := W3_arr m ρ c 5
theorem W3_main_v1 (c : Dev nD) : W3 m ρ c (Proc.devRef .tc main_v1) = W1 m ρ c (Proc.devRef .tc main_v1) := (W3_of_ne m ρ c main_v1 (by decide)).trans (W2_of_ne m ρ c main_v1 (by decide))
theorem W3_main_v3 (c : Dev nD) : W3 m ρ c (Proc.devRef .tc main_v3) = W1 m ρ c (Proc.devRef .tc main_v3) := (W3_of_ne m ρ c main_v3 (by decide)).trans (W2_of_ne m ρ c main_v3 (by decide))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans ((StableHlo.after_of_writes_sub hostOps0 _ hostOps0_writes (by decide) : W1 m ρ c (Proc.devRef .tc main_arg2) = W0 m ρ c (Proc.devRef .tc main_arg2)).trans rfl))
theorem W4_main_v35 (c : Dev nD) : W4 m ρ c (Proc.devRef .tc main_v35) = W3 m ρ c (Proc.devRef .tc main_v35) := (StableHlo.after_of_writes_sub hostOps2 _ hostOps2_writes (by decide) : W4 m ρ c (Proc.devRef .tc main_v35) = W3 m ρ c (Proc.devRef .tc main_v35))
theorem W4_main_arg7 (c : Dev nD) : W4 m ρ c (Proc.devRef .tc main_arg7) = m ((c : Thread nD τ).loc main_arg7) :=
  (StableHlo.after_of_writes_sub hostOps2 _ hostOps2_writes (by decide) : W4 m ρ c (Proc.devRef .tc main_arg7) = W3 m ρ c (Proc.devRef .tc main_arg7)).trans ((W3_of_ne m ρ c main_arg7 (by decide)).trans ((W2_of_ne m ρ c main_arg7 (by decide)).trans ((StableHlo.after_of_writes_sub hostOps0 _ hostOps0_writes (by decide) : W1 m ρ c (Proc.devRef .tc main_arg7) = W0 m ρ c (Proc.devRef .tc main_arg7)).trans rfl)))
theorem W4_main_arg8 (c : Dev nD) : W4 m ρ c (Proc.devRef .tc main_arg8) = m ((c : Thread nD τ).loc main_arg8) :=
  (StableHlo.after_of_writes_sub hostOps2 _ hostOps2_writes (by decide) : W4 m ρ c (Proc.devRef .tc main_arg8) = W3 m ρ c (Proc.devRef .tc main_arg8)).trans ((W3_of_ne m ρ c main_arg8 (by decide)).trans ((W2_of_ne m ρ c main_arg8 (by decide)).trans ((StableHlo.after_of_writes_sub hostOps0 _ hostOps0_writes (by decide) : W1 m ρ c (Proc.devRef .tc main_arg8) = W0 m ρ c (Proc.devRef .tc main_arg8)).trans rfl)))
theorem W5_main_v62_0 (c : Dev nD) : W5 m ρ c (Proc.devRef .tc main_v62_0) = (dat2 (V4 m ρ) c).arrAt 5 cfg2.N := W5_arr m ρ c 5
theorem W5_main_v62_1 (c : Dev nD) : W5 m ρ c (Proc.devRef .tc main_v62_1) = (dat2 (V4 m ρ) c).arrAt 6 cfg2.N := W5_arr m ρ c 6
theorem W5_main_v62_2 (c : Dev nD) : W5 m ρ c (Proc.devRef .tc main_v62_2) = (dat2 (V4 m ρ) c).arrAt 7 cfg2.N := W5_arr m ρ c 7
theorem W5_main_v6 (c : Dev nD) : W5 m ρ c (Proc.devRef .tc main_v6) = W1 m ρ c (Proc.devRef .tc main_v6) :=
  (W5_of_ne m ρ c main_v6 (by decide)).trans ((StableHlo.after_of_writes_sub hostOps2 _ hostOps2_writes (by decide) : W4 m ρ c (Proc.devRef .tc main_v6) = W3 m ρ c (Proc.devRef .tc main_v6)).trans ((W3_of_ne m ρ c main_v6 (by decide)).trans (W2_of_ne m ρ c main_v6 (by decide))))
theorem W5_main_v7 (c : Dev nD) : W5 m ρ c (Proc.devRef .tc main_v7) = W1 m ρ c (Proc.devRef .tc main_v7) :=
  (W5_of_ne m ρ c main_v7 (by decide)).trans ((StableHlo.after_of_writes_sub hostOps2 _ hostOps2_writes (by decide) : W4 m ρ c (Proc.devRef .tc main_v7) = W3 m ρ c (Proc.devRef .tc main_v7)).trans ((W3_of_ne m ρ c main_v7 (by decide)).trans (W2_of_ne m ρ c main_v7 (by decide))))
theorem W6_main_v63 (c : Dev nD) : W6 m ρ c (Proc.devRef .tc main_v63) = (dat3 (V5 m ρ) c).arrAt 5 cfg3.N := W6_arr m ρ c 5

end Cert.KernelIdeal.Hand

end
-- ==== Proof.KI.HostRead.lean ====
/-
  The two stretches of host operations the kernel program runs between its kernels, read for any contents of the
  buffers: the edge array's source and target rows, the four per-feature vectors reshaped to one row, and the
  one- and two-step weighted neighbourhood sums — the same gather, multiply and scatter-add, with the source and target
  rows as parameters.
-/
import proofs.«101999_j28329604284662_1_alg».proof.Proof.Gen.KernelIdeal.Launch
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the edge array, flattened. -/
def srcRowK (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' target nodes: row 1 of the edge array, flattened. -/
def dstRowK (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A source index below zero counts from the end. -/
def wrapIdxK (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The weighted neighbourhood sum of `x` over edges with source rows `src`, target rows `dst` and weights `ew`:
    gather the rows at the sources, multiply each by its edge's weight, scatter-add onto zero at the targets. -/
def hopK (src dst : (⟨S1600000, .i32⟩ : BufTy).Contents (Elt F)) (ew : (⟨S1600000, .f32⟩ : BufTy).Contents (Elt F)) (x : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (mulf (Host.gather gather_S100000x32_S1600000x1_S1600000x32_1_0_n_n_0_1_132 x
        (broadcastInDim S1600000x1 ![0] bcast_S1600000_S1600000x1_0 (wrapIdxK src)))
      (broadcastInDim S1600000x32 ![0, 1] bcast_S1600000x1_S1600000x32_0_1
        (broadcastInDim S1600000x1 ![0] bcast_S1600000_S1600000x1_0 ew)))

/-! ## The first stretch -/

set_option maxRecDepth 8192 in
set_option maxHeartbeats 2000000 in
theorem hostOps0_main_v1 (W : Valuation τ sig (Elt F)) :
    StableHlo.after hostOps0 W (Proc.devRef .tc main_v1) = srcRowK (W (Proc.devRef .tc main_arg1)) := by
  unfold hostOps0
  after_results_simp
  rfl

set_option maxRecDepth 8192 in
set_option maxHeartbeats 2000000 in
theorem hostOps0_main_v3 (W : Valuation τ sig (Elt F)) :
    StableHlo.after hostOps0 W (Proc.devRef .tc main_v3) = dstRowK (W (Proc.devRef .tc main_arg1)) := by
  unfold hostOps0
  after_results_simp
  rfl

set_option maxRecDepth 8192 in
set_option maxHeartbeats 2000000 in
theorem hostOps0_main_v4 (W : Valuation τ sig (Elt F)) :
    StableHlo.after hostOps0 W (Proc.devRef .tc main_v4) = shapeCast S1x32 (W (Proc.devRef .tc main_arg5)) shapeCasts_S32_S1x32 := by
  unfold hostOps0
  after_results_simp
  rfl

set_option maxRecDepth 8192 in
set_option maxHeartbeats 2000000 in
theorem hostOps0_main_v5 (W : Valuation τ sig (Elt F)) :
    StableHlo.after hostOps0 W (Proc.devRef .tc main_v5) = shapeCast S1x32 (W (Proc.devRef .tc main_arg6)) shapeCasts_S32_S1x32 := by
  unfold hostOps0
  after_results_simp
  rfl

set_option maxRecDepth 8192 in
set_option maxHeartbeats 2000000 in
theorem hostOps0_main_v6 (W : Valuation τ sig (Elt F)) :
    StableHlo.after hostOps0 W (Proc.devRef .tc main_v6) = shapeCast S1x32 (W (Proc.devRef .tc main_arg9)) shapeCasts_S32_S1x32 := by
  unfold hostOps0
  after_results_simp
  rfl

set_option maxRecDepth 8192 in
set_option maxHeartbeats 2000000 in
theorem hostOps0_main_v7 (W : Valuation τ sig (Elt F)) :
    StableHlo.after hostOps0 W (Proc.devRef .tc main_v7) = shapeCast S1x32 (W (Proc.devRef .tc main_arg10)) shapeCasts_S32_S1x32 := by
  unfold hostOps0
  after_results_simp
  rfl

set_option maxRecDepth 8192 in
set_option maxHeartbeats 4000000 in
theorem hostOps0_main_v20 (W : Valuation τ sig (Elt F)) :
    StableHlo.after hostOps0 W (Proc.devRef .tc main_v20) = hopK (srcRowK (W (Proc.devRef .tc main_arg1))) (dstRowK (W (Proc.devRef .tc main_arg1))) (W (Proc.devRef .tc main_arg2)) (W (Proc.devRef .tc main_arg0)) := by
  unfold hostOps0
  after_results_simp
  rfl

set_option maxRecDepth 8192 in
set_option maxHeartbeats 4000000 in
theorem hostOps0_main_v33 (W : Valuation τ sig (Elt F)) :
    StableHlo.after hostOps0 W (Proc.devRef .tc main_v33) = hopK (srcRowK (W (Proc.devRef .tc main_arg1))) (dstRowK (W (Proc.devRef .tc main_arg1))) (W (Proc.devRef .tc main_arg2)) (hopK (srcRowK (W (Proc.devRef .tc main_arg1))) (dstRowK (W (Proc.devRef .tc main_arg1))) (W (Proc.devRef .tc main_arg2)) (W (Proc.devRef .tc main_arg0))) := by
  unfold hostOps0
  after_results_simp
  rfl

/-! ## The second stretch -/

set_option maxRecDepth 8192 in
set_option maxHeartbeats 4000000 in
theorem hostOps2_main_v48 (W : Valuation τ sig (Elt F)) :
    StableHlo.after hostOps2 W (Proc.devRef .tc main_v48) = hopK (W (Proc.devRef .tc main_v1)) (W (Proc.devRef .tc main_v3)) (W (Proc.devRef .tc main_arg2)) (W (Proc.devRef .tc main_v35)) := by
  unfold hostOps2
  after_results_simp
  rfl

set_option maxRecDepth 8192 in
set_option maxHeartbeats 4000000 in
theorem hostOps2_main_v61 (W : Valuation τ sig (Elt F)) :
    StableHlo.after hostOps2 W (Proc.devRef .tc main_v61) = hopK (W (Proc.devRef .tc main_v1)) (W (Proc.devRef .tc main_v3)) (W (Proc.devRef .tc main_arg2)) (hopK (W (Proc.devRef .tc main_v1)) (W (Proc.devRef .tc main_v3)) (W (Proc.devRef .tc main_arg2)) (W (Proc.devRef .tc main_v35))) := by
  unfold hostOps2
  after_results_simp
  rfl

end Cert.KernelIdeal.HostRead

end
-- ==== Proof.Spec.lean ====
/-
  The mathematics of this certificate, with no program in sight.

  Two layers of the same shape. One layer takes node features `x` (100000 rows of 32), two further
  feature arrays `h1`, `h2` (the one- and two-hop weighted neighbourhood sums of `x`, computed
  elsewhere by the SAME operations on both sides, so they enter here as plain arguments), three 32×32
  weight matrices, a bias, and the normalisation's scale `g` and shift `be`:

    z(p,c)   = ((Σ_j x(p,j)·W₀(j,c) + Σ_j h1(p,j)·W₁(j,c)) + Σ_j h2(p,j)·W₂(j,c)) + b(c)
    μ(c)     = (Σ_p z(p,c)) / n
    n(p,c)   = (z(p,c) − μ(c)) · rsqrt(var(c) + ε) · g(c) + be(c)
    out(p,c) = n(p,c) if 0 ≤ n(p,c), else slope · n(p,c)

  The two sides differ ONLY in `var`: one computes the mean of squares minus the squared mean,
  `(Σ_p z²)/n − μ²`, the other the mean squared deviation `(Σ_p (z − μ)²)/n`. Over the reals these are
  one number when `n` is the number of rows; over the extended reals that needs every `z(p,c)` finite
  (with an infinite entry the first is `⊤ − ⊤ = ⊥` and the second `⊤`).

  `n`, `ε`, `slope` are kept as the IEEE words the programs print (100000.0, ≈1e-5, ≈0.01).
-/
import Mathlib.Data.EReal.Basic
import Mathlib.Algebra.BigOperators.Fin
import Idealize.ShloMosaic.PureOps.Ideal

noncomputable section

namespace Cert.Spec

open Idealize.ShloMosaic

/-- A feature array: 100000 rows of 32 extended reals. -/
abbrev Mat : Type := Fin 100000 → Fin 32 → EReal
/-- One value per feature. -/
abbrev Row : Type := Fin 32 → EReal
/-- Three 32×32 weight matrices. -/
abbrev Wts : Type := Fin 3 → Fin 32 → Fin 32 → EReal

/-- The row count as the programs print it: the f32 word of 100000.0. -/
abbrev nRows : EReal := Ideal.ofBits .f32 0x47C35000#32
/-- The variance's guard, the f32 word nearest 1e-5. -/
abbrev eps : EReal := Ideal.ofBits .f32 0x3727C5AC#32
/-- The negative-side slope, the f32 word nearest 0.01. -/
abbrev slope : EReal := Ideal.ofBits .f32 0x3C23D70A#32
/-- The zero the activation compares against. -/
abbrev zeroW : EReal := Ideal.ofBits .f32 0x00000000#32

/-- Every entry a real number. -/
def MatFinite (z : Mat) : Prop := ∀ p c, z p c ≠ ⊤ ∧ z p c ≠ ⊥
def RowFinite (r : Row) : Prop := ∀ c, r c ≠ ⊤ ∧ r c ≠ ⊥
def WtsFinite (W : Wts) : Prop := ∀ k j c, W k j c ≠ ⊤ ∧ W k j c ≠ ⊥

/-- The three products summed in this association, plus the bias. -/
def conv (x h1 h2 : Mat) (W : Wts) (b : Row) : Mat := fun p c =>
  (((∑ j, x p j * W 0 j c) + (∑ j, h1 p j * W 1 j c)) + (∑ j, h2 p j * W 2 j c)) + b c

/-- The column mean. -/
def mean (z : Mat) : Row := fun c => Ideal.div (∑ p, z p c) nRows

/-- Mean of squares minus squared mean. -/
def varSq (z : Mat) : Row := fun c => Ideal.div (∑ p, z p c * z p c) nRows - mean z c * mean z c

/-- Mean squared deviation. -/
def varDev (z : Mat) : Row := fun c => Ideal.div (∑ p, (z p c - mean z c) * (z p c - mean z c)) nRows

/-- Normalise with a given mean and variance, scale, shift, then the leaky rectifier. -/
def act (z : Mat) (mu var g be : Row) : Mat := fun p c =>
  if zeroW ≤ (z p c - mu c) * Ideal.rsqrt (var c + eps) * g c + be c
  then (z p c - mu c) * Ideal.rsqrt (var c + eps) * g c + be c
  else slope * ((z p c - mu c) * Ideal.rsqrt (var c + eps) * g c + be c)

/-- One layer with the mean-of-squares variance. -/
def layerSq (x h1 h2 : Mat) (W : Wts) (b g be : Row) : Mat :=
  act (conv x h1 h2 W b) (mean (conv x h1 h2 W b)) (varSq (conv x h1 h2 W b)) g be

/-- One layer with the mean-squared-deviation variance. -/
def layerDev (x h1 h2 : Mat) (W : Wts) (b g be : Row) : Mat :=
  act (conv x h1 h2 W b) (mean (conv x h1 h2 W b)) (varDev (conv x h1 h2 W b)) g be

/-- Both layers, over a neighbourhood-sum operator `H` shared by the two sides. -/
def netSq (H : Mat → Mat) (y : Mat) (W1 : Wts) (b1 g1 be1 : Row) (W2 : Wts) (b2 g2 be2 : Row) : Mat :=
  layerSq (layerSq y (H y) (H (H y)) W1 b1 g1 be1)
    (H (layerSq y (H y) (H (H y)) W1 b1 g1 be1))
    (H (H (layerSq y (H y) (H (H y)) W1 b1 g1 be1))) W2 b2 g2 be2

def netDev (H : Mat → Mat) (y : Mat) (W1 : Wts) (b1 g1 be1 : Row) (W2 : Wts) (b2 g2 be2 : Row) : Mat :=
  layerDev (layerDev y (H y) (H (H y)) W1 b1 g1 be1)
    (H (layerDev y (H y) (H (H y)) W1 b1 g1 be1))
    (H (H (layerDev y (H y) (H (H y)) W1 b1 g1 be1))) W2 b2 g2 be2

end Cert.Spec

end
-- ==== Proof.Arr.lean ====
/-
  Reading the programs' arrays as the specification's matrices: a 100000×32 array as rows of features, a length-32
  array as one value per feature, a 3×32×32 array as three weight matrices — by coordinates, nothing else.
-/
import proofs.«101999_j28329604284662_1_alg».proof.Proof.Spec
import Idealize.ShloMosaic.Lib.ValueIdx

noncomputable section

namespace Cert.Arr

open Idealize.ShloMosaic Idealize.ShloMosaic.ValueIdx

abbrev A2 : Shape := ⟨2, ![100000, 32]⟩
abbrev A1 : Shape := ⟨1, ![32]⟩
abbrev A3 : Shape := ⟨3, ![3, 32, 32]⟩

/-- A 100000×32 array of extended reals, entry (p, c). -/
def toMat (v : A2.Idx → EReal) : Cert.Spec.Mat := fun p c => v (ix2 p c)
/-- The array whose entry at an index is the matrix entry at its two coordinates. -/
def ofMat (x : Cert.Spec.Mat) : A2.Idx → EReal := fun i => x (i 0) (i 1)
/-- A length-32 array, entry c. -/
def toRow (v : A1.Idx → EReal) : Cert.Spec.Row := fun c => v (ix1 c)
/-- A 3×32×32 array, entry (k, j, c). -/
def toWts (v : A3.Idx → EReal) : Cert.Spec.Wts := fun k j c => v (ix3 k j c)

theorem toMat_apply (v : A2.Idx → EReal) (p : Fin 100000) (c : Fin 32) : toMat v p c = v (ix2 p c) := rfl
theorem toRow_apply (v : A1.Idx → EReal) (c : Fin 32) : toRow v c = v (ix1 c) := rfl
theorem toWts_apply (v : A3.Idx → EReal) (k : Fin 3) (j c : Fin 32) : toWts v k j c = v (ix3 k j c) := rfl

theorem toMat_ofMat (x : Cert.Spec.Mat) : toMat (ofMat x) = x := rfl

theorem ofMat_toMat (v : A2.Idx → EReal) : ofMat (toMat v) = v := by
  funext i
  exact congrArg v (eq_ix2 i).symm

/-- Two arrays with the same matrix are the same array. -/
theorem toMat_injective {v w : A2.Idx → EReal} (h : toMat v = toMat w) : v = w := by
  rw [← ofMat_toMat v, ← ofMat_toMat w, h]

end Cert.Arr

end
-- ==== Proof.HopDef.lean ====
/-
  The weighted neighbourhood sum both programs apply, spelled once, as the host operations spell it: from the edge
  array take the source row and the target row; a negative source index counts from the end (add the row count);
  gather the feature rows at the sources, multiply each by its edge's weight, and scatter-add the products onto a zero
  array at the targets.
-/
import proofs.«101999_j28329604284662_1_alg».proof.ReferenceIdeal
import proofs.«101999_j28329604284662_1_alg».proof.Proof.Arr

noncomputable section

namespace Cert.Hop

open Idealize.ShloMosaic Cert.ReferenceIdeal Cert.ReferenceIdeal.Facts₀

variable {F : FTy → Type} [FloatOps F] [Cert.ReferenceIdeal.Facts]

/-- The edges' source nodes: row 0 of the edge array, flattened. -/
def srcRow (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' target nodes: row 1 of the edge array, flattened. -/
def dstRow (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A source index below zero counts from the end. -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The neighbourhood sum of `x` over the edges `ei` with weights `ew`. -/
def hopV (ei : (⟨S2x1600000, .i32⟩ : BufTy).Contents (Elt F)) (ew : (⟨S1600000, .f32⟩ : BufTy).Contents (Elt F))
    (x : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 (dstRow ei))
    (mulf (Host.gather gather_S100000x32_S1600000x1_S1600000x32_1_0_n_n_0_1_132 x
        (broadcastInDim S1600000x1 ![0] bcast_S1600000_S1600000x1_0 (wrapIdx (srcRow ei))))
      (broadcastInDim S1600000x32 ![0, 1] bcast_S1600000x1_S1600000x32_0_1
        (broadcastInDim S1600000x1 ![0] bcast_S1600000_S1600000x1_0 ew)))

/-- The same as an operator on the specification's matrices, at the extended reals. -/
def H (ei : (⟨S2x1600000, .i32⟩ : BufTy).Contents (Elt Ideal)) (ew : (⟨S1600000, .f32⟩ : BufTy).Contents (Elt Ideal)) :
    Cert.Spec.Mat → Cert.Spec.Mat :=
  fun x => Cert.Arr.toMat (hopV (F := Ideal) ei ew (Cert.Arr.ofMat x))

end Cert.Hop

end
-- ==== Proof.KI.HostSame.lean ====
/-
  The kernel program's spelling of the weighted neighbourhood sum is the shared one: the same operations over the same
  dimension records and shapes, which the two programs each declare under their own names.
-/
import proofs.«101999_j28329604284662_1_alg».proof.Proof.KI.HostRead
import proofs.«101999_j28329604284662_1_alg».proof.Proof.HopDef

noncomputable section

namespace Cert.KernelIdeal.HostRead

open Idealize.ShloMosaic

variable {F : FTy → Type} [FloatOps F] [Cert.ReferenceIdeal.Facts]

/-- The source rows, the target rows and the wrap of negative indices are the shared ones. -/
theorem srcRowK_eq (ei : (⟨Cert.ReferenceIdeal.S2x1600000, .i32⟩ : BufTy).Contents (Elt F)) : srcRowK ei = Cert.Hop.srcRow ei := rfl
theorem dstRowK_eq (ei : (⟨Cert.ReferenceIdeal.S2x1600000, .i32⟩ : BufTy).Contents (Elt F)) : dstRowK ei = Cert.Hop.dstRow ei := rfl
theorem wrapIdxK_eq (s : (⟨Cert.ReferenceIdeal.S1600000, .i32⟩ : BufTy).Contents (Elt F)) : wrapIdxK s = Cert.Hop.wrapIdx s := rfl

set_option maxHeartbeats 50000 in
/-- At any float values (the scatter-add then a field of a variable instance, compared by its operands alone): the
    kernel program's neighbourhood sum over the edge array's two rows is the shared one. -/
theorem hopK_eq_hopV (ei : (⟨Cert.ReferenceIdeal.S2x1600000, .i32⟩ : BufTy).Contents (Elt F)) (ew : (⟨Cert.ReferenceIdeal.S1600000, .f32⟩ : BufTy).Contents (Elt F)) (x : (⟨Cert.ReferenceIdeal.S100000x32, .f32⟩ : BufTy).Contents (Elt F)) :
    hopK (srcRowK ei) (dstRowK ei) ew x = Cert.Hop.hopV ei ew x := rfl

/-- The same at the extended reals, as the value proofs cite it. -/
theorem hopK_eq_hopV_ideal (ei : (⟨Cert.ReferenceIdeal.S2x1600000, .i32⟩ : BufTy).Contents (Elt Ideal))
    (ew : (⟨Cert.ReferenceIdeal.S1600000, .f32⟩ : BufTy).Contents (Elt Ideal))
    (x : (⟨Cert.ReferenceIdeal.S100000x32, .f32⟩ : BufTy).Contents (Elt Ideal)) :
    hopK (F := Ideal) (srcRowK ei) (dstRowK ei) ew x = Cert.Hop.hopV (F := Ideal) ei ew x :=
  hopK_eq_hopV ei ew x

end Cert.KernelIdeal.HostRead

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.KI.PayRead.lean ====
/-
  The kernels' stored values read at one index, on the extended reals.

  The generated skeleton names each stored value as one pure term of the values loaded before it. Read at an index,
  at the exact instance (operations exact, format changes the identity), they are:

  * the combine kernel's block of pre-activations: at (p, c), three sums over j of a feature entry times a weight
    entry — each a matrix product into a zero accumulator, the weight matrix being one slice of the 3×32×32 array —
    added in the order ((· + ·) + ·), plus the bias at c (cast to one row, broadcast over the rows);
  * its running column sums: the carried row plus the sum over the block's rows of the pre-activation, and the
    carried row plus the sum over the rows of its square;
  * at the last block: the mean as sum / n, and mean of squares minus squared mean;
  * the zero rows that start the two accumulators, and an identity cast;
  * the normalise kernel: (z − μ) · rsqrt(var + ε) · g + β, then the rectifier as a conditional on 0 ≤ ·.

  Both layers run the same two kernels, so every statement appears twice.
-/
import proofs.«101999_j28329604284662_1_alg».proof.Proof.Gen.KernelIdeal.Skeleton
import proofs.«101999_j28329604284662_1_alg».proof.Proof.Spec
import proofs.«101999_j28329604284662_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayRead

open Cert.KernelIdeal Cert.KernelIdeal.Gen Idealize.ShloMosaic Idealize.ShloMosaic.ValueIdx

/-! ### The matrix product's dimension record -/

/-- Contract the left operand's second axis with the right operand's first. -/
abbrev DD : DotDims S10000x32 S32x32 S10000x32 := dot_S10000x32_S32x32_S10000x32_1_0_0_1_n_n

theorem DD_rank : DD.contr.rank = 1 := rfl
theorem DD_size : DD.contr.size ⟨0, by rw [DD_rank]; exact Nat.one_pos⟩ = 32 := rfl
theorem DD_l0 (i : S10000x32.Idx) (q : DD.contr.Idx) : (DD.lhsIdx i q 0).val = (i 0).val := rfl
theorem DD_l1 (i : S10000x32.Idx) (q : DD.contr.Idx) : (DD.lhsIdx i q 1).val = (q ⟨0, by rw [DD_rank]; exact Nat.one_pos⟩).val :=
  DD.lhsIdx_val_of_single rfl i q
theorem DD_r0 (i : S10000x32.Idx) (q : DD.contr.Idx) : (DD.rhsIdx i q 0).val = (q ⟨0, by rw [DD_rank]; exact Nat.one_pos⟩).val :=
  DD.rhsIdx_val_of_single rfl i q
theorem DD_r1 (i : S10000x32.Idx) (q : DD.contr.Idx) : (DD.rhsIdx i q 1).val = (i 1).val := rfl

/-- One product into the zero accumulator at entry (p, c); the narrowing of the operands is the identity. -/
theorem mm_apply (x : FVec Ideal S10000x32 .f32) (w : FVec Ideal S32x32 .f32) (p : Fin 10000) (c : Fin 32) :
    matmul DD none (truncf .bf16 x bitsLt_bf16_f32) (truncf .bf16 w bitsLt_bf16_f32)
        (constant (F := Ideal) S10000x32 .f32 0x00000000#32) (ix2 p c)
      = ∑ j : Fin 32, x (ix2 p j) * w (ix2 j c) :=
  PlainDot.matmul_zero_apply DD none DD_rank DD_size DD_l0 DD_l1 DD_r0 DD_r1
    (truncf .bf16 x bitsLt_bf16_f32) (truncf .bf16 w bitsLt_bf16_f32) p c

/-- Slice k of the three weight matrices, cast to a matrix, at (j, c). -/
theorem wslice_apply (k : Fin 3) (v8 : FVec Ideal S3x32x32 .f32) (h : S3x32x32.Slices ![k.val, 0, 0] S1x32x32)
    (h' : S1x32x32.ShapeCasts S32x32) (j c : Fin 32) :
    shapeCast S32x32 (extractStridedSlice S1x32x32 ![k.val, 0, 0] v8 h) h' (ix2 j c) = v8 (ix3 k j c) :=
  (shapeCast_1ab_ab_apply _ h' j c).trans
    (extractStridedSlice_apply _ v8 h (ix3 (0 : Fin 1) j c) (ix3 k j c) fun a =>
      match a with
      | ⟨0, _⟩ => rfl
      | ⟨1, _⟩ => (Nat.zero_add _).symm
      | ⟨2, _⟩ => (Nat.zero_add _).symm)

/-- The bias cast to one row and broadcast over the rows, at (p, c). -/
theorem bias_apply (v9 : FVec Ideal S32 .f32) (h : S32.ShapeCasts S1x32) (h' : S1x32.Broadcasts S10000x32)
    (p : Fin 10000) (c : Fin 32) :
    broadcastTo S10000x32 (shapeCast S1x32 v9 h) h' (ix2 p c) = v9 (ix1 c) :=
  (broadcastTo_1b_ab_apply _ h' p c).trans (shapeCast_a_1a_apply v9 h 0 c)

/-- The block of pre-activations at (p, c): three products, summed left to right, plus the bias. -/
theorem k0_pay7_apply (v3 v4 v6 : Vec Ideal S10000x32 .f32) (v8 : Vec Ideal S3x32x32 .f32) (v9 : Vec Ideal S32 .f32)
    (p : Fin 10000) (c : Fin 32) :
    k0_pay7 v3 v4 v6 v8 v9 (ix2 p c)
      = (((∑ j : Fin 32, v3 (ix2 p j) * v8 (ix3 (0 : Fin 3) j c))
          + (∑ j : Fin 32, v4 (ix2 p j) * v8 (ix3 (1 : Fin 3) j c)))
          + (∑ j : Fin 32, v6 (ix2 p j) * v8 (ix3 (2 : Fin 3) j c))) + v9 (ix1 c) := by
  unfold k0_pay7
  simp only [shapeCast_self, addf_apply]
  refine congrArg₂ (· + ·) (congrArg₂ (· + ·) (congrArg₂ (· + ·) ?_ ?_) ?_) (bias_apply v9 _ _ p c)
  · exact (mm_apply v3 _ p c).trans
      (Finset.sum_congr rfl fun j _ => congrArg (v3 (ix2 p j) * ·) (wslice_apply 0 v8 _ _ j c))
  · exact (mm_apply v4 _ p c).trans
      (Finset.sum_congr rfl fun j _ => congrArg (v4 (ix2 p j) * ·) (wslice_apply 1 v8 _ _ j c))
  · exact (mm_apply v6 _ p c).trans
      (Finset.sum_congr rfl fun j _ => congrArg (v6 (ix2 p j) * ·) (wslice_apply 2 v8 _ _ j c))

/-- The sum over the rows, column by column: a reduction over axis 0 into the zero word reads, at column c, the
    sum over p of the source at (p, c). -/
theorem colsum_apply (src : FVec Ideal S10000x32 .f32) (h : S10000x32.Reduces [0] S32) (hφ : FKind.Formats .f32)
    (hacc : (0x00000000#32 : BitVec 32) = 0x00000000#32) (c : Fin 32) :
    multiReduction .add [0] S32 src 0x00000000#32 h hφ hacc (ix1 c) = ∑ p : Fin 10000, src (ix2 p c) := by
  refine (Ideal.multiReduction_add_single src 0x00000000#32 h hφ hacc (ix1 c)).trans ?_
  refine Finset.sum_congr rfl fun k _ => congrArg src ?_
  funext a
  apply Fin.ext
  rw [h.lift_val]
  match a with
  | ⟨0, _⟩ => rfl
  | ⟨1, _⟩ => rfl

/-- The running column sum: the carried row plus the block's column sum of the pre-activations. -/
theorem k0_pay8_apply (v3 v4 v6 : Vec Ideal S10000x32 .f32) (v8 : Vec Ideal S3x32x32 .f32) (v9 : Vec Ideal S32 .f32)
    (v31 : Vec Ideal S1x32 .f32) (c : Fin 32) :
    k0_pay8 v3 v4 v6 v8 v9 v31 (ix2 (0 : Fin 1) c)
      = v31 (ix2 (0 : Fin 1) c) + ∑ p : Fin 10000, k0_pay7 v3 v4 v6 v8 v9 (ix2 p c) := by
  unfold k0_pay8
  simp only [addf_apply]
  refine congrArg (v31 (ix2 (0 : Fin 1) c) + ·) ?_
  refine (shapeCast_a_1a_apply _ _ 0 c).trans ?_
  exact colsum_apply (k0_pay7 v3 v4 v6 v8 v9) _ _ _ c

/-- The running column sum of squares. -/
theorem k0_pay2_apply (v29 : FVec Ideal S10000x32 .f32) (v38 : Vec Ideal S1x32 .f32) (c : Fin 32) :
    k0_pay2 v29 v38 (ix2 (0 : Fin 1) c)
      = v38 (ix2 (0 : Fin 1) c) + ∑ p : Fin 10000, v29 (ix2 p c) * v29 (ix2 p c) := by
  unfold k0_pay2
  simp only [shapeCast_self, addf_apply]
  refine congrArg (v38 (ix2 (0 : Fin 1) c) + ·) ?_
  refine (shapeCast_a_1a_apply _ _ 0 c).trans ?_
  exact colsum_apply (mulf v29 v29) _ _ _ c

/-- A cast to the same shape changes nothing. -/
theorem k0_pay1_eq (v34 : FVec Ideal S1x32 .f32) : k0_pay1 v34 = v34 := by
  unfold k0_pay1
  exact shapeCast_self _ _

/-- The row that starts the sum accumulator is zero. -/
theorem k0_pay5_eq : k0_pay5 (F := Ideal) = fun _ => (0 : EReal) := by
  unfold k0_pay5
  simp only [shapeCast_self]
  funext i
  exact Ideal.ofBits_zero_f32

/-- The row that starts the sum-of-squares accumulator is zero. -/
theorem k0_pay6_eq : k0_pay6 (F := Ideal) = fun _ => (0 : EReal) := by
  unfold k0_pay6
  simp only [shapeCast_self]
  funext i
  exact Ideal.ofBits_zero_f32

/-- The mean: the column sum divided by the row count. -/
theorem k0_pay3_apply (v49 : Vec Ideal S1x32 .f32) (c : Fin 32) :
    k0_pay3 v49 (ix2 (0 : Fin 1) c) = Ideal.div (v49 (ix2 (0 : Fin 1) c)) Cert.Spec.nRows := rfl

/-- The variance as mean of squares minus squared mean. -/
theorem k0_pay4_apply (v49 v52 : Vec Ideal S1x32 .f32) (c : Fin 32) :
    k0_pay4 v49 v52 (ix2 (0 : Fin 1) c)
      = Ideal.div (v52 (ix2 (0 : Fin 1) c)) Cert.Spec.nRows
          - k0_pay3 v49 (ix2 (0 : Fin 1) c) * k0_pay3 v49 (ix2 (0 : Fin 1) c) := rfl

/-- A select on "y ≤ x" read as the conditional. -/
theorem select_oge (x y a b : EReal) :
    Scalar.select (Ideal.cmp .oge x y) a b = if y ≤ x then a else b := by
  unfold Scalar.select Ideal.cmp
  by_cases h : y ≤ x
  · simp [h]
  · simp [h]

/-- Normalise, scale, shift, then the leaky rectifier, at (p, c). -/
theorem k1_pay1_apply (v0 : Vec Ideal S10000x32 .f32) (v2 v4 v6 v8 : Vec Ideal S1x32 .f32) (p : Fin 10000) (c : Fin 32) :
    k1_pay1 v0 v2 v4 v6 v8 (ix2 p c)
      = if Cert.Spec.zeroW ≤ (v0 (ix2 p c) - v2 (ix2 (0 : Fin 1) c)) * Ideal.rsqrt (v4 (ix2 (0 : Fin 1) c) + Cert.Spec.eps)
              * v6 (ix2 (0 : Fin 1) c) + v8 (ix2 (0 : Fin 1) c)
        then (v0 (ix2 p c) - v2 (ix2 (0 : Fin 1) c)) * Ideal.rsqrt (v4 (ix2 (0 : Fin 1) c) + Cert.Spec.eps)
              * v6 (ix2 (0 : Fin 1) c) + v8 (ix2 (0 : Fin 1) c)
        else Cert.Spec.slope * ((v0 (ix2 p c) - v2 (ix2 (0 : Fin 1) c)) * Ideal.rsqrt (v4 (ix2 (0 : Fin 1) c) + Cert.Spec.eps)
              * v6 (ix2 (0 : Fin 1) c) + v8 (ix2 (0 : Fin 1) c)) := by
  unfold k1_pay1
  simp only [shapeCast_self, select_apply, cmpf_apply, Ideal.cmpf_def, addf_apply, mulf_apply, subf_apply,
    broadcastTo_1b_ab_apply, broadcast_apply]
  exact select_oge _ _ _ _

/-! ### The second layer's kernels: the same arithmetic -/

/-- The block of pre-activations at (p, c): three products, summed left to right, plus the bias. -/
theorem k2_pay7_apply (v3 v4 v6 : Vec Ideal S10000x32 .f32) (v8 : Vec Ideal S3x32x32 .f32) (v9 : Vec Ideal S32 .f32)
    (p : Fin 10000) (c : Fin 32) :
    k2_pay7 v3 v4 v6 v8 v9 (ix2 p c)
      = (((∑ j : Fin 32, v3 (ix2 p j) * v8 (ix3 (0 : Fin 3) j c))
          + (∑ j : Fin 32, v4 (ix2 p j) * v8 (ix3 (1 : Fin 3) j c)))
          + (∑ j : Fin 32, v6 (ix2 p j) * v8 (ix3 (2 : Fin 3) j c))) + v9 (ix1 c) := by
  unfold k2_pay7
  simp only [shapeCast_self, addf_apply]
  refine congrArg₂ (· + ·) (congrArg₂ (· + ·) (congrArg₂ (· + ·) ?_ ?_) ?_) (bias_apply v9 _ _ p c)
  · exact (mm_apply v3 _ p c).trans
      (Finset.sum_congr rfl fun j _ => congrArg (v3 (ix2 p j) * ·) (wslice_apply 0 v8 _ _ j c))
  · exact (mm_apply v4 _ p c).trans
      (Finset.sum_congr rfl fun j _ => congrArg (v4 (ix2 p j) * ·) (wslice_apply 1 v8 _ _ j c))
  · exact (mm_apply v6 _ p c).trans
      (Finset.sum_congr rfl fun j _ => congrArg (v6 (ix2 p j) * ·) (wslice_apply 2 v8 _ _ j c))

/-- The running column sum: the carried row plus the block's column sum of the pre-activations. -/
theorem k2_pay8_apply (v3 v4 v6 : Vec Ideal S10000x32 .f32) (v8 : Vec Ideal S3x32x32 .f32) (v9 : Vec Ideal S32 .f32)
    (v31 : Vec Ideal S1x32 .f32) (c : Fin 32) :
    k2_pay8 v3 v4 v6 v8 v9 v31 (ix2 (0 : Fin 1) c)
      = v31 (ix2 (0 : Fin 1) c) + ∑ p : Fin 10000, k2_pay7 v3 v4 v6 v8 v9 (ix2 p c) := by
  unfold k2_pay8
  simp only [addf_apply]
  refine congrArg (v31 (ix2 (0 : Fin 1) c) + ·) ?_
  refine (shapeCast_a_1a_apply _ _ 0 c).trans ?_
  exact colsum_apply (k2_pay7 v3 v4 v6 v8 v9) _ _ _ c

/-- The running column sum of squares. -/
theorem k2_pay2_apply (v29 : FVec Ideal S10000x32 .f32) (v38 : Vec Ideal S1x32 .f32) (c : Fin 32) :
    k2_pay2 v29 v38 (ix2 (0 : Fin 1) c)
      = v38 (ix2 (0 : Fin 1) c) + ∑ p : Fin 10000, v29 (ix2 p c) * v29 (ix2 p c) := by
  unfold k2_pay2
  simp only [shapeCast_self, addf_apply]
  refine congrArg (v38 (ix2 (0 : Fin 1) c) + ·) ?_
  refine (shapeCast_a_1a_apply _ _ 0 c).trans ?_
  exact colsum_apply (mulf v29 v29) _ _ _ c

/-- A cast to the same shape changes nothing. -/
theorem k2_pay1_eq (v34 : FVec Ideal S1x32 .f32) : k2_pay1 v34 = v34 := by
  unfold k2_pay1
  exact shapeCast_self _ _

/-- The row that starts the sum accumulator is zero. -/
theorem k2_pay5_eq : k2_pay5 (F := Ideal) = fun _ => (0 : EReal) := by
  unfold k2_pay5
  simp only [shapeCast_self]
  funext i
  exact Ideal.ofBits_zero_f32

/-- The row that starts the sum-of-squares accumulator is zero. -/
theorem k2_pay6_eq : k2_pay6 (F := Ideal) = fun _ => (0 : EReal) := by
  unfold k2_pay6
  simp only [shapeCast_self]
  funext i
  exact Ideal.ofBits_zero_f32

/-- The mean: the column sum divided by the row count. -/
theorem k2_pay3_apply (v49 : Vec Ideal S1x32 .f32) (c : Fin 32) :
    k2_pay3 v49 (ix2 (0 : Fin 1) c) = Ideal.div (v49 (ix2 (0 : Fin 1) c)) Cert.Spec.nRows := rfl

/-- The variance as mean of squares minus squared mean. -/
theorem k2_pay4_apply (v49 v52 : Vec Ideal S1x32 .f32) (c : Fin 32) :
    k2_pay4 v49 v52 (ix2 (0 : Fin 1) c)
      = Ideal.div (v52 (ix2 (0 : Fin 1) c)) Cert.Spec.nRows
          - k2_pay3 v49 (ix2 (0 : Fin 1) c) * k2_pay3 v49 (ix2 (0 : Fin 1) c) := rfl

/-- Normalise, scale, shift, then the leaky rectifier, at (p, c). -/
theorem k3_pay1_apply (v0 : Vec Ideal S10000x32 .f32) (v2 v4 v6 v8 : Vec Ideal S1x32 .f32) (p : Fin 10000) (c : Fin 32) :
    k3_pay1 v0 v2 v4 v6 v8 (ix2 p c)
      = if Cert.Spec.zeroW ≤ (v0 (ix2 p c) - v2 (ix2 (0 : Fin 1) c)) * Ideal.rsqrt (v4 (ix2 (0 : Fin 1) c) + Cert.Spec.eps)
              * v6 (ix2 (0 : Fin 1) c) + v8 (ix2 (0 : Fin 1) c)
        then (v0 (ix2 p c) - v2 (ix2 (0 : Fin 1) c)) * Ideal.rsqrt (v4 (ix2 (0 : Fin 1) c) + Cert.Spec.eps)
              * v6 (ix2 (0 : Fin 1) c) + v8 (ix2 (0 : Fin 1) c)
        else Cert.Spec.slope * ((v0 (ix2 p c) - v2 (ix2 (0 : Fin 1) c)) * Ideal.rsqrt (v4 (ix2 (0 : Fin 1) c) + Cert.Spec.eps)
              * v6 (ix2 (0 : Fin 1) c) + v8 (ix2 (0 : Fin 1) c)) := by
  unfold k3_pay1
  simp only [shapeCast_self, select_apply, cmpf_apply, Ideal.cmpf_def, addf_apply, mulf_apply, subf_apply,
    broadcastTo_1b_ab_apply, broadcast_apply]
  exact select_oge _ _ _ _

end Cert.KernelIdeal.PayRead

end
-- ==== Proof.KI.ValCommon.lean ====
/-
  Shared vocabulary for reading the regions' final arrays: a 1×32 array as one value per feature, the activation at
  one entry as a function of the five numbers it reads, and the normalise kernel's stored block at an index of the
  block.
-/
import proofs.«101999_j28329604284662_1_alg».proof.Proof.KI.PayRead
import proofs.«101999_j28329604284662_1_alg».proof.Proof.Arr
import proofs.«101999_j28329604284662_1_alg».proof.Proof.Spec
import Idealize.ShloMosaic.Lib.ValueIdx

noncomputable section

namespace Cert.KernelIdeal.Val

open Cert.KernelIdeal Cert.KernelIdeal.Gen Cert.KernelIdeal.PayRead
open Idealize.ShloMosaic Idealize.ShloMosaic.ValueIdx

/-- A 1×32 array as one value per feature. -/
def toRow1 (v : (⟨2, ![1, 32]⟩ : Shape).Idx → EReal) : Cert.Spec.Row := fun c => v (ix2 (0 : Fin 1) c)

theorem toRow1_apply (v : (⟨2, ![1, 32]⟩ : Shape).Idx → EReal) (c : Fin 32) : toRow1 v c = v (ix2 (0 : Fin 1) c) := rfl

/-- The zero offsets of a whole-buffer rectangle of rank 2. -/
theorem hz : (![0, 0] : Fin 2 → Nat) = fun _ => 0 := funext fun a => by fin_cases a <;> rfl

/-- The activation at one entry, as a function of the five numbers it reads. -/
def actAt (z mu var g be : EReal) : EReal :=
  if Cert.Spec.zeroW ≤ (z - mu) * Ideal.rsqrt (var + Cert.Spec.eps) * g + be
  then (z - mu) * Ideal.rsqrt (var + Cert.Spec.eps) * g + be
  else Cert.Spec.slope * ((z - mu) * Ideal.rsqrt (var + Cert.Spec.eps) * g + be)

theorem act_apply (z : Cert.Spec.Mat) (mu var g be : Cert.Spec.Row) (p : Fin 100000) (q : Fin 32) :
    Cert.Spec.act z mu var g be p q = actAt (z p q) (mu q) (var q) (g q) (be q) := rfl

/-- The kernel's stored block at an index of the block: the activation of the block's entry there and the four
    rows' entries in its column. -/
theorem k1_pay1_idx (x0 : Vec Ideal S10000x32 .f32) (x1 x2 x3 x4 : Vec Ideal S1x32 .f32) (j : S10000x32.Idx) :
    k1_pay1 x0 x1 x2 x3 x4 j
      = actAt (x0 j) (x1 (ix2 (0 : Fin 1) (j 1))) (x2 (ix2 (0 : Fin 1) (j 1))) (x3 (ix2 (0 : Fin 1) (j 1)))
          (x4 (ix2 (0 : Fin 1) (j 1))) :=
  (congrArg (k1_pay1 x0 x1 x2 x3 x4) (eq_ix2 j)).trans
    ((k1_pay1_apply x0 x1 x2 x3 x4 (j 0) (j 1)).trans
      (congrArg (fun i => actAt (x0 i) (x1 (ix2 (0 : Fin 1) (j 1))) (x2 (ix2 (0 : Fin 1) (j 1)))
        (x3 (ix2 (0 : Fin 1) (j 1))) (x4 (ix2 (0 : Fin 1) (j 1)))) (eq_ix2 j).symm))

/-- The same for the second layer's kernel. -/
theorem k3_pay1_idx (x0 : Vec Ideal S10000x32 .f32) (x1 x2 x3 x4 : Vec Ideal S1x32 .f32) (j : S10000x32.Idx) :
    k3_pay1 x0 x1 x2 x3 x4 j
      = actAt (x0 j) (x1 (ix2 (0 : Fin 1) (j 1))) (x2 (ix2 (0 : Fin 1) (j 1))) (x3 (ix2 (0 : Fin 1) (j 1)))
          (x4 (ix2 (0 : Fin 1) (j 1))) :=
  (congrArg (k3_pay1 x0 x1 x2 x3 x4) (eq_ix2 j)).trans
    ((k3_pay1_apply x0 x1 x2 x3 x4 (j 0) (j 1)).trans
      (congrArg (fun i => actAt (x0 i) (x1 (ix2 (0 : Fin 1) (j 1))) (x2 (ix2 (0 : Fin 1) (j 1)))
        (x3 (ix2 (0 : Fin 1) (j 1))) (x4 (ix2 (0 : Fin 1) (j 1)))) (eq_ix2 j).symm))

end Cert.KernelIdeal.Val

end
-- ==== Proof.KI.ValNorm1.lean ====
/-
  Region 1: what the normalise-and-rectify kernel leaves in its arrays, as a function of the arrays it finds.

  Each of the ten points reads rows t·10000 … t·10000 + 9999 of the pre-activations and the four 1×32 rows (whole),
  and writes back the same rows of the output. A block's entry (q, c) sits in its array at row
  (block index)·10000 + q, and the four rows have block index 0, so point t's block is block t of ONE whole-array
  function: the activation, entry by entry. Row r is written back by the point r / 10000, so the ten blocks fill
  the output. The inputs are never written back.
-/
import proofs.«101999_j28329604284662_1_alg».proof.Proof.KI.Norm1
import proofs.«101999_j28329604284662_1_alg».proof.Proof.KI.ValCommon
import Idealize.ShloMosaic.Lib.Pipeline.Value

set_option maxRecDepth 16384

noncomputable section

namespace Cert.KernelIdeal.ValNorm1

open Cert.KernelIdeal Cert.KernelIdeal.Gen Cert.KernelIdeal.Hand Cert.KernelIdeal.PayRead Cert.KernelIdeal.Val
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The output array the region leaves: the activation of the entry arrays, entry by entry. -/
def G1 (c : Dev nD) : S100000x32.Idx → EReal :=
  Cert.Arr.ofMat (Cert.Spec.act (Cert.Arr.toMat (V c main_v34_0)) (toRow1 (V c main_v34_1)) (toRow1 (V c main_v34_2))
    (toRow1 (V c main_v4)) (toRow1 (V c main_v5)))

/-- The printed index maps over the grid: the two big windows move with the point along the rows, the four rows stay. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The output array at an index: the activation of the entry arrays there. -/
theorem G1_apply (c : Dev nD) (i : S100000x32.Idx) :
    G1 V c i = actAt (V c main_v34_0 i) (V c main_v34_1 (ix2 (0 : Fin 1) (i 1))) (V c main_v34_2 (ix2 (0 : Fin 1) (i 1)))
      (V c main_v4 (ix2 (0 : Fin 1) (i 1))) (V c main_v5 (ix2 (0 : Fin 1) (i 1))) :=
  congrArg (fun k => actAt (V c main_v34_0 k) (V c main_v34_1 (ix2 (0 : Fin 1) (i 1))) (V c main_v34_2 (ix2 (0 : Fin 1) (i 1)))
      (V c main_v4 (ix2 (0 : Fin 1) (i 1))) (V c main_v5 (ix2 (0 : Fin 1) (i 1)))) (eq_ix2 i).symm

/-- What point t writes back is block t of the whole-array function. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x32) hz, View.ld_unit_zero (S := S1x32) hz]
  obtain ⟨a0, a1, b0, b1, c0, c1, d0, d1, e0, e1, f0, f1⟩ := idx_facts1 t
  funext j
  show k1_pay1 (iblk1 V c 0 t) (iblk1 V c 1 t) (iblk1 V c 2 t) (iblk1 V c 3 t) (iblk1 V c 4 t) j
      = G1 V c (((cfg1.win 5).blk t).view.emb j)
  refine (k1_pay1_idx (iblk1 V c 0 t) (iblk1 V c 1 t) (iblk1 V c 2 t) (iblk1 V c 3 t) (iblk1 V c 4 t) j).trans ?_
  have h0 : iblk1 V c 0 t j = V c main_v34_0 (((cfg1.win 5).blk t).view.emb j) := by
    show V c main_v34_0 (((cfg1.win 0).blk t).view.emb j) = _
    refine congrArg (V c main_v34_0) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 32 + 1 * (j 1).val = win1_5.index t (1 : Fin 2) * 32 + 1 * (j 1).val; omega
  have h1 : iblk1 V c 1 t (ix2 (0 : Fin 1) (j 1)) = V c main_v34_1 (ix2 (0 : Fin 1) ((((cfg1.win 5).blk t).view.emb j) 1)) := by
    show V c main_v34_1 (((cfg1.win 1).blk t).view.emb (ix2 (0 : Fin 1) (j 1))) = _
    refine congrArg (V c main_v34_1) (funext fun a => Fin.ext ?_)
    match a with
    | ⟨0, _⟩ => show win1_1.index t (0 : Fin 2) * 1 + 1 * 0 = 0; omega
    | ⟨1, _⟩ => show win1_1.index t (1 : Fin 2) * 32 + 1 * (j 1).val = win1_5.index t (1 : Fin 2) * 32 + 1 * (j 1).val; omega
  have h2 : iblk1 V c 2 t (ix2 (0 : Fin 1) (j 1)) = V c main_v34_2 (ix2 (0 : Fin 1) ((((cfg1.win 5).blk t).view.emb j) 1)) := by
    show V c main_v34_2 (((cfg1.win 2).blk t).view.emb (ix2 (0 : Fin 1) (j 1))) = _
    refine congrArg (V c main_v34_2) (funext fun a => Fin.ext ?_)
    match a with
    | ⟨0, _⟩ => show win1_2.index t (0 : Fin 2) * 1 + 1 * 0 = 0; omega
    | ⟨1, _⟩ => show win1_2.index t (1 : Fin 2) * 32 + 1 * (j 1).val = win1_5.index t (1 : Fin 2) * 32 + 1 * (j 1).val; omega
  have h3 : iblk1 V c 3 t (ix2 (0 : Fin 1) (j 1)) = V c main_v4 (ix2 (0 : Fin 1) ((((cfg1.win 5).blk t).view.emb j) 1)) := by
    show V c main_v4 (((cfg1.win 3).blk t).view.emb (ix2 (0 : Fin 1) (j 1))) = _
    refine congrArg (V c main_v4) (funext fun a => Fin.ext ?_)
    match a with
    | ⟨0, _⟩ => show win1_3.index t (0 : Fin 2) * 1 + 1 * 0 = 0; omega
    | ⟨1, _⟩ => show win1_3.index t (1 : Fin 2) * 32 + 1 * (j 1).val = win1_5.index t (1 : Fin 2) * 32 + 1 * (j 1).val; omega
  have h4 : iblk1 V c 4 t (ix2 (0 : Fin 1) (j 1)) = V c main_v5 (ix2 (0 : Fin 1) ((((cfg1.win 5).blk t).view.emb j) 1)) := by
    show V c main_v5 (((cfg1.win 4).blk t).view.emb (ix2 (0 : Fin 1) (j 1))) = _
    refine congrArg (V c main_v5) (funext fun a => Fin.ext ?_)
    match a with
    | ⟨0, _⟩ => show win1_4.index t (0 : Fin 2) * 1 + 1 * 0 = 0; omega
    | ⟨1, _⟩ => show win1_4.index t (1 : Fin 2) * 32 + 1 * (j 1).val = win1_5.index t (1 : Fin 2) * 32 + 1 * (j 1).val; omega
  rw [h0, h1, h2, h3, h4]
  exact (G1_apply V c _).symm

/-- An index of the array is in point t's block iff each coordinate is in the block's range on its axis. -/
theorem mem_blk1 (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v35).slice (win1_5.rect t)).set ↔ _
  rw [View.set_slice_whole, Rect.mem_set_unit]
  exact Iff.rfl

/-- Every row block is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- Row r of the output is written back by the point r / 10000. -/
theorem cover1 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 32 ≤ (i 1).val ∧ (i 1).val < win1_5.index t (1 : Fin 2) * 32 + 32
    omega

/-- The output array after the region. -/
theorem final1 (c : Dev nD) : (dat1 V c).arrAt 5 cfg1.N = G1 V c :=
  (dat1 V c).arrAt_eq_of_cover 5 (G1 V c) (fun t _ => flushed1_eq V c t) (cover1)

/-- The region's output is the activation of its entry arrays. -/
theorem out1_eq (c : Dev nD) :
    Cert.Arr.toMat ((dat1 V c).arrAt 5 cfg1.N)
      = Cert.Spec.act (Cert.Arr.toMat (V c main_v34_0)) (toRow1 (V c main_v34_1)) (toRow1 (V c main_v34_2))
          (toRow1 (V c main_v4)) (toRow1 (V c main_v5)) := by
  rw [final1]
  rfl

/-- The region leaves its input arrays as it found them. -/
theorem in1_eq (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

theorem in1_0 (c : Dev nD) : (dat1 V c).arrAt 0 cfg1.N = V c main_v34_0 := in1_eq V c 0 rfl
theorem in1_1 (c : Dev nD) : (dat1 V c).arrAt 1 cfg1.N = V c main_v34_1 := in1_eq V c 1 rfl
theorem in1_2 (c : Dev nD) : (dat1 V c).arrAt 2 cfg1.N = V c main_v34_2 := in1_eq V c 2 rfl
theorem in1_3 (c : Dev nD) : (dat1 V c).arrAt 3 cfg1.N = V c main_v4 := in1_eq V c 3 rfl
theorem in1_4 (c : Dev nD) : (dat1 V c).arrAt 4 cfg1.N = V c main_v5 := in1_eq V c 4 rfl

end Cert.KernelIdeal.ValNorm1

end
-- ==== Proof.KI.ValNorm3.lean ====
/-
  Region 3: what the normalise-and-rectify kernel leaves in its arrays, as a function of the arrays it finds.

  Each of the ten points reads rows t·10000 … t·10000 + 9999 of the pre-activations and the four 1×32 rows (whole),
  and writes back the same rows of the output. A block's entry (q, c) sits in its array at row
  (block index)·10000 + q, and the four rows have block index 0, so point t's block is block t of ONE whole-array
  function: the activation, entry by entry. Row r is written back by the point r / 10000, so the ten blocks fill
  the output. The inputs are never written back.
-/
import proofs.«101999_j28329604284662_1_alg».proof.Proof.KI.Norm3
import proofs.«101999_j28329604284662_1_alg».proof.Proof.KI.ValCommon
import Idealize.ShloMosaic.Lib.Pipeline.Value

set_option maxRecDepth 16384

noncomputable section

namespace Cert.KernelIdeal.ValNorm3

open Cert.KernelIdeal Cert.KernelIdeal.Gen Cert.KernelIdeal.Hand Cert.KernelIdeal.PayRead Cert.KernelIdeal.Val
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The output array the region leaves: the activation of the entry arrays, entry by entry. -/
def G3 (c : Dev nD) : S100000x32.Idx → EReal :=
  Cert.Arr.ofMat (Cert.Spec.act (Cert.Arr.toMat (V c main_v62_0)) (toRow1 (V c main_v62_1)) (toRow1 (V c main_v62_2))
    (toRow1 (V c main_v6)) (toRow1 (V c main_v7)))

/-- The printed index maps over the grid: the two big windows move with the point along the rows, the four rows stay. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The output array at an index: the activation of the entry arrays there. -/
theorem G3_apply (c : Dev nD) (i : S100000x32.Idx) :
    G3 V c i = actAt (V c main_v62_0 i) (V c main_v62_1 (ix2 (0 : Fin 1) (i 1))) (V c main_v62_2 (ix2 (0 : Fin 1) (i 1)))
      (V c main_v6 (ix2 (0 : Fin 1) (i 1))) (V c main_v7 (ix2 (0 : Fin 1) (i 1))) :=
  congrArg (fun k => actAt (V c main_v62_0 k) (V c main_v62_1 (ix2 (0 : Fin 1) (i 1))) (V c main_v62_2 (ix2 (0 : Fin 1) (i 1)))
      (V c main_v6 (ix2 (0 : Fin 1) (i 1))) (V c main_v7 (ix2 (0 : Fin 1) (i 1)))) (eq_ix2 i).symm

/-- What point t writes back is block t of the whole-array function. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S10000x32) hz, View.ld_unit_zero (S := S1x32) hz]
  obtain ⟨a0, a1, b0, b1, c0, c1, d0, d1, e0, e1, f0, f1⟩ := idx_facts3 t
  funext j
  show k3_pay1 (iblk3 V c 0 t) (iblk3 V c 1 t) (iblk3 V c 2 t) (iblk3 V c 3 t) (iblk3 V c 4 t) j
      = G3 V c (((cfg3.win 5).blk t).view.emb j)
  refine (k3_pay1_idx (iblk3 V c 0 t) (iblk3 V c 1 t) (iblk3 V c 2 t) (iblk3 V c 3 t) (iblk3 V c 4 t) j).trans ?_
  have h0 : iblk3 V c 0 t j = V c main_v62_0 (((cfg3.win 5).blk t).view.emb j) := by
    show V c main_v62_0 (((cfg3.win 0).blk t).view.emb j) = _
    refine congrArg (V c main_v62_0) (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 32 + 1 * (j 1).val = win3_5.index t (1 : Fin 2) * 32 + 1 * (j 1).val; omega
  have h1 : iblk3 V c 1 t (ix2 (0 : Fin 1) (j 1)) = V c main_v62_1 (ix2 (0 : Fin 1) ((((cfg3.win 5).blk t).view.emb j) 1)) := by
    show V c main_v62_1 (((cfg3.win 1).blk t).view.emb (ix2 (0 : Fin 1) (j 1))) = _
    refine congrArg (V c main_v62_1) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_5.index t (1 : Fin 2) * 32 + 1 * (j 1).val; omega
  have h2 : iblk3 V c 2 t (ix2 (0 : Fin 1) (j 1)) = V c main_v62_2 (ix2 (0 : Fin 1) ((((cfg3.win 5).blk t).view.emb j) 1)) := by
    show V c main_v62_2 (((cfg3.win 2).blk t).view.emb (ix2 (0 : Fin 1) (j 1))) = _
    refine congrArg (V c main_v62_2) (funext fun a => Fin.ext ?_)
    match a with
    | ⟨0, _⟩ => show win3_2.index t (0 : Fin 2) * 1 + 1 * 0 = 0; omega
    | ⟨1, _⟩ => show win3_2.index t (1 : Fin 2) * 32 + 1 * (j 1).val = win3_5.index t (1 : Fin 2) * 32 + 1 * (j 1).val; omega
  have h3 : iblk3 V c 3 t (ix2 (0 : Fin 1) (j 1)) = V c main_v6 (ix2 (0 : Fin 1) ((((cfg3.win 5).blk t).view.emb j) 1)) := by
    show V c main_v6 (((cfg3.win 3).blk t).view.emb (ix2 (0 : Fin 1) (j 1))) = _
    refine congrArg (V c main_v6) (funext fun a => Fin.ext ?_)
    match a with
    | ⟨0, _⟩ => show win3_3.index t (0 : Fin 2) * 1 + 1 * 0 = 0; omega
    | ⟨1, _⟩ => show win3_3.index t (1 : Fin 2) * 32 + 1 * (j 1).val = win3_5.index t (1 : Fin 2) * 32 + 1 * (j 1).val; omega
  have h4 : iblk3 V c 4 t (ix2 (0 : Fin 1) (j 1)) = V c main_v7 (ix2 (0 : Fin 1) ((((cfg3.win 5).blk t).view.emb j) 1)) := by
    show V c main_v7 (((cfg3.win 4).blk t).view.emb (ix2 (0 : Fin 1) (j 1))) = _
    refine congrArg (V c main_v7) (funext fun a => Fin.ext ?_)
    match a with
    | ⟨0, _⟩ => show win3_4.index t (0 : Fin 2) * 1 + 1 * 0 = 0; omega
    | ⟨1, _⟩ => show win3_4.index t (1 : Fin 2) * 32 + 1 * (j 1).val = win3_5.index t (1 : Fin 2) * 32 + 1 * (j 1).val; omega
  rw [h0, h1, h2, h3, h4]
  exact (G3_apply V c _).symm

/-- An index of the array is in point t's block iff each coordinate is in the block's range on its axis. -/
theorem mem_blk3 (t : Fin cfg3.N) (i : S100000x32.Idx) :
    i ∈ ((cfg3.win 5).blk t).view.set ↔ ∀ a : Fin 2, win3_5.index t a * S10000x32.size a ≤ (i a).val
      ∧ (i a).val < win3_5.index t a * S10000x32.size a + S10000x32.size a := by
  show i ∈ ((View.whole main_v63).slice (win3_5.rect t)).set ↔ _
  rw [View.set_slice_whole, Rect.mem_set_unit]
  exact Iff.rfl

/-- Every row block is some point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

/-- Row r of the output is written back by the point r / 10000. -/
theorem cover3 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 32 ≤ (i 1).val ∧ (i 1).val < win3_5.index t (1 : Fin 2) * 32 + 32
    omega

/-- The output array after the region. -/
theorem final3 (c : Dev nD) : (dat3 V c).arrAt 5 cfg3.N = G3 V c :=
  (dat3 V c).arrAt_eq_of_cover 5 (G3 V c) (fun t _ => flushed3_eq V c t) (cover3)

/-- The region's output is the activation of its entry arrays. -/
theorem out3_eq (c : Dev nD) :
    Cert.Arr.toMat ((dat3 V c).arrAt 5 cfg3.N)
      = Cert.Spec.act (Cert.Arr.toMat (V c main_v62_0)) (toRow1 (V c main_v62_1)) (toRow1 (V c main_v62_2))
          (toRow1 (V c main_v6)) (toRow1 (V c main_v7)) := by
  rw [final3]
  rfl

/-- The region leaves its input arrays as it found them. -/
theorem in3_eq (c : Dev nD) (w : Fin cfg3.W) (hw : (cfg3.win w).isOut = false) :
    (dat3 V c).arrAt w cfg3.N = V c (Pipeline.arrRef spec3 w) :=
  ((dat3 V c).arrAt_in w hw cfg3.N).trans (A_eq3 V c w)

theorem in3_0 (c : Dev nD) : (dat3 V c).arrAt 0 cfg3.N = V c main_v62_0 := in3_eq V c 0 rfl
theorem in3_1 (c : Dev nD) : (dat3 V c).arrAt 1 cfg3.N = V c main_v62_1 := in3_eq V c 1 rfl
theorem in3_2 (c : Dev nD) : (dat3 V c).arrAt 2 cfg3.N = V c main_v62_2 := in3_eq V c 2 rfl
theorem in3_3 (c : Dev nD) : (dat3 V c).arrAt 3 cfg3.N = V c main_v6 := in3_eq V c 3 rfl
theorem in3_4 (c : Dev nD) : (dat3 V c).arrAt 4 cfg3.N = V c main_v7 := in3_eq V c 4 rfl

end Cert.KernelIdeal.ValNorm3

end
-- ==== Proof.KI.ValPieces0.lean ====
/-
  Region 0, the combine kernel: what each control case leaves in each buffer it stores into, as the kernel's
  named pure values of the buffers it loads.

  Every store and every load is of a whole buffer, so a buffer stored once holds that store's value, a buffer stored
  twice holds the later one, and a load after a store reads the stored value. Writing Z for the block of
  pre-activations (a function of the five input blocks):
    * every case leaves Z in the block output;
    * the sum row becomes its carried value plus the column sums of Z, the sum-of-squares row its carried value plus
      the column sums of Z² — at the first point the carried values are the zero rows just stored;
    * the last point also leaves the mean row (sum / n) and the variance row (sum of squares / n − mean²), computed
      from the two rows as just updated.
-/
import proofs.«101999_j28329604284662_1_alg».proof.Proof.KI.Comb0
import Idealize.ShloMosaic.Lib.Pipeline.Value

set_option maxRecDepth 16384

noncomputable section

namespace Cert.KernelIdeal.Pieces0

open Cert.KernelIdeal Cert.KernelIdeal.Gen Cert.KernelIdeal.Hand
open Idealize.ShloMosaic Idealize.ShloMosaic.TcCoe Idealize.ShloMosaic.Tactic
open Idealize.ShloMosaic.Pipeline (Dat Cfg Window)

variable {F : FTy → Type} [FloatOps F]

theorem hz2 : (![0, 0] : Fin 2 → Nat) = fun _ => 0 := funext fun a => by fin_cases a <;> rfl

theorem hz1 : (![0] : Fin 1 → Nat) = fun _ => 0 := funext fun a => by fin_cases a <;> rfl
theorem hz3 : (![0, 0, 0] : Fin 3 → Nat) = fun _ => 0 := funext fun a => by fin_cases a <;> rfl

theorem out0_A_5_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i) (x0 x1 x2 : Vec F S10000x32 .f32) (x3 : Vec F S3x32x32 .f32) (x4 : Vec F S32 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay7 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_A_0_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i) (x0 x1 x2 : Vec F S10000x32 .f32) (x3 : Vec F S3x32x32 .f32) (x4 : Vec F S32 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay1 (k0_pay8 x0 x1 x2 x3 x4 k0_pay5) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_A_1_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond0_0 i) (hc1 : ¬cond0_1 i) (x0 x1 x2 : Vec F S10000x32 .f32) (x3 : Vec F S3x32x32 .f32) (x4 : Vec F S32 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay2 (k0_pay7 x0 x1 x2 x3 x4) k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out0_B_5_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i) (x0 x1 x2 : Vec F S10000x32 .f32) (x3 : Vec F S3x32x32 .f32) (x4 : Vec F S32 .f32) (xs0 xs1 : Vec F S1x32 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_B_0_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i) (x0 x1 x2 : Vec F S10000x32 .f32) (x3 : Vec F S3x32x32 .f32) (x4 : Vec F S32 .f32) (xs0 xs1 : Vec F S1x32 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay8 x0 x1 x2 x3 x4 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_B_1_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : ¬cond0_1 i) (x0 x1 x2 : Vec F S10000x32 .f32) (x3 : Vec F S3x32x32 .f32) (x4 : Vec F S32 .f32) (xs0 xs1 : Vec F S1x32 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay2 (k0_pay7 x0 x1 x2 x3 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out0_C_5_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i) (x0 x1 x2 : Vec F S10000x32 .f32) (x3 : Vec F S3x32x32 .f32) (x4 : Vec F S32 .f32) (xs0 xs1 : Vec F S1x32 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_C_0_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i) (x0 x1 x2 : Vec F S10000x32 .f32) (x3 : Vec F S3x32x32 .f32) (x4 : Vec F S32 .f32) (xs0 xs1 : Vec F S1x32 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay8 x0 x1 x2 x3 x4 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout0_C_1_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i) (x0 x1 x2 : Vec F S10000x32 .f32) (x3 : Vec F S3x32x32 .f32) (x4 : Vec F S32 .f32) (xs0 xs1 : Vec F S1x32 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay2 (k0_pay7 x0 x1 x2 x3 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out0_C_6_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i) (x0 x1 x2 : Vec F S10000x32 .f32) (x3 : Vec F S3x32x32 .f32) (x4 : Vec F S32 .f32) (xs0 xs1 : Vec F S1x32 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay3 (k0_pay1 (k0_pay8 x0 x1 x2 x3 x4 xs0)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out0_C_7_eq (c : Dev nD) (i : grid0.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond0_0 i) (hc1 : cond0_1 i) (x0 x1 x2 : Vec F S10000x32 .f32) (x3 : Vec F S3x32x32 .f32) (x4 : Vec F S32 .f32) (xs0 xs1 : Vec F S1x32 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay4 (k0_pay1 (k0_pay8 x0 x1 x2 x3 x4 xs0)) (k0_pay2 (k0_pay7 x0 x1 x2 x3 x4) xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

end Cert.KernelIdeal.Pieces0

end
-- ==== Proof.SpecBlocks.lean ====
/-
  A sum over 100000 consecutive indices cut into ten consecutive blocks of 10000.

  Every index p < m·n is t·n + q for exactly one block t < m and offset q < n, so a sum over the m·n indices is the
  double sum over the blocks and the offsets.
-/
import Mathlib.Algebra.BigOperators.Fin
import Mathlib.Logic.Equiv.Fin.Basic
import Mathlib.Tactic

namespace Cert.Spec

/-- A sum over m·n indices, block by block. -/
theorem sum_blocks {M : Type*} [AddCommMonoid M] (m n : ℕ) (f : Fin (m * n) → M) :
    ∑ p, f p = ∑ t : Fin m, ∑ q : Fin n, f ⟨t.val * n + q.val, by
      calc t.val * n + q.val < t.val * n + n := Nat.add_lt_add_left q.isLt _
        _ = (t.val + 1) * n := by ring
        _ ≤ m * n := Nat.mul_le_mul_right n t.isLt⟩ := by
  rw [← Equiv.sum_comp finProdFinEquiv f, Fintype.sum_prod_type]
  refine Finset.sum_congr rfl fun t _ => Finset.sum_congr rfl fun q _ => congrArg f (Fin.ext ?_)
  show q.val + n * t.val = t.val * n + q.val
  ring

/-- The rows of the network's arrays: 100000 = 10 blocks of 10000. -/
theorem sum_rows_blocks {M : Type*} [AddCommMonoid M] (f : Fin 100000 → M) :
    ∑ p : Fin 100000, f p
      = ∑ t : Fin 10, ∑ q : Fin 10000, f ⟨t.val * 10000 + q.val, by have := t.isLt; have := q.isLt; omega⟩ :=
  sum_blocks 10 10000 f

end Cert.Spec
-- ==== Proof.KI.ValComb0.lean ====
/-
  Region 0: what the combine kernel leaves in its arrays, as a function of the arrays it finds.

  Write z for the pre-activations of the WHOLE arrays: z(r, c) = ((Σ_j x(r,j)·W₀(j,c) + Σ_j h1(r,j)·W₁(j,c)) +
  Σ_j h2(r,j)·W₂(j,c)) + b(c), the specification's sums. The ten grid points each read rows t·10000 … t·10000 + 9999
  of the three feature arrays (entry (p, j) of a block sits at row (block index)·10000 + p of its array) and the whole
  weight and bias arrays (block index 0), so the block of pre-activations the kernel computes at point t is rows
  t·10000 + p of z, and that is what point t writes back: the ten blocks fill the block output with z.

  The two scratch rows are carried from point to point. By induction on the point: after point n the first holds,
  in column c, the sum of z(r, c) over the rows of points 0 … n, the second the sum of z(r, c)²; the first point
  starts them from the zero rows it has just stored. After the last point the sums run over the ten blocks of 10000
  rows, that is over all 100000 rows, so the mean row it stores is (Σ_r z(r, c)) / n and the variance row is
  (Σ_r z(r, c)²) / n − mean². Those two rows are written back once, at the last point, and their block is the whole
  row. The inputs are never written back.
-/
import proofs.«101999_j28329604284662_1_alg».proof.Proof.KI.ValPieces0
import proofs.«101999_j28329604284662_1_alg».proof.Proof.KI.ValCommon
import proofs.«101999_j28329604284662_1_alg».proof.Proof.SpecBlocks
import Idealize.ShloMosaic.Lib.Pipeline.Value

set_option maxRecDepth 16384

noncomputable section

namespace Cert.KernelIdeal.ValComb0

open Cert.KernelIdeal Cert.KernelIdeal.Gen Cert.KernelIdeal.Hand Cert.KernelIdeal.PayRead Cert.KernelIdeal.Val
open Cert.KernelIdeal.Pieces0
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The pre-activations of the whole array: the specification's sums of products of the entry arrays. -/
def z0 (c : Dev nD) : Cert.Spec.Mat :=
  Cert.Spec.conv (Cert.Arr.toMat (V c main_arg0)) (Cert.Arr.toMat (V c main_v20)) (Cert.Arr.toMat (V c main_v33))
    (Cert.Arr.toWts (V c main_arg3)) (Cert.Arr.toRow (V c main_arg4))

/-- The block of pre-activations the kernel computes at point t, from the five input blocks there. -/
def Zb (c : Dev nD) (t : Fin cfg0.N) : FVec Ideal S10000x32 .f32 :=
  k0_pay7 (iblk0 V c 0 t) (iblk0 V c 1 t) (iblk0 V c 2 t) (iblk0 V c 3 t) (iblk0 V c 4 t)

theorem idx0_0 : ∀ t : Fin cfg0.N, win0_0.index t (0 : Fin 2) = t.val ∧ win0_0.index t (1 : Fin 2) = 0 :=
  (by decide +kernel : ∀ t : Fin grid0.N, _)

/-- Entry (p, j) of window 0's block at point t is entry (t·10000 + p, j) of its array. -/
theorem iblk0_0_apply (c : Dev nD) (t : Fin cfg0.N) (p : Fin 10000) (j : Fin 32) (r : Fin 100000)
    (hr : r.val = t.val * 10000 + p.val) : iblk0 V c 0 t (ix2 p j) = V c main_arg0 (ix2 r j) := by
  obtain ⟨a0, a1⟩ := idx0_0 t
  show V c main_arg0 (((cfg0.win 0).blk t).view.emb (ix2 p j)) = _
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 32 + 1 * j.val = j.val; omega

theorem idx0_1 : ∀ t : Fin cfg0.N, win0_1.index t (0 : Fin 2) = t.val ∧ win0_1.index t (1 : Fin 2) = 0 :=
  (by decide +kernel : ∀ t : Fin grid0.N, _)

/-- Entry (p, j) of window 1's block at point t is entry (t·10000 + p, j) of its array. -/
theorem iblk0_1_apply (c : Dev nD) (t : Fin cfg0.N) (p : Fin 10000) (j : Fin 32) (r : Fin 100000)
    (hr : r.val = t.val * 10000 + p.val) : iblk0 V c 1 t (ix2 p j) = V c main_v20 (ix2 r j) := by
  obtain ⟨a0, a1⟩ := idx0_1 t
  show V c main_v20 (((cfg0.win 1).blk t).view.emb (ix2 p j)) = _
  refine congrArg (V c main_v20) (funext fun a => Fin.ext ?_)
  match a with
  | ⟨0, _⟩ => show win0_1.index t (0 : Fin 2) * 10000 + 1 * p.val = r.val; omega
  | ⟨1, _⟩ => show win0_1.index t (1 : Fin 2) * 32 + 1 * j.val = j.val; omega

theorem idx0_2 : ∀ t : Fin cfg0.N, win0_2.index t (0 : Fin 2) = t.val ∧ win0_2.index t (1 : Fin 2) = 0 :=
  (by decide +kernel : ∀ t : Fin grid0.N, _)

/-- Entry (p, j) of window 2's block at point t is entry (t·10000 + p, j) of its array. -/
theorem iblk0_2_apply (c : Dev nD) (t : Fin cfg0.N) (p : Fin 10000) (j : Fin 32) (r : Fin 100000)
    (hr : r.val = t.val * 10000 + p.val) : iblk0 V c 2 t (ix2 p j) = V c main_v33 (ix2 r j) := by
  obtain ⟨a0, a1⟩ := idx0_2 t
  show V c main_v33 (((cfg0.win 2).blk t).view.emb (ix2 p j)) = _
  refine congrArg (V c main_v33) (funext fun a => Fin.ext ?_)
  match a with
  | ⟨0, _⟩ => show win0_2.index t (0 : Fin 2) * 10000 + 1 * p.val = r.val; omega
  | ⟨1, _⟩ => show win0_2.index t (1 : Fin 2) * 32 + 1 * j.val = j.val; omega

theorem idx0_3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx0_4 : ∀ t : Fin cfg0.N, win0_4.index t (0 : Fin 1) = 0 := (by decide +kernel : ∀ t : Fin grid0.N, _)

/-- The weights' block is the whole array at every point. -/
theorem iblk0_3_apply (c : Dev nD) (t : Fin cfg0.N) (k : Fin 3) (j q : Fin 32) :
    iblk0 V c 3 t (ix3 k j q) = V c main_arg3 (ix3 k j q) := by
  obtain ⟨a0, a1, a2⟩ := idx0_3 t
  show V c main_arg3 (((cfg0.win 3).blk t).view.emb (ix3 k j q)) = _
  refine congrArg (V c main_arg3) (funext fun a => Fin.ext ?_)
  match a with
  | ⟨0, _⟩ => show win0_3.index t (0 : Fin 3) * 3 + 1 * k.val = k.val; omega
  | ⟨1, _⟩ => show win0_3.index t (1 : Fin 3) * 32 + 1 * j.val = j.val; omega
  | ⟨2, _⟩ => show win0_3.index t (2 : Fin 3) * 32 + 1 * q.val = q.val; omega

/-- The bias's block is the whole array at every point. -/
theorem iblk0_4_apply (c : Dev nD) (t : Fin cfg0.N) (q : Fin 32) :
    iblk0 V c 4 t (ix1 q) = V c main_arg4 (ix1 q) := by
  have a0 := idx0_4 t
  show V c main_arg4 (((cfg0.win 4).blk t).view.emb (ix1 q)) = _
  refine congrArg (V c main_arg4) (funext fun a => Fin.ext ?_)
  match a with
  | ⟨0, _⟩ => show win0_4.index t (0 : Fin 1) * 32 + 1 * q.val = q.val; omega

/-- Row p of point t's block of pre-activations is row t·10000 + p of the whole array's. -/
theorem Zb_apply (c : Dev nD) (t : Fin cfg0.N) (p : Fin 10000) (q : Fin 32) (hr : t.val * 10000 + p.val < 100000) :
    Zb V c t (ix2 p q) = z0 V c ⟨t.val * 10000 + p.val, hr⟩ q := by
  unfold Zb
  refine (k0_pay7_apply (iblk0 V c 0 t) (iblk0 V c 1 t) (iblk0 V c 2 t) (iblk0 V c 3 t) (iblk0 V c 4 t) p q).trans ?_
  simp only [iblk0_0_apply V c t p _ ⟨t.val * 10000 + p.val, hr⟩ rfl, iblk0_1_apply V c t p _ ⟨t.val * 10000 + p.val, hr⟩ rfl,
    iblk0_2_apply V c t p _ ⟨t.val * 10000 + p.val, hr⟩ rfl, iblk0_3_apply V c t, iblk0_4_apply V c t]
  rfl

/-- Row r of the whole array's pre-activations, for any natural r (zero past the array). -/
def zN (c : Dev nD) (r : ℕ) (q : Fin 32) : EReal := if h : r < 100000 then z0 V c ⟨r, h⟩ q else 0

/-- The column sums over the rows of points 0 … n. -/
def S0 (c : Dev nD) (n : ℕ) (q : Fin 32) : EReal :=
  ∑ t' ∈ Finset.range (n + 1), ∑ p : Fin 10000, zN V c (t' * 10000 + p.val) q
/-- The column sums of squares over the rows of points 0 … n. -/
def S1 (c : Dev nD) (n : ℕ) (q : Fin 32) : EReal :=
  ∑ t' ∈ Finset.range (n + 1), ∑ p : Fin 10000, zN V c (t' * 10000 + p.val) q * zN V c (t' * 10000 + p.val) q

/-- One value per feature as a 1×32 array. -/
def rowOf (r : Fin 32 → EReal) : S1x32.Idx → EReal := fun i => r (i 1)

theorem rowOf_apply (r : Fin 32 → EReal) (q : Fin 32) : rowOf r (ix2 (0 : Fin 1) q) = r q := rfl
theorem toRow1_rowOf (r : Fin 32 → EReal) : toRow1 (rowOf r) = r := rfl

/-- Two 1×32 arrays that agree on (0, q) for every q are equal. -/
theorem row_ext {f g : S1x32.Idx → EReal} (h : ∀ q : Fin 32, f (ix2 (0 : Fin 1) q) = g (ix2 (0 : Fin 1) q)) : f = g := by
  funext i
  have hi : i = ix2 (0 : Fin 1) (i 1) :=
    (eq_ix2 i).trans (congrArg (fun a : Fin 1 => ix2 a (i 1)) (Subsingleton.elim _ _))
  exact (congrArg f hi).trans ((h (i 1)).trans (congrArg g hi).symm)

theorem Zb_zN (c : Dev nD) (t : Fin cfg0.N) (p : Fin 10000) (q : Fin 32) :
    Zb V c t (ix2 p q) = zN V c (t.val * 10000 + p.val) q := by
  have hN : grid0.N = 10 := N_0
  have ht : t.val < grid0.N := t.isLt
  have hp := p.isLt
  have hr : t.val * 10000 + p.val < 100000 := by omega
  unfold zN
  rw [dif_pos hr]
  exact Zb_apply V c t p q hr

/-- The updated sum row: the carried row plus the block's column sums. -/
theorem s0_step (c : Dev nD) (t : Fin cfg0.N) (s : Vec Ideal S1x32 .f32) (q : Fin 32) :
    k0_pay1 (k0_pay8 (iblk0 V c 0 t) (iblk0 V c 1 t) (iblk0 V c 2 t) (iblk0 V c 3 t) (iblk0 V c 4 t) s) (ix2 (0 : Fin 1) q)
      = s (ix2 (0 : Fin 1) q) + ∑ p : Fin 10000, zN V c (t.val * 10000 + p.val) q := by
  rw [k0_pay1_eq]
  refine (k0_pay8_apply (iblk0 V c 0 t) (iblk0 V c 1 t) (iblk0 V c 2 t) (iblk0 V c 3 t) (iblk0 V c 4 t) s q).trans ?_
  exact congrArg (s (ix2 (0 : Fin 1) q) + ·) (Finset.sum_congr rfl fun p _ => Zb_zN V c t p q)

/-- The updated sum-of-squares row. -/
theorem s1_step (c : Dev nD) (t : Fin cfg0.N) (s : Vec Ideal S1x32 .f32) (q : Fin 32) :
    k0_pay2 (Zb V c t) s (ix2 (0 : Fin 1) q)
      = s (ix2 (0 : Fin 1) q) + ∑ p : Fin 10000, zN V c (t.val * 10000 + p.val) q * zN V c (t.val * 10000 + p.val) q := by
  refine (k0_pay2_apply (Zb V c t) s q).trans ?_
  exact congrArg (s (ix2 (0 : Fin 1) q) + ·) (Finset.sum_congr rfl fun p _ => by rw [Zb_zN])

/-! ### What each control case leaves, at the blocks of a point -/

theorem outsA (c : Dev nD) (t : Fin cfg0.N) (h0 : t.val = 0) :
    (outsAt0 V c t.val t.isLt).o5 = Zb V c t
      ∧ (outsAt0 V c t.val t.isLt).s0 = k0_pay1 (k0_pay8 (iblk0 V c 0 t) (iblk0 V c 1 t) (iblk0 V c 2 t) (iblk0 V c 3 t) (iblk0 V c 4 t) (k0_pay5 (F := Ideal)))
      ∧ (outsAt0 V c t.val t.isLt).s1 = k0_pay2 (Zb V c t) (k0_pay6 (F := Ideal)) := by
  rw [outsAt0_A V c t h0]
  dsimp only
  unfold Zb
  exact ⟨out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
    sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t),
    sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd (((hcond0_1 t).mp h).symm.trans h0) (by decide)) (iblk0 V c 0 t) (iblk0 V c 1 t) (iblk0 V c 2 t) (iblk0 V c 3 t) (iblk0 V c 4 t)⟩

theorem outsB (c : Dev nD) (t : Fin cfg0.N) (h0 : ¬t.val = 0) (h9 : ¬t.val = 9) :
    (outsAt0 V c t.val t.isLt).o5 = Zb V c t
      ∧ (outsAt0 V c t.val t.isLt).s0 = k0_pay1 (k0_pay8 (iblk0 V c 0 t) (iblk0 V c 1 t) (iblk0 V c 2 t) (iblk0 V c 3 t) (iblk0 V c 4 t) (outsAt0 V c (t.val - 1) (Nat.lt_of_le_of_lt (Nat.sub_le _ _) t.isLt)).s0)
      ∧ (outsAt0 V c t.val t.isLt).s1 = k0_pay2 (Zb V c t) (outsAt0 V c (t.val - 1) (Nat.lt_of_le_of_lt (Nat.sub_le _ _) t.isLt)).s1 := by
  rw [outsAt0_B V c t h0 h9]
  dsimp only
  unfold Zb
  exact ⟨out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h9 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩

theorem outsC (c : Dev nD) (t : Fin cfg0.N) (h0 : ¬t.val = 0) (h9 : t.val = 9) :
    (outsAt0 V c t.val t.isLt).o5 = Zb V c t
      ∧ (outsAt0 V c t.val t.isLt).s0 = k0_pay1 (k0_pay8 (iblk0 V c 0 t) (iblk0 V c 1 t) (iblk0 V c 2 t) (iblk0 V c 3 t) (iblk0 V c 4 t) (outsAt0 V c (t.val - 1) (Nat.lt_of_le_of_lt (Nat.sub_le _ _) t.isLt)).s0)
      ∧ (outsAt0 V c t.val t.isLt).s1 = k0_pay2 (Zb V c t) (outsAt0 V c (t.val - 1) (Nat.lt_of_le_of_lt (Nat.sub_le _ _) t.isLt)).s1
      ∧ (outsAt0 V c t.val t.isLt).o6 = k0_pay3 (k0_pay1 (k0_pay8 (iblk0 V c 0 t) (iblk0 V c 1 t) (iblk0 V c 2 t) (iblk0 V c 3 t) (iblk0 V c 4 t) (outsAt0 V c (t.val - 1) (Nat.lt_of_le_of_lt (Nat.sub_le _ _) t.isLt)).s0))
      ∧ (outsAt0 V c t.val t.isLt).o7 = k0_pay4 (k0_pay1 (k0_pay8 (iblk0 V c 0 t) (iblk0 V c 1 t) (iblk0 V c 2 t) (iblk0 V c 3 t) (iblk0 V c 4 t) (outsAt0 V c (t.val - 1) (Nat.lt_of_le_of_lt (Nat.sub_le _ _) t.isLt)).s0)) (k0_pay2 (Zb V c t) (outsAt0 V c (t.val - 1) (Nat.lt_of_le_of_lt (Nat.sub_le _ _) t.isLt)).s1) := by
  rw [outsAt0_C V c t h0 h9]
  dsimp only
  unfold Zb
  exact ⟨out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1,
    out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h9) (iblk0 V c 0 t) (iblk0 V c 1 t) (iblk0 V c 2 t) (iblk0 V c 3 t) (iblk0 V c 4 t) (outsAt0 V c (t.val - 1) (Nat.lt_of_le_of_lt (Nat.sub_le _ _) t.isLt)).s0 (outsAt0 V c (t.val - 1) (Nat.lt_of_le_of_lt (Nat.sub_le _ _) t.isLt)).s1⟩

/-! ### The accumulation, point by point -/

/-- After point n the block output holds that point's block of pre-activations, and the two scratch rows hold the
    column sums, and the column sums of squares, over the rows of points 0 … n. -/
theorem outs_inv (c : Dev nD) : ∀ (n : ℕ) (hn : n < cfg0.N),
    (outsAt0 V c n hn).o5 = Zb V c ⟨n, hn⟩ ∧ (outsAt0 V c n hn).s0 = rowOf (S0 V c n)
      ∧ (outsAt0 V c n hn).s1 = rowOf (S1 V c n)
  | 0, hn => by
    obtain ⟨e5, e0, e1⟩ := outsA V c ⟨0, hn⟩ rfl
    refine ⟨e5, e0.trans (row_ext fun q => ?_), e1.trans (row_ext fun q => ?_)⟩
    · refine (s0_step V c ⟨0, hn⟩ (k0_pay5 (F := Ideal)) q).trans ?_
      rw [show (k0_pay5 (F := Ideal)) (ix2 (0 : Fin 1) q) = 0 from congrFun k0_pay5_eq _]
      exact (zero_add _).trans (Finset.sum_range_one (fun t' => ∑ p : Fin 10000, zN V c (t' * 10000 + p.val) q)).symm
    · refine (s1_step V c ⟨0, hn⟩ (k0_pay6 (F := Ideal)) q).trans ?_
      rw [show (k0_pay6 (F := Ideal)) (ix2 (0 : Fin 1) q) = 0 from congrFun k0_pay6_eq _]
      exact (zero_add _).trans (Finset.sum_range_one
        (fun t' => ∑ p : Fin 10000, zN V c (t' * 10000 + p.val) q * zN V c (t' * 10000 + p.val) q)).symm
  | n + 1, hn => by
    obtain ⟨-, i0, i1⟩ := outs_inv c n (Nat.lt_of_succ_lt hn)
    have h0 : ¬(⟨n + 1, hn⟩ : Fin cfg0.N).val = 0 := Nat.succ_ne_zero n
    have step : (outsAt0 V c (n + 1) hn).o5 = Zb V c ⟨n + 1, hn⟩
        ∧ (outsAt0 V c (n + 1) hn).s0 = k0_pay1 (k0_pay8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).s0)
        ∧ (outsAt0 V c (n + 1) hn).s1 = k0_pay2 (Zb V c ⟨n + 1, hn⟩) (outsAt0 V c n (Nat.lt_of_succ_lt hn)).s1 := by
      by_cases h9 : n + 1 = 9
      · obtain ⟨a, b, d, -, -⟩ := outsC V c ⟨n + 1, hn⟩ h0 h9
        exact ⟨a, b, d⟩
      · obtain ⟨a, b, d⟩ := outsB V c ⟨n + 1, hn⟩ h0 h9
        exact ⟨a, b, d⟩
    obtain ⟨e5, e0, e1⟩ := step
    refine ⟨e5, e0.trans (row_ext fun q => ?_), e1.trans (row_ext fun q => ?_)⟩
    · refine (s0_step V c ⟨n + 1, hn⟩ _ q).trans ?_
      rw [i0]
      exact (Finset.sum_range_succ (fun t' => ∑ p : Fin 10000, zN V c (t' * 10000 + p.val) q) (n + 1)).symm
    · refine (s1_step V c ⟨n + 1, hn⟩ _ q).trans ?_
      rw [i1]
      exact (Finset.sum_range_succ
        (fun t' => ∑ p : Fin 10000, zN V c (t' * 10000 + p.val) q * zN V c (t' * 10000 + p.val) q) (n + 1)).symm

/-- Over all ten points the sums run over every row of the array. -/
theorem S0_last (c : Dev nD) (q : Fin 32) : S0 V c 9 q = ∑ r : Fin 100000, z0 V c r q := by
  rw [Cert.Spec.sum_rows_blocks (fun r => z0 V c r q)]
  show ∑ t' ∈ Finset.range 10, ∑ p : Fin 10000, zN V c (t' * 10000 + p.val) q = _
  rw [← Fin.sum_univ_eq_sum_range (fun t' => ∑ p : Fin 10000, zN V c (t' * 10000 + p.val) q) 10]
  refine Finset.sum_congr rfl fun t _ => Finset.sum_congr rfl fun p _ => ?_
  have ht := t.isLt
  have hp := p.isLt
  unfold zN
  rw [dif_pos (by omega)]

theorem S1_last (c : Dev nD) (q : Fin 32) : S1 V c 9 q = ∑ r : Fin 100000, z0 V c r q * z0 V c r q := by
  rw [Cert.Spec.sum_rows_blocks (fun r => z0 V c r q * z0 V c r q)]
  show ∑ t' ∈ Finset.range 10, ∑ p : Fin 10000, zN V c (t' * 10000 + p.val) q * zN V c (t' * 10000 + p.val) q = _
  rw [← Fin.sum_univ_eq_sum_range
    (fun t' => ∑ p : Fin 10000, zN V c (t' * 10000 + p.val) q * zN V c (t' * 10000 + p.val) q) 10]
  refine Finset.sum_congr rfl fun t _ => Finset.sum_congr rfl fun p _ => ?_
  have ht := t.isLt
  have hp := p.isLt
  unfold zN
  rw [dif_pos (by omega)]

/-! ### The final arrays -/

/-- The three output arrays the region leaves. -/
def G5 (c : Dev nD) : S100000x32.Idx → EReal := Cert.Arr.ofMat (z0 V c)
def G6 (c : Dev nD) : S1x32.Idx → EReal := rowOf (Cert.Spec.mean (z0 V c))
def G7 (c : Dev nD) : S1x32.Idx → EReal := rowOf (Cert.Spec.varSq (z0 V c))

/-- At the last point the two late outputs hold the mean and the variance of the whole array's pre-activations. -/
theorem late (c : Dev nD) (t : Fin cfg0.N) (h9 : t.val = 9) :
    (outsAt0 V c t.val t.isLt).o6 = G6 V c ∧ (outsAt0 V c t.val t.isLt).o7 = G7 V c := by
  have h0 : ¬t.val = 0 := by omega
  obtain ⟨-, e0, e1, e6, e7⟩ := outsC V c t h0 h9
  obtain ⟨-, i0, i1⟩ := outs_inv V c t.val t.isLt
  rw [← e0] at e6 e7
  rw [← e1] at e7
  rw [i0] at e6 e7
  rw [i1] at e7
  refine ⟨e6.trans (row_ext fun q => ?_), e7.trans (row_ext fun q => ?_)⟩
  · rw [k0_pay3_apply, rowOf_apply, h9, S0_last]
    rfl
  · rw [k0_pay4_apply, k0_pay3_apply, rowOf_apply, rowOf_apply, h9, S0_last, S1_last]
    rfl

/-- The last grid point. -/
def t9 : Fin cfg0.N := ⟨9, by rw [show cfg0.N = 10 from N_0]; decide⟩

theorem idx0_6 : ∀ t : Fin cfg0.N, win0_6.index t (0 : Fin 2) = 0 ∧ win0_6.index t (1 : Fin 2) = 0 :=
  (by decide +kernel : ∀ t : Fin grid0.N, _)

theorem mem_blk0_6 (t : Fin cfg0.N) (i : S1x32.Idx) :
    i ∈ ((cfg0.win 6).blk t).view.set ↔ ∀ a : Fin 2, win0_6.index t a * S1x32.size a ≤ (i a).val
      ∧ (i a).val < win0_6.index t a * S1x32.size a + S1x32.size a := by
  show i ∈ ((View.whole main_v34_1).slice (win0_6.rect t)).set ↔ _
  rw [View.set_slice_whole, Rect.mem_set_unit]
  exact Iff.rfl

/-- The one write-back of window 6, at the last point, writes the whole row. -/
theorem flushed0_6_eq (c : Dev nD) (t : Fin cfg0.N) (hf : (cfg0.win 6).flush t = true) :
    (dat0 V c).flushed 6 t = ((cfg0.win 6).blk t).view.read (Elt Ideal) (G6 V c) := by
  have hN : grid0.N = 10 := N_0
  have ht : t.val < grid0.N := t.isLt
  have h9 : t.val = 9 := by have := (flush0_6 t).mp hf; omega
  obtain ⟨a0, a1⟩ := idx0_6 t
  show (cfg0.win 6).cut (grid0.coords t) ((dat0 V c).after 6 t) = _
  rw [after0_6, (late V c t h9).1]
  funext y
  show G6 V c y = G6 V c (((cfg0.win 6).blk t).view.emb y)
  refine congrArg (G6 V c) (funext fun a => Fin.ext ?_)
  match a with
  | ⟨0, _⟩ => show (y 0).val = win0_6.index t (0 : Fin 2) * 1 + 1 * (y 0).val; omega
  | ⟨1, _⟩ => show (y 1).val = win0_6.index t (1 : Fin 2) * 32 + 1 * (y 1).val; omega

theorem cover0_6 (i : S1x32.Idx) :
    ∃ t : Fin cfg0.N, (cfg0.win 6).flush t = true ∧ i ∈ ((cfg0.win 6).blk t).view.set := by
  have hi0 : (i 0).val < 1 := (i 0).isLt
  have hi1 : (i 1).val < 32 := (i 1).isLt
  obtain ⟨a0, a1⟩ := idx0_6 t9
  refine ⟨t9, (flush0_6 t9).mpr rfl, ?_⟩
  rw [mem_blk0_6]
  intro a
  match a with
  | ⟨0, _⟩ =>
    show win0_6.index t9 (0 : Fin 2) * 1 ≤ (i 0).val ∧ (i 0).val < win0_6.index t9 (0 : Fin 2) * 1 + 1
    omega
  | ⟨1, _⟩ =>
    show win0_6.index t9 (1 : Fin 2) * 32 ≤ (i 1).val ∧ (i 1).val < win0_6.index t9 (1 : Fin 2) * 32 + 32
    omega

theorem final0_6 (c : Dev nD) : (dat0 V c).arrAt 6 cfg0.N = G6 V c :=
  (dat0 V c).arrAt_eq_of_cover 6 (G6 V c) (flushed0_6_eq V c) cover0_6

theorem idx0_7 : ∀ t : Fin cfg0.N, win0_7.index t (0 : Fin 2) = 0 ∧ win0_7.index t (1 : Fin 2) = 0 :=
  (by decide +kernel : ∀ t : Fin grid0.N, _)

theorem mem_blk0_7 (t : Fin cfg0.N) (i : S1x32.Idx) :
    i ∈ ((cfg0.win 7).blk t).view.set ↔ ∀ a : Fin 2, win0_7.index t a * S1x32.size a ≤ (i a).val
      ∧ (i a).val < win0_7.index t a * S1x32.size a + S1x32.size a := by
  show i ∈ ((View.whole main_v34_2).slice (win0_7.rect t)).set ↔ _
  rw [View.set_slice_whole, Rect.mem_set_unit]
  exact Iff.rfl

/-- The one write-back of window 7, at the last point, writes the whole row. -/
theorem flushed0_7_eq (c : Dev nD) (t : Fin cfg0.N) (hf : (cfg0.win 7).flush t = true) :
    (dat0 V c).flushed 7 t = ((cfg0.win 7).blk t).view.read (Elt Ideal) (G7 V c) := by
  have hN : grid0.N = 10 := N_0
  have ht : t.val < grid0.N := t.isLt
  have h9 : t.val = 9 := by have := (flush0_7 t).mp hf; omega
  obtain ⟨a0, a1⟩ := idx0_7 t
  show (cfg0.win 7).cut (grid0.coords t) ((dat0 V c).after 7 t) = _
  rw [after0_7, (late V c t h9).2]
  funext y
  show G7 V c y = G7 V c (((cfg0.win 7).blk t).view.emb y)
  refine congrArg (G7 V c) (funext fun a => Fin.ext ?_)
  match a with
  | ⟨0, _⟩ => show (y 0).val = win0_7.index t (0 : Fin 2) * 1 + 1 * (y 0).val; omega
  | ⟨1, _⟩ => show (y 1).val = win0_7.index t (1 : Fin 2) * 32 + 1 * (y 1).val; omega

theorem cover0_7 (i : S1x32.Idx) :
    ∃ t : Fin cfg0.N, (cfg0.win 7).flush t = true ∧ i ∈ ((cfg0.win 7).blk t).view.set := by
  have hi0 : (i 0).val < 1 := (i 0).isLt
  have hi1 : (i 1).val < 32 := (i 1).isLt
  obtain ⟨a0, a1⟩ := idx0_7 t9
  refine ⟨t9, (flush0_7 t9).mpr rfl, ?_⟩
  rw [mem_blk0_7]
  intro a
  match a with
  | ⟨0, _⟩ =>
    show win0_7.index t9 (0 : Fin 2) * 1 ≤ (i 0).val ∧ (i 0).val < win0_7.index t9 (0 : Fin 2) * 1 + 1
    omega
  | ⟨1, _⟩ =>
    show win0_7.index t9 (1 : Fin 2) * 32 ≤ (i 1).val ∧ (i 1).val < win0_7.index t9 (1 : Fin 2) * 32 + 32
    omega

theorem final0_7 (c : Dev nD) : (dat0 V c).arrAt 7 cfg0.N = G7 V c :=
  (dat0 V c).arrAt_eq_of_cover 7 (G7 V c) (flushed0_7_eq V c) cover0_7

theorem idx0_5 : ∀ t : Fin cfg0.N, win0_5.index t (0 : Fin 2) = t.val ∧ win0_5.index t (1 : Fin 2) = 0 :=
  (by decide +kernel : ∀ t : Fin grid0.N, _)

theorem mem_blk0_5 (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v34_0).slice (win0_5.rect t)).set ↔ _
  rw [View.set_slice_whole, Rect.mem_set_unit]
  exact Iff.rfl

/-- What point t writes back of the block output is block t of the whole array's pre-activations. -/
theorem flushed0_5_eq (c : Dev nD) (t : Fin cfg0.N) :
    (dat0 V c).flushed 5 t = ((cfg0.win 5).blk t).view.read (Elt Ideal) (G5 V c) := by
  have hN : grid0.N = 10 := N_0
  have ht : t.val < grid0.N := t.isLt
  obtain ⟨a0, a1⟩ := idx0_5 t
  show (cfg0.win 5).cut (grid0.coords t) ((dat0 V c).after 5 t) = _
  rw [after0_5, (outs_inv V c t.val t.isLt).1]
  funext j
  have hj0 : (j 0).val < 10000 := (j 0).isLt
  have hr : t.val * 10000 + (j 0).val < 100000 := by omega
  show Zb V c t j = z0 V c ((((cfg0.win 5).blk t).view.emb j) 0) ((((cfg0.win 5).blk t).view.emb j) 1)
  refine (congrArg (Zb V c t) (eq_ix2 j)).trans ((Zb_apply V c t (j 0) (j 1) hr).trans ?_)
  refine congrArg₂ (z0 V c) (Fin.ext ?_) (Fin.ext ?_)
  · show t.val * 10000 + (j 0).val = win0_5.index t (0 : Fin 2) * 10000 + 1 * (j 0).val
    omega
  · show (j 1).val = win0_5.index t (1 : Fin 2) * 32 + 1 * (j 1).val
    omega

theorem idx_onto0 : ∀ q0 : Fin 10, ∃ t : Fin cfg0.N, win0_5.index t = ![q0.val, 0] :=
  (by decide +kernel : ∀ q0 : Fin 10, ∃ t : Fin grid0.N, win0_5.index t = ![q0.val, 0])

/-- Row r of the block output is written back by the point r / 10000. -/
theorem cover0_5 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0_5]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 32 ≤ (i 1).val ∧ (i 1).val < win0_5.index t (1 : Fin 2) * 32 + 32
    omega

theorem final0_5 (c : Dev nD) : (dat0 V c).arrAt 5 cfg0.N = G5 V c :=
  (dat0 V c).arrAt_eq_of_cover 5 (G5 V c) (fun t _ => flushed0_5_eq V c t) cover0_5

/-! ### The region's arrays after it -/

/-- The block output is the pre-activations of the entry arrays. -/
theorem out0_5_eq (c : Dev nD) :
    Cert.Arr.toMat ((dat0 V c).arrAt 5 cfg0.N)
      = Cert.Spec.conv (Cert.Arr.toMat (V c main_arg0)) (Cert.Arr.toMat (V c main_v20)) (Cert.Arr.toMat (V c main_v33))
          (Cert.Arr.toWts (V c main_arg3)) (Cert.Arr.toRow (V c main_arg4)) := by
  rw [final0_5]
  rfl

/-- The mean row is the column mean of the pre-activations. -/
theorem out0_6_eq (c : Dev nD) :
    toRow1 ((dat0 V c).arrAt 6 cfg0.N)
      = Cert.Spec.mean (Cert.Spec.conv (Cert.Arr.toMat (V c main_arg0)) (Cert.Arr.toMat (V c main_v20))
          (Cert.Arr.toMat (V c main_v33)) (Cert.Arr.toWts (V c main_arg3)) (Cert.Arr.toRow (V c main_arg4))) := by
  rw [final0_6]
  rfl

/-- The variance row is the mean of squares minus the squared mean of the pre-activations. -/
theorem out0_7_eq (c : Dev nD) :
    toRow1 ((dat0 V c).arrAt 7 cfg0.N)
      = Cert.Spec.varSq (Cert.Spec.conv (Cert.Arr.toMat (V c main_arg0)) (Cert.Arr.toMat (V c main_v20))
          (Cert.Arr.toMat (V c main_v33)) (Cert.Arr.toWts (V c main_arg3)) (Cert.Arr.toRow (V c main_arg4))) := by
  rw [final0_7]
  rfl

/-- The region leaves its input arrays as it found them. -/
theorem in0_eq (c : Dev nD) (w : Fin cfg0.W) (hw : (cfg0.win w).isOut = false) :
    (dat0 V c).arrAt w cfg0.N = V c (Pipeline.arrRef spec0 w) :=
  ((dat0 V c).arrAt_in w hw cfg0.N).trans (A_eq0 V c w)

theorem in0_0 (c : Dev nD) : (dat0 V c).arrAt 0 cfg0.N = V c main_arg0 := in0_eq V c 0 rfl
theorem in0_1 (c : Dev nD) : (dat0 V c).arrAt 1 cfg0.N = V c main_v20 := in0_eq V c 1 rfl
theorem in0_2 (c : Dev nD) : (dat0 V c).arrAt 2 cfg0.N = V c main_v33 := in0_eq V c 2 rfl
theorem in0_3 (c : Dev nD) : (dat0 V c).arrAt 3 cfg0.N = V c main_arg3 := in0_eq V c 3 rfl
theorem in0_4 (c : Dev nD) : (dat0 V c).arrAt 4 cfg0.N = V c main_arg4 := in0_eq V c 4 rfl

end Cert.KernelIdeal.ValComb0

end
-- ==== Proof.KI.ValPieces2.lean ====
/-
  Region 2, the combine kernel: what each control case leaves in each buffer it stores into, as the kernel's
  named pure values of the buffers it loads.

  Every store and every load is of a whole buffer, so a buffer stored once holds that store's value, a buffer stored
  twice holds the later one, and a load after a store reads the stored value. Writing Z for the block of
  pre-activations (a function of the five input blocks):
    * every case leaves Z in the block output;
    * the sum row becomes its carried value plus the column sums of Z, the sum-of-squares row its carried value plus
      the column sums of Z² — at the first point the carried values are the zero rows just stored;
    * the last point also leaves the mean row (sum / n) and the variance row (sum of squares / n − mean²), computed
      from the two rows as just updated.
-/
import proofs.«101999_j28329604284662_1_alg».proof.Proof.KI.Comb2
import Idealize.ShloMosaic.Lib.Pipeline.Value

set_option maxRecDepth 16384

noncomputable section

namespace Cert.KernelIdeal.Pieces2

open Cert.KernelIdeal Cert.KernelIdeal.Gen Cert.KernelIdeal.Hand
open Idealize.ShloMosaic Idealize.ShloMosaic.TcCoe Idealize.ShloMosaic.Tactic
open Idealize.ShloMosaic.Pipeline (Dat Cfg Window)

variable {F : FTy → Type} [FloatOps F]

theorem hz2 : (![0, 0] : Fin 2 → Nat) = fun _ => 0 := funext fun a => by fin_cases a <;> rfl

theorem hz1 : (![0] : Fin 1 → Nat) = fun _ => 0 := funext fun a => by fin_cases a <;> rfl
theorem hz3 : (![0, 0, 0] : Fin 3 → Nat) = fun _ => 0 := funext fun a => by fin_cases a <;> rfl

theorem out2_A_5_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i) (x0 x1 x2 : Vec F S10000x32 .f32) (x3 : Vec F S3x32x32 .f32) (x4 : Vec F S32 .f32) :
    out2_A_5 c i arg1 harg1 arg2 harg2 arg3 harg3 arg4 harg4 arg5 harg5 arg6 harg6 arg7 harg7 arg8 harg8 arg9 harg9 arg10 harg10 hc0 hc1 x0 x1 x2 x3 x4 = k2_pay7 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_A_0_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i) (x0 x1 x2 : Vec F S10000x32 .f32) (x3 : Vec F S3x32x32 .f32) (x4 : Vec F S32 .f32) :
    sout2_A_0 c i arg1 harg1 arg2 harg2 arg3 harg3 arg4 harg4 arg5 harg5 arg6 harg6 arg7 harg7 arg8 harg8 arg9 harg9 arg10 harg10 hc0 hc1 x0 x1 x2 x3 x4 = k2_pay1 (k2_pay8 x0 x1 x2 x3 x4 k2_pay5) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_A_1_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : cond2_0 i) (hc1 : ¬cond2_1 i) (x0 x1 x2 : Vec F S10000x32 .f32) (x3 : Vec F S3x32x32 .f32) (x4 : Vec F S32 .f32) :
    sout2_A_1 c i arg1 harg1 arg2 harg2 arg3 harg3 arg4 harg4 arg5 harg5 arg6 harg6 arg7 harg7 arg8 harg8 arg9 harg9 arg10 harg10 hc0 hc1 x0 x1 x2 x3 x4 = k2_pay2 (k2_pay7 x0 x1 x2 x3 x4) k2_pay6 := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out2_B_5_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i) (x0 x1 x2 : Vec F S10000x32 .f32) (x3 : Vec F S3x32x32 .f32) (x4 : Vec F S32 .f32) (xs0 xs1 : Vec F S1x32 .f32) :
    out2_B_5 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_B_0_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i) (x0 x1 x2 : Vec F S10000x32 .f32) (x3 : Vec F S3x32x32 .f32) (x4 : Vec F S32 .f32) (xs0 xs1 : Vec F S1x32 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay8 x0 x1 x2 x3 x4 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_B_1_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : ¬cond2_1 i) (x0 x1 x2 : Vec F S10000x32 .f32) (x3 : Vec F S3x32x32 .f32) (x4 : Vec F S32 .f32) (xs0 xs1 : Vec F S1x32 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay7 x0 x1 x2 x3 x4) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out2_C_5_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i) (x0 x1 x2 : Vec F S10000x32 .f32) (x3 : Vec F S3x32x32 .f32) (x4 : Vec F S32 .f32) (xs0 xs1 : Vec F S1x32 .f32) :
    out2_C_5 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_cons_unit_zero (S := S10000x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_C_0_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i) (x0 x1 x2 : Vec F S10000x32 .f32) (x3 : Vec F S3x32x32 .f32) (x4 : Vec F S32 .f32) (xs0 xs1 : Vec F S1x32 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay8 x0 x1 x2 x3 x4 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem sout2_C_1_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i) (x0 x1 x2 : Vec F S10000x32 .f32) (x3 : Vec F S3x32x32 .f32) (x4 : Vec F S32 .f32) (xs0 xs1 : Vec F S1x32 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay7 x0 x1 x2 x3 x4) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out2_C_6_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i) (x0 x1 x2 : Vec F S10000x32 .f32) (x3 : Vec F S3x32x32 .f32) (x4 : Vec F S32 .f32) (xs0 xs1 : Vec F S1x32 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1 = k2_pay3 (k2_pay1 (k2_pay8 x0 x1 x2 x3 x4 xs0)) := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

theorem out2_C_7_eq (c : Dev nD) (i : grid2.Coords) (arg1 : Memref sig .tc .vmem S10000x32 .f32) (harg1 : arg1.IsWhole) (arg2 : Memref sig .tc .vmem S10000x32 .f32) (harg2 : arg2.IsWhole) (arg3 : Memref sig .tc .vmem S10000x32 .f32) (harg3 : arg3.IsWhole) (arg4 : Memref sig .tc .vmem S3x32x32 .f32) (harg4 : arg4.IsWhole) (arg5 : Memref sig .tc .vmem S32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (hc0 : ¬cond2_0 i) (hc1 : cond2_1 i) (x0 x1 x2 : Vec F S10000x32 .f32) (x3 : Vec F S3x32x32 .f32) (x4 : Vec F S32 .f32) (xs0 xs1 : Vec F S1x32 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1 = k2_pay4 (k2_pay1 (k2_pay8 x0 x1 x2 x3 x4 xs0)) (k2_pay2 (k2_pay7 x0 x1 x2 x3 x4) xs1) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_cons_unit_zero (S := S1x32) hz2]
  simp only [View.readCov_unit_zero (S := S1x32) _ hz2, View.readAt_eq_ld, harg1.read_unread, harg2.read_unread, harg3.read_unread, harg4.read_unread, harg5.read_unread, harg9.read_unread, harg10.read_unread,
    View.ld_unit_zero (S := S10000x32) hz2, View.ld_unit_zero (S := S3x32x32) hz3, View.ld_unit_zero (S := S32) hz1, View.ld_unit_zero (S := S1x32) hz2]

end Cert.KernelIdeal.Pieces2

end
-- ==== Proof.KI.ValComb2.lean ====
/-
  Region 2: what the combine kernel leaves in its arrays, as a function of the arrays it finds.

  Write z for the pre-activations of the WHOLE arrays: z(r, c) = ((Σ_j x(r,j)·W₀(j,c) + Σ_j h1(r,j)·W₁(j,c)) +
  Σ_j h2(r,j)·W₂(j,c)) + b(c), the specification's sums. The ten grid points each read rows t·10000 … t·10000 + 9999
  of the three feature arrays (entry (p, j) of a block sits at row (block index)·10000 + p of its array) and the whole
  weight and bias arrays (block index 0), so the block of pre-activations the kernel computes at point t is rows
  t·10000 + p of z, and that is what point t writes back: the ten blocks fill the block output with z.

  The two scratch rows are carried from point to point. By induction on the point: after point n the first holds,
  in column c, the sum of z(r, c) over the rows of points 0 … n, the second the sum of z(r, c)²; the first point
  starts them from the zero rows it has just stored. After the last point the sums run over the ten blocks of 10000
  rows, that is over all 100000 rows, so the mean row it stores is (Σ_r z(r, c)) / n and the variance row is
  (Σ_r z(r, c)²) / n − mean². Those two rows are written back once, at the last point, and their block is the whole
  row. The inputs are never written back.
-/
import proofs.«101999_j28329604284662_1_alg».proof.Proof.KI.ValPieces2
import proofs.«101999_j28329604284662_1_alg».proof.Proof.KI.ValCommon
import proofs.«101999_j28329604284662_1_alg».proof.Proof.SpecBlocks
import Idealize.ShloMosaic.Lib.Pipeline.Value

set_option maxRecDepth 16384

noncomputable section

namespace Cert.KernelIdeal.ValComb2

open Cert.KernelIdeal Cert.KernelIdeal.Gen Cert.KernelIdeal.Hand Cert.KernelIdeal.PayRead Cert.KernelIdeal.Val
open Cert.KernelIdeal.Pieces2
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The pre-activations of the whole array: the specification's sums of products of the entry arrays. -/
def z2 (c : Dev nD) : Cert.Spec.Mat :=
  Cert.Spec.conv (Cert.Arr.toMat (V c main_v35)) (Cert.Arr.toMat (V c main_v48)) (Cert.Arr.toMat (V c main_v61))
    (Cert.Arr.toWts (V c main_arg7)) (Cert.Arr.toRow (V c main_arg8))

/-- The block of pre-activations the kernel computes at point t, from the five input blocks there. -/
def Zb (c : Dev nD) (t : Fin cfg2.N) : FVec Ideal S10000x32 .f32 :=
  k2_pay7 (iblk2 V c 0 t) (iblk2 V c 1 t) (iblk2 V c 2 t) (iblk2 V c 3 t) (iblk2 V c 4 t)

theorem idx2_0 : ∀ t : Fin cfg2.N, win2_0.index t (0 : Fin 2) = t.val ∧ win2_0.index t (1 : Fin 2) = 0 :=
  (by decide +kernel : ∀ t : Fin grid2.N, _)

/-- Entry (p, j) of window 0's block at point t is entry (t·10000 + p, j) of its array. -/
theorem iblk2_0_apply (c : Dev nD) (t : Fin cfg2.N) (p : Fin 10000) (j : Fin 32) (r : Fin 100000)
    (hr : r.val = t.val * 10000 + p.val) : iblk2 V c 0 t (ix2 p j) = V c main_v35 (ix2 r j) := by
  obtain ⟨a0, a1⟩ := idx2_0 t
  show V c main_v35 (((cfg2.win 0).blk t).view.emb (ix2 p j)) = _
  refine congrArg (V c main_v35) (funext fun a => Fin.ext ?_)
  match a with
  | ⟨0, _⟩ => show win2_0.index t (0 : Fin 2) * 10000 + 1 * p.val = r.val; omega
  | ⟨1, _⟩ => show win2_0.index t (1 : Fin 2) * 32 + 1 * j.val = j.val; omega

theorem idx2_1 : ∀ t : Fin cfg2.N, win2_1.index t (0 : Fin 2) = t.val ∧ win2_1.index t (1 : Fin 2) = 0 :=
  (by decide +kernel : ∀ t : Fin grid2.N, _)

/-- Entry (p, j) of window 1's block at point t is entry (t·10000 + p, j) of its array. -/
theorem iblk2_1_apply (c : Dev nD) (t : Fin cfg2.N) (p : Fin 10000) (j : Fin 32) (r : Fin 100000)
    (hr : r.val = t.val * 10000 + p.val) : iblk2 V c 1 t (ix2 p j) = V c main_v48 (ix2 r j) := by
  obtain ⟨a0, a1⟩ := idx2_1 t
  show V c main_v48 (((cfg2.win 1).blk t).view.emb (ix2 p j)) = _
  refine congrArg (V c main_v48) (funext fun a => Fin.ext ?_)
  match a with
  | ⟨0, _⟩ => show win2_1.index t (0 : Fin 2) * 10000 + 1 * p.val = r.val; omega
  | ⟨1, _⟩ => show win2_1.index t (1 : Fin 2) * 32 + 1 * j.val = j.val; omega

theorem idx2_2 : ∀ t : Fin cfg2.N, win2_2.index t (0 : Fin 2) = t.val ∧ win2_2.index t (1 : Fin 2) = 0 :=
  (by decide +kernel : ∀ t : Fin grid2.N, _)

/-- Entry (p, j) of window 2's block at point t is entry (t·10000 + p, j) of its array. -/
theorem iblk2_2_apply (c : Dev nD) (t : Fin cfg2.N) (p : Fin 10000) (j : Fin 32) (r : Fin 100000)
    (hr : r.val = t.val * 10000 + p.val) : iblk2 V c 2 t (ix2 p j) = V c main_v61 (ix2 r j) := by
  obtain ⟨a0, a1⟩ := idx2_2 t
  show V c main_v61 (((cfg2.win 2).blk t).view.emb (ix2 p j)) = _
  refine congrArg (V c main_v61) (funext fun a => Fin.ext ?_)
  match a with
  | ⟨0, _⟩ => show win2_2.index t (0 : Fin 2) * 10000 + 1 * p.val = r.val; omega
  | ⟨1, _⟩ => show win2_2.index t (1 : Fin 2) * 32 + 1 * j.val = j.val; omega

theorem idx2_3 : ∀ t : Fin cfg2.N, win2_3.index t (0 : Fin 3) = 0 ∧ win2_3.index t (1 : Fin 3) = 0 ∧ win2_3.index t (2 : Fin 3) = 0 :=
  (by decide +kernel : ∀ t : Fin grid2.N, _)
theorem idx2_4 : ∀ t : Fin cfg2.N, win2_4.index t (0 : Fin 1) = 0 := (by decide +kernel : ∀ t : Fin grid2.N, _)

/-- The weights' block is the whole array at every point. -/
theorem iblk2_3_apply (c : Dev nD) (t : Fin cfg2.N) (k : Fin 3) (j q : Fin 32) :
    iblk2 V c 3 t (ix3 k j q) = V c main_arg7 (ix3 k j q) := by
  obtain ⟨a0, a1, a2⟩ := idx2_3 t
  show V c main_arg7 (((cfg2.win 3).blk t).view.emb (ix3 k j q)) = _
  refine congrArg (V c main_arg7) (funext fun a => Fin.ext ?_)
  match a with
  | ⟨0, _⟩ => show win2_3.index t (0 : Fin 3) * 3 + 1 * k.val = k.val; omega
  | ⟨1, _⟩ => show win2_3.index t (1 : Fin 3) * 32 + 1 * j.val = j.val; omega
  | ⟨2, _⟩ => show win2_3.index t (2 : Fin 3) * 32 + 1 * q.val = q.val; omega

/-- The bias's block is the whole array at every point. -/
theorem iblk2_4_apply (c : Dev nD) (t : Fin cfg2.N) (q : Fin 32) :
    iblk2 V c 4 t (ix1 q) = V c main_arg8 (ix1 q) := by
  have a0 := idx2_4 t
  show V c main_arg8 (((cfg2.win 4).blk t).view.emb (ix1 q)) = _
  refine congrArg (V c main_arg8) (funext fun a => Fin.ext ?_)
  match a with
  | ⟨0, _⟩ => show win2_4.index t (0 : Fin 1) * 32 + 1 * q.val = q.val; omega

/-- Row p of point t's block of pre-activations is row t·10000 + p of the whole array's. -/
theorem Zb_apply (c : Dev nD) (t : Fin cfg2.N) (p : Fin 10000) (q : Fin 32) (hr : t.val * 10000 + p.val < 100000) :
    Zb V c t (ix2 p q) = z2 V c ⟨t.val * 10000 + p.val, hr⟩ q := by
  unfold Zb
  refine (k2_pay7_apply (iblk2 V c 0 t) (iblk2 V c 1 t) (iblk2 V c 2 t) (iblk2 V c 3 t) (iblk2 V c 4 t) p q).trans ?_
  simp only [iblk2_0_apply V c t p _ ⟨t.val * 10000 + p.val, hr⟩ rfl, iblk2_1_apply V c t p _ ⟨t.val * 10000 + p.val, hr⟩ rfl,
    iblk2_2_apply V c t p _ ⟨t.val * 10000 + p.val, hr⟩ rfl, iblk2_3_apply V c t, iblk2_4_apply V c t]
  rfl

/-- Row r of the whole array's pre-activations, for any natural r (zero past the array). -/
def zN (c : Dev nD) (r : ℕ) (q : Fin 32) : EReal := if h : r < 100000 then z2 V c ⟨r, h⟩ q else 0

/-- The column sums over the rows of points 0 … n. -/
def S0 (c : Dev nD) (n : ℕ) (q : Fin 32) : EReal :=
  ∑ t' ∈ Finset.range (n + 1), ∑ p : Fin 10000, zN V c (t' * 10000 + p.val) q
/-- The column sums of squares over the rows of points 0 … n. -/
def S1 (c : Dev nD) (n : ℕ) (q : Fin 32) : EReal :=
  ∑ t' ∈ Finset.range (n + 1), ∑ p : Fin 10000, zN V c (t' * 10000 + p.val) q * zN V c (t' * 10000 + p.val) q

/-- One value per feature as a 1×32 array. -/
def rowOf (r : Fin 32 → EReal) : S1x32.Idx → EReal := fun i => r (i 1)

theorem rowOf_apply (r : Fin 32 → EReal) (q : Fin 32) : rowOf r (ix2 (0 : Fin 1) q) = r q := rfl
theorem toRow1_rowOf (r : Fin 32 → EReal) : toRow1 (rowOf r) = r := rfl

/-- Two 1×32 arrays that agree on (0, q) for every q are equal. -/
theorem row_ext {f g : S1x32.Idx → EReal} (h : ∀ q : Fin 32, f (ix2 (0 : Fin 1) q) = g (ix2 (0 : Fin 1) q)) : f = g := by
  funext i
  have hi : i = ix2 (0 : Fin 1) (i 1) :=
    (eq_ix2 i).trans (congrArg (fun a : Fin 1 => ix2 a (i 1)) (Subsingleton.elim _ _))
  exact (congrArg f hi).trans ((h (i 1)).trans (congrArg g hi).symm)

theorem Zb_zN (c : Dev nD) (t : Fin cfg2.N) (p : Fin 10000) (q : Fin 32) :
    Zb V c t (ix2 p q) = zN V c (t.val * 10000 + p.val) q := by
  have hN : grid2.N = 10 := N_2
  have ht : t.val < grid2.N := t.isLt
  have hp := p.isLt
  have hr : t.val * 10000 + p.val < 100000 := by omega
  unfold zN
  rw [dif_pos hr]
  exact Zb_apply V c t p q hr

/-- The updated sum row: the carried row plus the block's column sums. -/
theorem s0_step (c : Dev nD) (t : Fin cfg2.N) (s : Vec Ideal S1x32 .f32) (q : Fin 32) :
    k2_pay1 (k2_pay8 (iblk2 V c 0 t) (iblk2 V c 1 t) (iblk2 V c 2 t) (iblk2 V c 3 t) (iblk2 V c 4 t) s) (ix2 (0 : Fin 1) q)
      = s (ix2 (0 : Fin 1) q) + ∑ p : Fin 10000, zN V c (t.val * 10000 + p.val) q := by
  rw [k2_pay1_eq]
  refine (k2_pay8_apply (iblk2 V c 0 t) (iblk2 V c 1 t) (iblk2 V c 2 t) (iblk2 V c 3 t) (iblk2 V c 4 t) s q).trans ?_
  exact congrArg (s (ix2 (0 : Fin 1) q) + ·) (Finset.sum_congr rfl fun p _ => Zb_zN V c t p q)

/-- The updated sum-of-squares row. -/
theorem s1_step (c : Dev nD) (t : Fin cfg2.N) (s : Vec Ideal S1x32 .f32) (q : Fin 32) :
    k2_pay2 (Zb V c t) s (ix2 (0 : Fin 1) q)
      = s (ix2 (0 : Fin 1) q) + ∑ p : Fin 10000, zN V c (t.val * 10000 + p.val) q * zN V c (t.val * 10000 + p.val) q := by
  refine (k2_pay2_apply (Zb V c t) s q).trans ?_
  exact congrArg (s (ix2 (0 : Fin 1) q) + ·) (Finset.sum_congr rfl fun p _ => by rw [Zb_zN])

/-! ### What each control case leaves, at the blocks of a point -/

theorem outsA (c : Dev nD) (t : Fin cfg2.N) (h0 : t.val = 0) :
    (outsAt2 V c t.val t.isLt).o5 = Zb V c t
      ∧ (outsAt2 V c t.val t.isLt).s0 = k2_pay1 (k2_pay8 (iblk2 V c 0 t) (iblk2 V c 1 t) (iblk2 V c 2 t) (iblk2 V c 3 t) (iblk2 V c 4 t) (k2_pay5 (F := Ideal)))
      ∧ (outsAt2 V c t.val t.isLt).s1 = k2_pay2 (Zb V c t) (k2_pay6 (F := Ideal)) := by
  rw [outsAt2_A V c t h0]
  dsimp only
  unfold Zb
  exact ⟨out2_A_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
    sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t),
    sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => absurd (((hcond2_1 t).mp h).symm.trans h0) (by decide)) (iblk2 V c 0 t) (iblk2 V c 1 t) (iblk2 V c 2 t) (iblk2 V c 3 t) (iblk2 V c 4 t)⟩

theorem outsB (c : Dev nD) (t : Fin cfg2.N) (h0 : ¬t.val = 0) (h9 : ¬t.val = 9) :
    (outsAt2 V c t.val t.isLt).o5 = Zb V c t
      ∧ (outsAt2 V c t.val t.isLt).s0 = k2_pay1 (k2_pay8 (iblk2 V c 0 t) (iblk2 V c 1 t) (iblk2 V c 2 t) (iblk2 V c 3 t) (iblk2 V c 4 t) (outsAt2 V c (t.val - 1) (Nat.lt_of_le_of_lt (Nat.sub_le _ _) t.isLt)).s0)
      ∧ (outsAt2 V c t.val t.isLt).s1 = k2_pay2 (Zb V c t) (outsAt2 V c (t.val - 1) (Nat.lt_of_le_of_lt (Nat.sub_le _ _) t.isLt)).s1 := by
  rw [outsAt2_B V c t h0 h9]
  dsimp only
  unfold Zb
  exact ⟨out2_B_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h9 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩

theorem outsC (c : Dev nD) (t : Fin cfg2.N) (h0 : ¬t.val = 0) (h9 : t.val = 9) :
    (outsAt2 V c t.val t.isLt).o5 = Zb V c t
      ∧ (outsAt2 V c t.val t.isLt).s0 = k2_pay1 (k2_pay8 (iblk2 V c 0 t) (iblk2 V c 1 t) (iblk2 V c 2 t) (iblk2 V c 3 t) (iblk2 V c 4 t) (outsAt2 V c (t.val - 1) (Nat.lt_of_le_of_lt (Nat.sub_le _ _) t.isLt)).s0)
      ∧ (outsAt2 V c t.val t.isLt).s1 = k2_pay2 (Zb V c t) (outsAt2 V c (t.val - 1) (Nat.lt_of_le_of_lt (Nat.sub_le _ _) t.isLt)).s1
      ∧ (outsAt2 V c t.val t.isLt).o6 = k2_pay3 (k2_pay1 (k2_pay8 (iblk2 V c 0 t) (iblk2 V c 1 t) (iblk2 V c 2 t) (iblk2 V c 3 t) (iblk2 V c 4 t) (outsAt2 V c (t.val - 1) (Nat.lt_of_le_of_lt (Nat.sub_le _ _) t.isLt)).s0))
      ∧ (outsAt2 V c t.val t.isLt).o7 = k2_pay4 (k2_pay1 (k2_pay8 (iblk2 V c 0 t) (iblk2 V c 1 t) (iblk2 V c 2 t) (iblk2 V c 3 t) (iblk2 V c 4 t) (outsAt2 V c (t.val - 1) (Nat.lt_of_le_of_lt (Nat.sub_le _ _) t.isLt)).s0)) (k2_pay2 (Zb V c t) (outsAt2 V c (t.val - 1) (Nat.lt_of_le_of_lt (Nat.sub_le _ _) t.isLt)).s1) := by
  rw [outsAt2_C V c t h0 h9]
  dsimp only
  unfold Zb
  exact ⟨out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1,
    out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h9) (iblk2 V c 0 t) (iblk2 V c 1 t) (iblk2 V c 2 t) (iblk2 V c 3 t) (iblk2 V c 4 t) (outsAt2 V c (t.val - 1) (Nat.lt_of_le_of_lt (Nat.sub_le _ _) t.isLt)).s0 (outsAt2 V c (t.val - 1) (Nat.lt_of_le_of_lt (Nat.sub_le _ _) t.isLt)).s1⟩

/-! ### The accumulation, point by point -/

/-- After point n the block output holds that point's block of pre-activations, and the two scratch rows hold the
    column sums, and the column sums of squares, over the rows of points 0 … n. -/
theorem outs_inv (c : Dev nD) : ∀ (n : ℕ) (hn : n < cfg2.N),
    (outsAt2 V c n hn).o5 = Zb V c ⟨n, hn⟩ ∧ (outsAt2 V c n hn).s0 = rowOf (S0 V c n)
      ∧ (outsAt2 V c n hn).s1 = rowOf (S1 V c n)
  | 0, hn => by
    obtain ⟨e5, e0, e1⟩ := outsA V c ⟨0, hn⟩ rfl
    refine ⟨e5, e0.trans (row_ext fun q => ?_), e1.trans (row_ext fun q => ?_)⟩
    · refine (s0_step V c ⟨0, hn⟩ (k2_pay5 (F := Ideal)) q).trans ?_
      rw [show (k2_pay5 (F := Ideal)) (ix2 (0 : Fin 1) q) = 0 from congrFun k2_pay5_eq _]
      exact (zero_add _).trans (Finset.sum_range_one (fun t' => ∑ p : Fin 10000, zN V c (t' * 10000 + p.val) q)).symm
    · refine (s1_step V c ⟨0, hn⟩ (k2_pay6 (F := Ideal)) q).trans ?_
      rw [show (k2_pay6 (F := Ideal)) (ix2 (0 : Fin 1) q) = 0 from congrFun k2_pay6_eq _]
      exact (zero_add _).trans (Finset.sum_range_one
        (fun t' => ∑ p : Fin 10000, zN V c (t' * 10000 + p.val) q * zN V c (t' * 10000 + p.val) q)).symm
  | n + 1, hn => by
    obtain ⟨-, i0, i1⟩ := outs_inv c n (Nat.lt_of_succ_lt hn)
    have h0 : ¬(⟨n + 1, hn⟩ : Fin cfg2.N).val = 0 := Nat.succ_ne_zero n
    have step : (outsAt2 V c (n + 1) hn).o5 = Zb V c ⟨n + 1, hn⟩
        ∧ (outsAt2 V c (n + 1) hn).s0 = k2_pay1 (k2_pay8 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).s0)
        ∧ (outsAt2 V c (n + 1) hn).s1 = k2_pay2 (Zb V c ⟨n + 1, hn⟩) (outsAt2 V c n (Nat.lt_of_succ_lt hn)).s1 := by
      by_cases h9 : n + 1 = 9
      · obtain ⟨a, b, d, -, -⟩ := outsC V c ⟨n + 1, hn⟩ h0 h9
        exact ⟨a, b, d⟩
      · obtain ⟨a, b, d⟩ := outsB V c ⟨n + 1, hn⟩ h0 h9
        exact ⟨a, b, d⟩
    obtain ⟨e5, e0, e1⟩ := step
    refine ⟨e5, e0.trans (row_ext fun q => ?_), e1.trans (row_ext fun q => ?_)⟩
    · refine (s0_step V c ⟨n + 1, hn⟩ _ q).trans ?_
      rw [i0]
      exact (Finset.sum_range_succ (fun t' => ∑ p : Fin 10000, zN V c (t' * 10000 + p.val) q) (n + 1)).symm
    · refine (s1_step V c ⟨n + 1, hn⟩ _ q).trans ?_
      rw [i1]
      exact (Finset.sum_range_succ
        (fun t' => ∑ p : Fin 10000, zN V c (t' * 10000 + p.val) q * zN V c (t' * 10000 + p.val) q) (n + 1)).symm

/-- Over all ten points the sums run over every row of the array. -/
theorem S0_last (c : Dev nD) (q : Fin 32) : S0 V c 9 q = ∑ r : Fin 100000, z2 V c r q := by
  rw [Cert.Spec.sum_rows_blocks (fun r => z2 V c r q)]
  show ∑ t' ∈ Finset.range 10, ∑ p : Fin 10000, zN V c (t' * 10000 + p.val) q = _
  rw [← Fin.sum_univ_eq_sum_range (fun t' => ∑ p : Fin 10000, zN V c (t' * 10000 + p.val) q) 10]
  refine Finset.sum_congr rfl fun t _ => Finset.sum_congr rfl fun p _ => ?_
  have ht := t.isLt
  have hp := p.isLt
  unfold zN
  rw [dif_pos (by omega)]

theorem S1_last (c : Dev nD) (q : Fin 32) : S1 V c 9 q = ∑ r : Fin 100000, z2 V c r q * z2 V c r q := by
  rw [Cert.Spec.sum_rows_blocks (fun r => z2 V c r q * z2 V c r q)]
  show ∑ t' ∈ Finset.range 10, ∑ p : Fin 10000, zN V c (t' * 10000 + p.val) q * zN V c (t' * 10000 + p.val) q = _
  rw [← Fin.sum_univ_eq_sum_range
    (fun t' => ∑ p : Fin 10000, zN V c (t' * 10000 + p.val) q * zN V c (t' * 10000 + p.val) q) 10]
  refine Finset.sum_congr rfl fun t _ => Finset.sum_congr rfl fun p _ => ?_
  have ht := t.isLt
  have hp := p.isLt
  unfold zN
  rw [dif_pos (by omega)]

/-! ### The final arrays -/

/-- The three output arrays the region leaves. -/
def G5 (c : Dev nD) : S100000x32.Idx → EReal := Cert.Arr.ofMat (z2 V c)
def G6 (c : Dev nD) : S1x32.Idx → EReal := rowOf (Cert.Spec.mean (z2 V c))
def G7 (c : Dev nD) : S1x32.Idx → EReal := rowOf (Cert.Spec.varSq (z2 V c))

/-- At the last point the two late outputs hold the mean and the variance of the whole array's pre-activations. -/
theorem late (c : Dev nD) (t : Fin cfg2.N) (h9 : t.val = 9) :
    (outsAt2 V c t.val t.isLt).o6 = G6 V c ∧ (outsAt2 V c t.val t.isLt).o7 = G7 V c := by
  have h0 : ¬t.val = 0 := by omega
  obtain ⟨-, e0, e1, e6, e7⟩ := outsC V c t h0 h9
  obtain ⟨-, i0, i1⟩ := outs_inv V c t.val t.isLt
  rw [← e0] at e6 e7
  rw [← e1] at e7
  rw [i0] at e6 e7
  rw [i1] at e7
  refine ⟨e6.trans (row_ext fun q => ?_), e7.trans (row_ext fun q => ?_)⟩
  · rw [k2_pay3_apply, rowOf_apply, h9, S0_last]
    rfl
  · rw [k2_pay4_apply, k2_pay3_apply, rowOf_apply, rowOf_apply, h9, S0_last, S1_last]
    rfl

/-- The last grid point. -/
def t9 : Fin cfg2.N := ⟨9, by rw [show cfg2.N = 10 from N_2]; decide⟩

theorem idx2_6 : ∀ t : Fin cfg2.N, win2_6.index t (0 : Fin 2) = 0 ∧ win2_6.index t (1 : Fin 2) = 0 :=
  (by decide +kernel : ∀ t : Fin grid2.N, _)

theorem mem_blk2_6 (t : Fin cfg2.N) (i : S1x32.Idx) :
    i ∈ ((cfg2.win 6).blk t).view.set ↔ ∀ a : Fin 2, win2_6.index t a * S1x32.size a ≤ (i a).val
      ∧ (i a).val < win2_6.index t a * S1x32.size a + S1x32.size a := by
  show i ∈ ((View.whole main_v62_1).slice (win2_6.rect t)).set ↔ _
  rw [View.set_slice_whole, Rect.mem_set_unit]
  exact Iff.rfl

/-- The one write-back of window 6, at the last point, writes the whole row. -/
theorem flushed2_6_eq (c : Dev nD) (t : Fin cfg2.N) (hf : (cfg2.win 6).flush t = true) :
    (dat2 V c).flushed 6 t = ((cfg2.win 6).blk t).view.read (Elt Ideal) (G6 V c) := by
  have hN : grid2.N = 10 := N_2
  have ht : t.val < grid2.N := t.isLt
  have h9 : t.val = 9 := by have := (flush2_6 t).mp hf; omega
  obtain ⟨a0, a1⟩ := idx2_6 t
  show (cfg2.win 6).cut (grid2.coords t) ((dat2 V c).after 6 t) = _
  rw [after2_6, (late V c t h9).1]
  funext y
  show G6 V c y = G6 V c (((cfg2.win 6).blk t).view.emb y)
  refine congrArg (G6 V c) (funext fun a => Fin.ext ?_)
  match a with
  | ⟨0, _⟩ => show (y 0).val = win2_6.index t (0 : Fin 2) * 1 + 1 * (y 0).val; omega
  | ⟨1, _⟩ => show (y 1).val = win2_6.index t (1 : Fin 2) * 32 + 1 * (y 1).val; omega

theorem cover2_6 (i : S1x32.Idx) :
    ∃ t : Fin cfg2.N, (cfg2.win 6).flush t = true ∧ i ∈ ((cfg2.win 6).blk t).view.set := by
  have hi0 : (i 0).val < 1 := (i 0).isLt
  have hi1 : (i 1).val < 32 := (i 1).isLt
  obtain ⟨a0, a1⟩ := idx2_6 t9
  refine ⟨t9, (flush2_6 t9).mpr rfl, ?_⟩
  rw [mem_blk2_6]
  intro a
  match a with
  | ⟨0, _⟩ =>
    show win2_6.index t9 (0 : Fin 2) * 1 ≤ (i 0).val ∧ (i 0).val < win2_6.index t9 (0 : Fin 2) * 1 + 1
    omega
  | ⟨1, _⟩ =>
    show win2_6.index t9 (1 : Fin 2) * 32 ≤ (i 1).val ∧ (i 1).val < win2_6.index t9 (1 : Fin 2) * 32 + 32
    omega

theorem final2_6 (c : Dev nD) : (dat2 V c).arrAt 6 cfg2.N = G6 V c :=
  (dat2 V c).arrAt_eq_of_cover 6 (G6 V c) (flushed2_6_eq V c) cover2_6

theorem idx2_7 : ∀ t : Fin cfg2.N, win2_7.index t (0 : Fin 2) = 0 ∧ win2_7.index t (1 : Fin 2) = 0 :=
  (by decide +kernel : ∀ t : Fin grid2.N, _)

theorem mem_blk2_7 (t : Fin cfg2.N) (i : S1x32.Idx) :
    i ∈ ((cfg2.win 7).blk t).view.set ↔ ∀ a : Fin 2, win2_7.index t a * S1x32.size a ≤ (i a).val
      ∧ (i a).val < win2_7.index t a * S1x32.size a + S1x32.size a := by
  show i ∈ ((View.whole main_v62_2).slice (win2_7.rect t)).set ↔ _
  rw [View.set_slice_whole, Rect.mem_set_unit]
  exact Iff.rfl

/-- The one write-back of window 7, at the last point, writes the whole row. -/
theorem flushed2_7_eq (c : Dev nD) (t : Fin cfg2.N) (hf : (cfg2.win 7).flush t = true) :
    (dat2 V c).flushed 7 t = ((cfg2.win 7).blk t).view.read (Elt Ideal) (G7 V c) := by
  have hN : grid2.N = 10 := N_2
  have ht : t.val < grid2.N := t.isLt
  have h9 : t.val = 9 := by have := (flush2_7 t).mp hf; omega
  obtain ⟨a0, a1⟩ := idx2_7 t
  show (cfg2.win 7).cut (grid2.coords t) ((dat2 V c).after 7 t) = _
  rw [after2_7, (late V c t h9).2]
  funext y
  show G7 V c y = G7 V c (((cfg2.win 7).blk t).view.emb y)
  refine congrArg (G7 V c) (funext fun a => Fin.ext ?_)
  match a with
  | ⟨0, _⟩ => show (y 0).val = win2_7.index t (0 : Fin 2) * 1 + 1 * (y 0).val; omega
  | ⟨1, _⟩ => show (y 1).val = win2_7.index t (1 : Fin 2) * 32 + 1 * (y 1).val; omega

theorem cover2_7 (i : S1x32.Idx) :
    ∃ t : Fin cfg2.N, (cfg2.win 7).flush t = true ∧ i ∈ ((cfg2.win 7).blk t).view.set := by
  have hi0 : (i 0).val < 1 := (i 0).isLt
  have hi1 : (i 1).val < 32 := (i 1).isLt
  obtain ⟨a0, a1⟩ := idx2_7 t9
  refine ⟨t9, (flush2_7 t9).mpr rfl, ?_⟩
  rw [mem_blk2_7]
  intro a
  match a with
  | ⟨0, _⟩ =>
    show win2_7.index t9 (0 : Fin 2) * 1 ≤ (i 0).val ∧ (i 0).val < win2_7.index t9 (0 : Fin 2) * 1 + 1
    omega
  | ⟨1, _⟩ =>
    show win2_7.index t9 (1 : Fin 2) * 32 ≤ (i 1).val ∧ (i 1).val < win2_7.index t9 (1 : Fin 2) * 32 + 32
    omega

theorem final2_7 (c : Dev nD) : (dat2 V c).arrAt 7 cfg2.N = G7 V c :=
  (dat2 V c).arrAt_eq_of_cover 7 (G7 V c) (flushed2_7_eq V c) cover2_7

theorem idx2_5 : ∀ t : Fin cfg2.N, win2_5.index t (0 : Fin 2) = t.val ∧ win2_5.index t (1 : Fin 2) = 0 :=
  (by decide +kernel : ∀ t : Fin grid2.N, _)

theorem mem_blk2_5 (t : Fin cfg2.N) (i : S100000x32.Idx) :
    i ∈ ((cfg2.win 5).blk t).view.set ↔ ∀ a : Fin 2, win2_5.index t a * S10000x32.size a ≤ (i a).val
      ∧ (i a).val < win2_5.index t a * S10000x32.size a + S10000x32.size a := by
  show i ∈ ((View.whole main_v62_0).slice (win2_5.rect t)).set ↔ _
  rw [View.set_slice_whole, Rect.mem_set_unit]
  exact Iff.rfl

/-- What point t writes back of the block output is block t of the whole array's pre-activations. -/
theorem flushed2_5_eq (c : Dev nD) (t : Fin cfg2.N) :
    (dat2 V c).flushed 5 t = ((cfg2.win 5).blk t).view.read (Elt Ideal) (G5 V c) := by
  have hN : grid2.N = 10 := N_2
  have ht : t.val < grid2.N := t.isLt
  obtain ⟨a0, a1⟩ := idx2_5 t
  show (cfg2.win 5).cut (grid2.coords t) ((dat2 V c).after 5 t) = _
  rw [after2_5, (outs_inv V c t.val t.isLt).1]
  funext j
  have hj0 : (j 0).val < 10000 := (j 0).isLt
  have hr : t.val * 10000 + (j 0).val < 100000 := by omega
  show Zb V c t j = z2 V c ((((cfg2.win 5).blk t).view.emb j) 0) ((((cfg2.win 5).blk t).view.emb j) 1)
  refine (congrArg (Zb V c t) (eq_ix2 j)).trans ((Zb_apply V c t (j 0) (j 1) hr).trans ?_)
  refine congrArg₂ (z2 V c) (Fin.ext ?_) (Fin.ext ?_)
  · show t.val * 10000 + (j 0).val = win2_5.index t (0 : Fin 2) * 10000 + 1 * (j 0).val
    omega
  · show (j 1).val = win2_5.index t (1 : Fin 2) * 32 + 1 * (j 1).val
    omega

theorem idx_onto2 : ∀ q0 : Fin 10, ∃ t : Fin cfg2.N, win2_5.index t = ![q0.val, 0] :=
  (by decide +kernel : ∀ q0 : Fin 10, ∃ t : Fin grid2.N, win2_5.index t = ![q0.val, 0])

/-- Row r of the block output is written back by the point r / 10000. -/
theorem cover2_5 (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2_5]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 32 ≤ (i 1).val ∧ (i 1).val < win2_5.index t (1 : Fin 2) * 32 + 32
    omega

theorem final2_5 (c : Dev nD) : (dat2 V c).arrAt 5 cfg2.N = G5 V c :=
  (dat2 V c).arrAt_eq_of_cover 5 (G5 V c) (fun t _ => flushed2_5_eq V c t) cover2_5

/-! ### The region's arrays after it -/

/-- The block output is the pre-activations of the entry arrays. -/
theorem out2_5_eq (c : Dev nD) :
    Cert.Arr.toMat ((dat2 V c).arrAt 5 cfg2.N)
      = Cert.Spec.conv (Cert.Arr.toMat (V c main_v35)) (Cert.Arr.toMat (V c main_v48)) (Cert.Arr.toMat (V c main_v61))
          (Cert.Arr.toWts (V c main_arg7)) (Cert.Arr.toRow (V c main_arg8)) := by
  rw [final2_5]
  rfl

/-- The mean row is the column mean of the pre-activations. -/
theorem out2_6_eq (c : Dev nD) :
    toRow1 ((dat2 V c).arrAt 6 cfg2.N)
      = Cert.Spec.mean (Cert.Spec.conv (Cert.Arr.toMat (V c main_v35)) (Cert.Arr.toMat (V c main_v48))
          (Cert.Arr.toMat (V c main_v61)) (Cert.Arr.toWts (V c main_arg7)) (Cert.Arr.toRow (V c main_arg8))) := by
  rw [final2_6]
  rfl

/-- The variance row is the mean of squares minus the squared mean of the pre-activations. -/
theorem out2_7_eq (c : Dev nD) :
    toRow1 ((dat2 V c).arrAt 7 cfg2.N)
      = Cert.Spec.varSq (Cert.Spec.conv (Cert.Arr.toMat (V c main_v35)) (Cert.Arr.toMat (V c main_v48))
          (Cert.Arr.toMat (V c main_v61)) (Cert.Arr.toWts (V c main_arg7)) (Cert.Arr.toRow (V c main_arg8))) := by
  rw [final2_7]
  rfl

/-- The region leaves its input arrays as it found them. -/
theorem in2_eq (c : Dev nD) (w : Fin cfg2.W) (hw : (cfg2.win w).isOut = false) :
    (dat2 V c).arrAt w cfg2.N = V c (Pipeline.arrRef spec2 w) :=
  ((dat2 V c).arrAt_in w hw cfg2.N).trans (A_eq2 V c w)

theorem in2_0 (c : Dev nD) : (dat2 V c).arrAt 0 cfg2.N = V c main_v35 := in2_eq V c 0 rfl
theorem in2_1 (c : Dev nD) : (dat2 V c).arrAt 1 cfg2.N = V c main_v48 := in2_eq V c 1 rfl
theorem in2_2 (c : Dev nD) : (dat2 V c).arrAt 2 cfg2.N = V c main_v61 := in2_eq V c 2 rfl
theorem in2_3 (c : Dev nD) : (dat2 V c).arrAt 3 cfg2.N = V c main_arg7 := in2_eq V c 3 rfl
theorem in2_4 (c : Dev nD) : (dat2 V c).arrAt 4 cfg2.N = V c main_arg8 := in2_eq V c 4 rfl

end Cert.KernelIdeal.ValComb2

end
-- ==== Proof.KI.KValue.lean ====
/-
  The kernel program's result as the specification's network with the mean-of-squares variance: the six items of its
  run composed. The first stretch of host operations leaves the one- and two-step neighbourhood sums of the input; the
  combine kernel their three products plus the bias, with the column mean and the mean of squares minus the squared
  mean; the normalise kernel the activation — together the specification's first layer; the second stretch and the two
  kernels again are its second layer over the first layer's output.
-/
import proofs.«101999_j28329604284662_1_alg».proof.Proof.KI.Transport
import proofs.«101999_j28329604284662_1_alg».proof.Proof.KI.HostSame
import proofs.«101999_j28329604284662_1_alg».proof.Proof.KI.ValNorm1
import proofs.«101999_j28329604284662_1_alg».proof.Proof.KI.ValNorm3
import proofs.«101999_j28329604284662_1_alg».proof.Proof.KI.ValComb0
import proofs.«101999_j28329604284662_1_alg».proof.Proof.KI.ValComb2
import Idealize.ShloMosaic.Lib.ValueLayout

noncomputable section

namespace Cert.KernelIdeal.KValue

open Cert.KernelIdeal Cert.KernelIdeal.Gen Cert.KernelIdeal.Hand Cert.KernelIdeal.HostRead Cert.KernelIdeal.Val
open Idealize.ShloMosaic Idealize.ShloMosaic.TcCoe Idealize.ShloMosaic.ValueIdx Idealize.SL.Sem
open Cert.Arr (toMat toRow toWts ofMat)

-- the neighbourhood sums stay folded: every step below rewrites between named terms
attribute [local irreducible] Cert.KernelIdeal.HostRead.hopK Cert.Hop.hopV

/-- A per-feature vector cast to one row reads, as a row, the vector. -/
theorem toRow1_shapeCast (a : (⟨S32, .f32⟩ : BufTy).Contents (Elt Ideal)) :
    toRow1 (shapeCast S1x32 a shapeCasts_S32_S1x32) = toRow a :=
  funext fun q => shapeCast_a_1a_apply a _ (0 : Fin 1) q

/-- The neighbourhood-sum operator on a matrix read off an array is the array's neighbourhood sum read as a matrix. -/
theorem H_toMat [Cert.ReferenceIdeal.Facts] (ei : (⟨Cert.ReferenceIdeal.S2x1600000, .i32⟩ : BufTy).Contents (Elt Ideal))
    (ew : (⟨Cert.ReferenceIdeal.S1600000, .f32⟩ : BufTy).Contents (Elt Ideal))
    (x : (⟨Cert.ReferenceIdeal.S100000x32, .f32⟩ : BufTy).Contents (Elt Ideal)) :
    Cert.Hop.H ei ew (toMat x) = toMat (Cert.Hop.hopV (F := Ideal) ei ew x) := by
  unfold Cert.Hop.H
  rw [Cert.Arr.ofMat_toMat]

variable [Cert.ReferenceIdeal.Facts]
variable (m : (ℓ : Loc nD τ sig) → Buf (Elt Ideal) ℓ) (ρ : Dev nD → PrngReg) (c : Dev nD)
/-! ## The first stretch of host operations -/

theorem V1_main_arg0 : V1 m ρ c main_arg0 = (m ((c : Thread nD τ).loc main_arg0)) := W1_main_arg0 m ρ c
theorem V1_main_arg3 : V1 m ρ c main_arg3 = (m ((c : Thread nD τ).loc main_arg3)) := W1_main_arg3 m ρ c
theorem V1_main_arg4 : V1 m ρ c main_arg4 = (m ((c : Thread nD τ).loc main_arg4)) := W1_main_arg4 m ρ c

/-- The source and target rows the first stretch leaves. -/
theorem W1_main_v1 : W1 m ρ c (Proc.devRef .tc main_v1) = srcRowK (m ((c : Thread nD τ).loc main_arg1)) := hostOps0_main_v1 (W0 m ρ c)
theorem W1_main_v3 : W1 m ρ c (Proc.devRef .tc main_v3) = dstRowK (m ((c : Thread nD τ).loc main_arg1)) := hostOps0_main_v3 (W0 m ρ c)

/-- The one-step neighbourhood sum of the input. -/
theorem V1_main_v20 : V1 m ρ c main_v20 = Cert.Hop.hopV (F := Ideal) (m ((c : Thread nD τ).loc main_arg1)) (m ((c : Thread nD τ).loc main_arg2)) (m ((c : Thread nD τ).loc main_arg0)) :=
  (hostOps0_main_v20 (W0 m ρ c)).trans (hopK_eq_hopV_ideal (m ((c : Thread nD τ).loc main_arg1)) (m ((c : Thread nD τ).loc main_arg2)) (m ((c : Thread nD τ).loc main_arg0)))

/-- The two-step neighbourhood sum of the input. -/
theorem V1_main_v33 : V1 m ρ c main_v33
    = Cert.Hop.hopV (F := Ideal) (m ((c : Thread nD τ).loc main_arg1)) (m ((c : Thread nD τ).loc main_arg2)) (Cert.Hop.hopV (F := Ideal) (m ((c : Thread nD τ).loc main_arg1)) (m ((c : Thread nD τ).loc main_arg2)) (m ((c : Thread nD τ).loc main_arg0))) :=
  (hostOps0_main_v33 (W0 m ρ c)).trans
    ((congrArg (hopK (F := Ideal) (srcRowK (m ((c : Thread nD τ).loc main_arg1))) (dstRowK (m ((c : Thread nD τ).loc main_arg1))) (m ((c : Thread nD τ).loc main_arg2))) (hopK_eq_hopV_ideal (m ((c : Thread nD τ).loc main_arg1)) (m ((c : Thread nD τ).loc main_arg2)) (m ((c : Thread nD τ).loc main_arg0)))).trans
      (hopK_eq_hopV_ideal (m ((c : Thread nD τ).loc main_arg1)) (m ((c : Thread nD τ).loc main_arg2)) (Cert.Hop.hopV (F := Ideal) (m ((c : Thread nD τ).loc main_arg1)) (m ((c : Thread nD τ).loc main_arg2)) (m ((c : Thread nD τ).loc main_arg0)))))

/-- The four scale and shift rows. -/
theorem W1_main_v4 : W1 m ρ c (Proc.devRef .tc main_v4) = shapeCast S1x32 (m ((c : Thread nD τ).loc main_arg5)) shapeCasts_S32_S1x32 := hostOps0_main_v4 (W0 m ρ c)
theorem W1_main_v5 : W1 m ρ c (Proc.devRef .tc main_v5) = shapeCast S1x32 (m ((c : Thread nD τ).loc main_arg6)) shapeCasts_S32_S1x32 := hostOps0_main_v5 (W0 m ρ c)
theorem W1_main_v6 : W1 m ρ c (Proc.devRef .tc main_v6) = shapeCast S1x32 (m ((c : Thread nD τ).loc main_arg9)) shapeCasts_S32_S1x32 := hostOps0_main_v6 (W0 m ρ c)
theorem W1_main_v7 : W1 m ρ c (Proc.devRef .tc main_v7) = shapeCast S1x32 (m ((c : Thread nD τ).loc main_arg10)) shapeCasts_S32_S1x32 := hostOps0_main_v7 (W0 m ρ c)

/-! ## The first layer -/

/-- The combine kernel's three arrays: the pre-activation, its column mean, its mean of squares minus squared mean. -/
theorem comb0_z : toMat ((dat0 (V1 m ρ) c).arrAt 5 cfg0.N)
    = Cert.Spec.conv (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) := by
  have e := Cert.KernelIdeal.ValComb0.out0_5_eq (V1 m ρ) c
  rw [V1_main_arg0, V1_main_arg3, V1_main_arg4, V1_main_v20, V1_main_v33, ← H_toMat, ← H_toMat, ← H_toMat] at e
  exact e

theorem comb0_mean : toRow1 ((dat0 (V1 m ρ) c).arrAt 6 cfg0.N)
    = Cert.Spec.mean (Cert.Spec.conv (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4)))) := by
  have e := Cert.KernelIdeal.ValComb0.out0_6_eq (V1 m ρ) c
  rw [V1_main_arg0, V1_main_arg3, V1_main_arg4, V1_main_v20, V1_main_v33, ← H_toMat, ← H_toMat, ← H_toMat] at e
  exact e

theorem comb0_var : toRow1 ((dat0 (V1 m ρ) c).arrAt 7 cfg0.N)
    = Cert.Spec.varSq (Cert.Spec.conv (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4)))) := by
  have e := Cert.KernelIdeal.ValComb0.out0_7_eq (V1 m ρ) c
  rw [V1_main_arg0, V1_main_arg3, V1_main_arg4, V1_main_v20, V1_main_v33, ← H_toMat, ← H_toMat, ← H_toMat] at e
  exact e

/-- What the normalise kernel reads. -/
theorem V2_main_v34_0 : V2 m ρ c main_v34_0 = (dat0 (V1 m ρ) c).arrAt 5 cfg0.N := W2_main_v34_0 m ρ c
theorem V2_main_v34_1 : V2 m ρ c main_v34_1 = (dat0 (V1 m ρ) c).arrAt 6 cfg0.N := W2_main_v34_1 m ρ c
theorem V2_main_v34_2 : V2 m ρ c main_v34_2 = (dat0 (V1 m ρ) c).arrAt 7 cfg0.N := W2_main_v34_2 m ρ c
theorem V2_main_v4 : V2 m ρ c main_v4 = shapeCast S1x32 (m ((c : Thread nD τ).loc main_arg5)) shapeCasts_S32_S1x32 := (W2_main_v4 m ρ c).trans (W1_main_v4 m ρ c)
theorem V2_main_v5 : V2 m ρ c main_v5 = shapeCast S1x32 (m ((c : Thread nD τ).loc main_arg6)) shapeCasts_S32_S1x32 := (W2_main_v5 m ρ c).trans (W1_main_v5 m ρ c)

/-- The first layer's output array, as a matrix, is the specification's first layer. -/
theorem layer1 : toMat ((dat1 (V2 m ρ) c).arrAt 5 cfg1.N) = (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))) := by
  have e := Cert.KernelIdeal.ValNorm1.out1_eq (V2 m ρ) c
  rw [V2_main_v34_0, V2_main_v34_1, V2_main_v34_2, V2_main_v4, V2_main_v5, toRow1_shapeCast, toRow1_shapeCast,
    comb0_z m ρ c, comb0_mean m ρ c, comb0_var m ρ c] at e
  exact e

/-! ## The second stretch of host operations -/

theorem W3_main_v35' : W3 m ρ c (Proc.devRef .tc main_v35) = (dat1 (V2 m ρ) c).arrAt 5 cfg1.N := W3_main_v35 m ρ c
theorem V4_main_v35 : V4 m ρ c main_v35 = (dat1 (V2 m ρ) c).arrAt 5 cfg1.N := (W4_main_v35 m ρ c).trans (W3_main_v35 m ρ c)
theorem V4_main_arg7 : V4 m ρ c main_arg7 = (m ((c : Thread nD τ).loc main_arg7)) := W4_main_arg7 m ρ c
theorem V4_main_arg8 : V4 m ρ c main_arg8 = (m ((c : Thread nD τ).loc main_arg8)) := W4_main_arg8 m ρ c

/-- The one-step neighbourhood sum of the first layer's output. -/
theorem V4_main_v48 : V4 m ρ c main_v48
    = Cert.Hop.hopV (F := Ideal) (m ((c : Thread nD τ).loc main_arg1)) (m ((c : Thread nD τ).loc main_arg2)) ((dat1 (V2 m ρ) c).arrAt 5 cfg1.N) := by
  have e := hostOps2_main_v48 (W3 m ρ c)
  rw [W3_main_v1 m ρ c, W3_main_v3 m ρ c, W3_main_arg2 m ρ c, W3_main_v35 m ρ c, W1_main_v1 m ρ c, W1_main_v3 m ρ c] at e
  exact e.trans (hopK_eq_hopV_ideal (m ((c : Thread nD τ).loc main_arg1)) (m ((c : Thread nD τ).loc main_arg2)) _)

/-- The two-step neighbourhood sum of the first layer's output. -/
theorem V4_main_v61 : V4 m ρ c main_v61
    = Cert.Hop.hopV (F := Ideal) (m ((c : Thread nD τ).loc main_arg1)) (m ((c : Thread nD τ).loc main_arg2)) (Cert.Hop.hopV (F := Ideal) (m ((c : Thread nD τ).loc main_arg1)) (m ((c : Thread nD τ).loc main_arg2)) ((dat1 (V2 m ρ) c).arrAt 5 cfg1.N)) := by
  have e := hostOps2_main_v61 (W3 m ρ c)
  rw [W3_main_v1 m ρ c, W3_main_v3 m ρ c, W3_main_arg2 m ρ c, W3_main_v35 m ρ c, W1_main_v1 m ρ c, W1_main_v3 m ρ c] at e
  exact e.trans ((congrArg (hopK (F := Ideal) (srcRowK (m ((c : Thread nD τ).loc main_arg1))) (dstRowK (m ((c : Thread nD τ).loc main_arg1))) (m ((c : Thread nD τ).loc main_arg2))) (hopK_eq_hopV_ideal (m ((c : Thread nD τ).loc main_arg1)) (m ((c : Thread nD τ).loc main_arg2)) _)).trans
    (hopK_eq_hopV_ideal (m ((c : Thread nD τ).loc main_arg1)) (m ((c : Thread nD τ).loc main_arg2)) _))

/-! ## The second layer -/

theorem comb2_z : toMat ((dat2 (V4 m ρ) c).arrAt 5 cfg2.N)
    = Cert.Spec.conv (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6))))) ((Cert.Hop.H (m ((c : Thread nD τ).loc main_arg1)) (m ((c : Thread nD τ).loc main_arg2))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))))) (toWts (m ((c : Thread nD τ).loc main_arg7))) (toRow (m ((c : Thread nD τ).loc main_arg8))) := by
  have e := Cert.KernelIdeal.ValComb2.out2_5_eq (V4 m ρ) c
  rw [V4_main_v35, V4_main_arg7, V4_main_arg8, V4_main_v48, V4_main_v61, ← H_toMat, ← H_toMat, ← H_toMat, layer1 m ρ c] at e
  exact e

theorem comb2_mean : toRow1 ((dat2 (V4 m ρ) c).arrAt 6 cfg2.N)
    = Cert.Spec.mean (Cert.Spec.conv (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6))))) ((Cert.Hop.H (m ((c : Thread nD τ).loc main_arg1)) (m ((c : Thread nD τ).loc main_arg2))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))))) (toWts (m ((c : Thread nD τ).loc main_arg7))) (toRow (m ((c : Thread nD τ).loc main_arg8)))) := by
  have e := Cert.KernelIdeal.ValComb2.out2_6_eq (V4 m ρ) c
  rw [V4_main_v35, V4_main_arg7, V4_main_arg8, V4_main_v48, V4_main_v61, ← H_toMat, ← H_toMat, ← H_toMat, layer1 m ρ c] at e
  exact e

theorem comb2_var : toRow1 ((dat2 (V4 m ρ) c).arrAt 7 cfg2.N)
    = Cert.Spec.varSq (Cert.Spec.conv (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6))))) ((Cert.Hop.H (m ((c : Thread nD τ).loc main_arg1)) (m ((c : Thread nD τ).loc main_arg2))) ((Cert.Hop.H (m ((c : Thread nD τ).loc main_arg1)) (m ((c : Thread nD τ).loc main_arg2))) (Cert.Spec.layerSq (toMat (m ((c : Thread nD τ).loc main_arg0))) ((Cert.Hop.H (m ((c : Thread nD τ).loc main_arg1)) (m ((c : Thread nD τ).loc main_arg2))) (toMat (m ((c : Thread nD τ).loc main_arg0)))) ((Cert.Hop.H (m ((c : Thread nD τ).loc main_arg1)) (m ((c : Thread nD τ).loc main_arg2))) ((Cert.Hop.H (m ((c : Thread nD τ).loc main_arg1)) (m ((c : Thread nD τ).loc main_arg2))) (toMat (m ((c : Thread nD τ).loc main_arg0))))) (toWts (m ((c : Thread nD τ).loc main_arg3))) (toRow (m ((c : Thread nD τ).loc main_arg4))) (toRow (m ((c : Thread nD τ).loc main_arg5))) (toRow (m ((c : Thread nD τ).loc main_arg6)))))) (toWts (m ((c : Thread nD τ).loc main_arg7))) (toRow (m ((c : Thread nD τ).loc main_arg8)))) := by
  have e := Cert.KernelIdeal.ValComb2.out2_7_eq (V4 m ρ) c
  rw [V4_main_v35, V4_main_arg7, V4_main_arg8, V4_main_v48, V4_main_v61, ← H_toMat, ← H_toMat, ← H_toMat, layer1 m ρ c] at e
  exact e

theorem V5_main_v62_0 : V5 m ρ c main_v62_0 = (dat2 (V4 m ρ) c).arrAt 5 cfg2.N := W5_main_v62_0 m ρ c
theorem V5_main_v62_1 : V5 m ρ c main_v62_1 = (dat2 (V4 m ρ) c).arrAt 6 cfg2.N := W5_main_v62_1 m ρ c
theorem V5_main_v62_2 : V5 m ρ c main_v62_2 = (dat2 (V4 m ρ) c).arrAt 7 cfg2.N := W5_main_v62_2 m ρ c
theorem V5_main_v6 : V5 m ρ c main_v6 = shapeCast S1x32 (m ((c : Thread nD τ).loc main_arg9)) shapeCasts_S32_S1x32 := (W5_main_v6 m ρ c).trans (W1_main_v6 m ρ c)
theorem V5_main_v7 : V5 m ρ c main_v7 = shapeCast S1x32 (m ((c : Thread nD τ).loc main_arg10)) shapeCasts_S32_S1x32 := (W5_main_v7 m ρ c).trans (W1_main_v7 m ρ c)

/-- The program's result, as a matrix, is the specification's network with the mean-of-squares variance. -/
theorem kernel_value :
    toMat (W6 (F := Ideal) m ρ c (Proc.devRef .tc main_v63))
      = Cert.Spec.netSq (Cert.Hop.H (m ((c : Thread nD τ).loc main_arg1)) (m ((c : Thread nD τ).loc main_arg2))) (toMat (m ((c : Thread nD τ).loc main_arg0))) (toWts (m ((c : Thread nD τ).loc main_arg3))) (toRow (m ((c : Thread nD τ).loc main_arg4))) (toRow (m ((c : Thread nD τ).loc main_arg5))) (toRow (m ((c : Thread nD τ).loc main_arg6)))
          (toWts (m ((c : Thread nD τ).loc main_arg7))) (toRow (m ((c : Thread nD τ).loc main_arg8))) (toRow (m ((c : Thread nD τ).loc main_arg9))) (toRow (m ((c : Thread nD τ).loc main_arg10))) := by
  have e := Cert.KernelIdeal.ValNorm3.out3_eq (V5 m ρ) c
  rw [V5_main_v62_0, V5_main_v62_1, V5_main_v62_2, V5_main_v6, V5_main_v7, toRow1_shapeCast, toRow1_shapeCast,
    comb2_z m ρ c, comb2_mean m ρ c, comb2_var m ρ c] at e
  rw [W6_main_v63 m ρ c]
  exact e

end Cert.KernelIdeal.KValue

end
-- ==== Proof.RefRun.lean ====
/-
  The reference program's run, read back: its host operations as a list, the program as the run of that list, and
  what the result buffer holds at the end as one composed term of the eleven argument arrays, built from named
  stages — a layer's pre-activation (three matrix products and a bias), its column mean, its mean squared deviation,
  the normalised, scaled and shifted array, the leaky rectifier — over the weighted neighbourhood sum.
-/
import proofs.«101999_j28329604284662_1_alg».proof.Proof.Gen.ReferenceIdeal
import proofs.«101999_j28329604284662_1_alg».proof.Proof.HopDef
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The first of the three 32×32 matrices of a 3×32×32 array. -/
def wMat0 (w : (⟨S3x32x32, .f32⟩ : BufTy).Contents (Elt F)) : (⟨S32x32, .f32⟩ : BufTy).Contents (Elt F) :=
  shapeCast S32x32 (extractStridedSlice S1x32x32 ![0, 0, 0] w slices_S3x32x32_S1x32x32_0_0_0) shapeCasts_S1x32x32_S32x32
/-- The second. -/
def wMat1 (w : (⟨S3x32x32, .f32⟩ : BufTy).Contents (Elt F)) : (⟨S32x32, .f32⟩ : BufTy).Contents (Elt F) :=
  shapeCast S32x32 (extractStridedSlice S1x32x32 ![1, 0, 0] w slices_S3x32x32_S1x32x32_1_0_0) shapeCasts_S1x32x32_S32x32
/-- The third. -/
def wMat2 (w : (⟨S3x32x32, .f32⟩ : BufTy).Contents (Elt F)) : (⟨S32x32, .f32⟩ : BufTy).Contents (Elt F) :=
  shapeCast S32x32 (extractStridedSlice S1x32x32 ![2, 0, 0] w slices_S3x32x32_S1x32x32_2_0_0) shapeCasts_S1x32x32_S32x32

/-- Rows times a 32×32 matrix. -/
def dot (x : (⟨S100000x32, .f32⟩ : BufTy).Contents (Elt F)) (w : (⟨S32x32, .f32⟩ : BufTy).Contents (Elt F)) : (⟨S100000x32, .f32⟩ : BufTy).Contents (Elt F) :=
  Host.dotGeneral dot_S100000x32_S32x32_S100000x32_1_0_0_1_n_n none x w

/-- One value per feature, repeated down the 100000 rows. -/
def rowB (r : (⟨S32, .f32⟩ : BufTy).Contents (Elt F)) : (⟨S100000x32, .f32⟩ : BufTy).Contents (Elt F) :=
  broadcastInDim S100000x32 ![0, 1] bcast_S1x32_S100000x32_0_1 (broadcastInDim S1x32 ![1] bcast_S32_S1x32_1 r)

/-- A layer before normalisation: x·W₀ + h1·W₁ + h2·W₂ + b, in that association. -/
def zOf (x h1 h2 : (⟨S100000x32, .f32⟩ : BufTy).Contents (Elt F)) (w : (⟨S3x32x32, .f32⟩ : BufTy).Contents (Elt F)) (b : (⟨S32, .f32⟩ : BufTy).Contents (Elt F)) : (⟨S100000x32, .f32⟩ : BufTy).Contents (Elt F) :=
  addf (addf (addf (dot x (wMat0 w)) (dot h1 (wMat1 w))) (dot h2 (wMat2 w))) (rowB b)

/-- The row count, once per feature. -/
def nRowsB : (⟨S32, .f32⟩ : BufTy).Contents (Elt F) := broadcastInDim S32 ![] bcast_S_S32 (constant S_ .f32 0x47C35000#32)

/-- The column sums (from zero) over the row count. -/
def colMean (z : (⟨S100000x32, .f32⟩ : BufTy).Contents (Elt F)) : (⟨S32, .f32⟩ : BufTy).Contents (Elt F) :=
  Host.divf (Host.reduceAdd z (constant S_ .f32 0x00000000#32) reducesTo_S100000x32_S32_d0 h_S_) nRowsB

/-- The squared deviation from the column mean. -/
def devSq (z : (⟨S100000x32, .f32⟩ : BufTy).Contents (Elt F)) : (⟨S100000x32, .f32⟩ : BufTy).Contents (Elt F) :=
  mulf (subf z (rowB (colMean z))) (subf z (rowB (colMean z)))

/-- The mean squared deviation per column. -/
def colVar (z : (⟨S100000x32, .f32⟩ : BufTy).Contents (Elt F)) : (⟨S32, .f32⟩ : BufTy).Contents (Elt F) :=
  Host.divf (Host.reduceAdd (devSq z) (constant S_ .f32 0x00000000#32) reducesTo_S100000x32_S32_d0 h_S_) nRowsB

/-- Normalised by mean and variance (guarded), scaled by `g`, shifted by `be`. -/
def normed (z : (⟨S100000x32, .f32⟩ : BufTy).Contents (Elt F)) (g be : (⟨S32, .f32⟩ : BufTy).Contents (Elt F)) : (⟨S100000x32, .f32⟩ : BufTy).Contents (Elt F) :=
  addf (mulf (mulf (subf z (rowB (colMean z)))
      (rowB (Host.rsqrt (addf (colVar z) (broadcastInDim S32 ![] bcast_S_S32 (constant S_ .f32 0x3727C5AC#32))))))
    (rowB g)) (rowB be)

/-- The leaky rectifier: the entry where it is at least zero, the slope times it elsewhere. -/
def leaky (n : (⟨S100000x32, .f32⟩ : BufTy).Contents (Elt F)) : (⟨S100000x32, .f32⟩ : BufTy).Contents (Elt F) :=
  select (cmpf .oge n (broadcastInDim S100000x32 ![] bcast_S_S100000x32 (constant S_ .f32 0x00000000#32))) n
    (mulf (broadcastInDim S100000x32 ![] bcast_S_S100000x32 (constant S_ .f32 0x3C23D70A#32)) n)

/-- One layer over the neighbourhood sums of its input. -/
def layer (ei : (⟨S2x1600000, .i32⟩ : BufTy).Contents (Elt F)) (ew : (⟨S1600000, .f32⟩ : BufTy).Contents (Elt F)) (x : (⟨S100000x32, .f32⟩ : BufTy).Contents (Elt F)) (w : (⟨S3x32x32, .f32⟩ : BufTy).Contents (Elt F)) (b g be : (⟨S32, .f32⟩ : BufTy).Contents (Elt F)) : (⟨S100000x32, .f32⟩ : BufTy).Contents (Elt F) :=
  leaky (normed (zOf x (Cert.Hop.hopV ei ew x) (Cert.Hop.hopV ei ew (Cert.Hop.hopV ei ew x)) w b) g be)

/-- The reference's result as a function of its eleven arguments: two layers. -/
def refOut (a0 : (⟨S100000x32, .f32⟩ : BufTy).Contents (Elt F)) (a1 : (⟨S2x1600000, .i32⟩ : BufTy).Contents (Elt F)) (a2 : (⟨S1600000, .f32⟩ : BufTy).Contents (Elt F)) (a3 : (⟨S3x32x32, .f32⟩ : BufTy).Contents (Elt F)) (a4 a5 a6 : (⟨S32, .f32⟩ : BufTy).Contents (Elt F)) (a7 : (⟨S3x32x32, .f32⟩ : BufTy).Contents (Elt F)) (a8 a9 a10 : (⟨S32, .f32⟩ : BufTy).Contents (Elt F)) : (⟨S100000x32, .f32⟩ : BufTy).Contents (Elt F) :=
  layer a1 a2 (layer a1 a2 a0 a3 a4 a5 a6) a7 a8 a9 a10

/-! ## The operations -/

/-- The first sixty statements' operations. -/
abbrev part0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg3 main_v4 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v4 main_v5 rfl shapeCasts_S1x32x32_S32x32,
    binary main_arg0 main_v5 main_v6 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_v1 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v9 (broadcastInDim S1600000 ![] bcast_S_S1600000 : (⟨S_, .i32⟩ : BufTy).Contents (Elt F) → (⟨S1600000, .i32⟩ : BufTy).Contents (Elt F)),
    binary main_v1 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_v1 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg0 main_v12 main_v13 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg2 main_v14 (broadcastInDim S1600000x1 ![0] bcast_S1600000_S1600000x1_0 : (⟨S1600000, .f32⟩ : BufTy).Contents (Elt F) → (⟨S1600000x1, .f32⟩ : BufTy).Contents (Elt F)),
    unary main_v14 main_v15 (broadcastInDim S1600000x32 ![0, 1] bcast_S1600000x1_S1600000x32_0_1 : (⟨S1600000x1, .f32⟩ : BufTy).Contents (Elt F) → (⟨S1600000x32, .f32⟩ : BufTy).Contents (Elt F)),
    binary main_v13 main_v15 main_v16 (mulf : (⟨S1600000x32, .f32⟩ : BufTy).Contents (Elt F) → (⟨S1600000x32, .f32⟩ : BufTy).Contents (Elt F) → (⟨S1600000x32, .f32⟩ : BufTy).Contents (Elt F)),
    nullary main_cst (constant S_ .f32 0x00000000#32),
    unary main_cst main_v17 (broadcastInDim S100000x32 ![] bcast_S_S100000x32 : (⟨S_, .f32⟩ : BufTy).Contents (Elt F) → (⟨S100000x32, .f32⟩ : BufTy).Contents (Elt F)),
    unary main_v3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v20 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v20 main_v21 rfl shapeCasts_S1x32x32_S32x32,
    binary main_v19 main_v21 main_v22 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v6 main_v22 main_v23 (addf : (⟨S100000x32, .f32⟩ : BufTy).Contents (Elt F) → (⟨S100000x32, .f32⟩ : BufTy).Contents (Elt F) → (⟨S100000x32, .f32⟩ : BufTy).Contents (Elt F)),
    nullary main_c_1 (constantI S_ 32 0#32),
    unary main_c_1 main_v24 (broadcastInDim S1600000 ![] bcast_S_S1600000 : (⟨S_, .i32⟩ : BufTy).Contents (Elt F) → (⟨S1600000, .i32⟩ : BufTy).Contents (Elt F)),
    binary main_v1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v26 (broadcastInDim S1600000 ![] bcast_S_S1600000 : (⟨S_, .i32⟩ : BufTy).Contents (Elt F) → (⟨S1600000, .i32⟩ : BufTy).Contents (Elt F)),
    binary main_v1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v19 main_v29 main_v30 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg2 main_v31 (broadcastInDim S1600000x1 ![0] bcast_S1600000_S1600000x1_0 : (⟨S1600000, .f32⟩ : BufTy).Contents (Elt F) → (⟨S1600000x1, .f32⟩ : BufTy).Contents (Elt F)),
    unary main_v31 main_v32 (broadcastInDim S1600000x32 ![0, 1] bcast_S1600000x1_S1600000x32_0_1 : (⟨S1600000x1, .f32⟩ : BufTy).Contents (Elt F) → (⟨S1600000x32, .f32⟩ : BufTy).Contents (Elt F)),
    binary main_v30 main_v32 main_v33 (mulf : (⟨S1600000x32, .f32⟩ : BufTy).Contents (Elt F) → (⟨S1600000x32, .f32⟩ : BufTy).Contents (Elt F) → (⟨S1600000x32, .f32⟩ : BufTy).Contents (Elt F)),
    nullary main_cst_3 (constant S_ .f32 0x00000000#32),
    unary main_cst_3 main_v34 (broadcastInDim S100000x32 ![] bcast_S_S100000x32 : (⟨S_, .f32⟩ : BufTy).Contents (Elt F) → (⟨S100000x32, .f32⟩ : BufTy).Contents (Elt F)),
    unary main_v3 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v37 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v37 main_v38 rfl shapeCasts_S1x32x32_S32x32,
    binary main_v36 main_v38 main_v39 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v23 main_v39 main_v40 (addf : (⟨S100000x32, .f32⟩ : BufTy).Contents (Elt F) → (⟨S100000x32, .f32⟩ : BufTy).Contents (Elt F) → (⟨S100000x32, .f32⟩ : BufTy).Contents (Elt F)),
    unary main_arg4 main_v41 (broadcastInDim S1x32 ![1] bcast_S32_S1x32_1 : (⟨S32, .f32⟩ : BufTy).Contents (Elt F) → (⟨S1x32, .f32⟩ : BufTy).Contents (Elt F)),
    unary main_v41 main_v42 (broadcastInDim S100000x32 ![0, 1] bcast_S1x32_S100000x32_0_1 : (⟨S1x32, .f32⟩ : BufTy).Contents (Elt F) → (⟨S100000x32, .f32⟩ : BufTy).Contents (Elt F)),
    binary main_v40 main_v42 main_v43 (addf : (⟨S100000x32, .f32⟩ : BufTy).Contents (Elt F) → (⟨S100000x32, .f32⟩ : BufTy).Contents (Elt F) → (⟨S100000x32, .f32⟩ : BufTy).Contents (Elt F)),
    nullary main_cst_4 (constant S_ .f32 0x00000000#32),
    binary main_v43 main_cst_4 main_v44 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_5 (constant S_ .f32 0x47C35000#32),
    unary main_cst_5 main_v45 (broadcastInDim S32 ![] bcast_S_S32 : (⟨S_, .f32⟩ : BufTy).Contents (Elt F) → (⟨S32, .f32⟩ : BufTy).Contents (Elt F)),
    binary main_v44 main_v45 main_v46 (Host.divf : (⟨S32, .f32⟩ : BufTy).Contents (Elt F) → (⟨S32, .f32⟩ : BufTy).Contents (Elt F) → (⟨S32, .f32⟩ : BufTy).Contents (Elt F)),
    unary main_v46 main_v47 (broadcastInDim S1x32 ![1] bcast_S32_S1x32_1 : (⟨S32, .f32⟩ : BufTy).Contents (Elt F) → (⟨S1x32, .f32⟩ : BufTy).Contents (Elt F)),
    unary main_v47 main_v48 (broadcastInDim S100000x32 ![0, 1] bcast_S1x32_S100000x32_0_1 : (⟨S1x32, .f32⟩ : BufTy).Contents (Elt F) → (⟨S100000x32, .f32⟩ : BufTy).Contents (Elt F)),
    binary main_v43 main_v48 main_v49 (subf : (⟨S100000x32, .f32⟩ : BufTy).Contents (Elt F) → (⟨S100000x32, .f32⟩ : BufTy).Contents (Elt F) → (⟨S100000x32, .f32⟩ : BufTy).Contents (Elt F)),
    binary main_v49 main_v49 main_v50 (mulf : (⟨S100000x32, .f32⟩ : BufTy).Contents (Elt F) → (⟨S100000x32, .f32⟩ : BufTy).Contents (Elt F) → (⟨S100000x32, .f32⟩ : BufTy).Contents (Elt F)),
    nullary main_cst_6 (constant S_ .f32 0x00000000#32) ]

/-- Statements 61 to 120: the first call's seven operations inline, over its own buffers. -/
abbrev part1 : List (HloOp τ sig (Elt F)) :=
  [ binary main_v50 main_cst_6 main_v51 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_7 (constant S_ .f32 0x47C35000#32),
    unary main_cst_7 main_v52 (broadcastInDim S32 ![] bcast_S_S32 : (⟨S_, .f32⟩ : BufTy).Contents (Elt F) → (⟨S32, .f32⟩ : BufTy).Contents (Elt F)),
    binary main_v51 main_v52 main_v53 (Host.divf : (⟨S32, .f32⟩ : BufTy).Contents (Elt F) → (⟨S32, .f32⟩ : BufTy).Contents (Elt F) → (⟨S32, .f32⟩ : BufTy).Contents (Elt F)),
    unary main_v46 main_v54 (broadcastInDim S1x32 ![1] bcast_S32_S1x32_1 : (⟨S32, .f32⟩ : BufTy).Contents (Elt F) → (⟨S1x32, .f32⟩ : BufTy).Contents (Elt F)),
    unary main_v54 main_v55 (broadcastInDim S100000x32 ![0, 1] bcast_S1x32_S100000x32_0_1 : (⟨S1x32, .f32⟩ : BufTy).Contents (Elt F) → (⟨S100000x32, .f32⟩ : BufTy).Contents (Elt F)),
    binary main_v43 main_v55 main_v56 (subf : (⟨S100000x32, .f32⟩ : BufTy).Contents (Elt F) → (⟨S100000x32, .f32⟩ : BufTy).Contents (Elt F) → (⟨S100000x32, .f32⟩ : BufTy).Contents (Elt F)),
    nullary main_cst_8 (constant S_ .f32 0x3727C5AC#32),
    unary main_cst_8 main_v57 (broadcastInDim S32 ![] bcast_S_S32 : (⟨S_, .f32⟩ : BufTy).Contents (Elt F) → (⟨S32, .f32⟩ : BufTy).Contents (Elt F)),
    binary main_v53 main_v57 main_v58 (addf : (⟨S32, .f32⟩ : BufTy).Contents (Elt F) → (⟨S32, .f32⟩ : BufTy).Contents (Elt F) → (⟨S32, .f32⟩ : BufTy).Contents (Elt F)),
    unary main_v58 main_v59 (Host.rsqrt : (⟨S32, .f32⟩ : BufTy).Contents (Elt F) → (⟨S32, .f32⟩ : BufTy).Contents (Elt F)),
    unary main_v59 main_v60 (broadcastInDim S1x32 ![1] bcast_S32_S1x32_1 : (⟨S32, .f32⟩ : BufTy).Contents (Elt F) → (⟨S1x32, .f32⟩ : BufTy).Contents (Elt F)),
    unary main_v60 main_v61 (broadcastInDim S100000x32 ![0, 1] bcast_S1x32_S100000x32_0_1 : (⟨S1x32, .f32⟩ : BufTy).Contents (Elt F) → (⟨S100000x32, .f32⟩ : BufTy).Contents (Elt F)),
    binary main_v56 main_v61 main_v62 (mulf : (⟨S100000x32, .f32⟩ : BufTy).Contents (Elt F) → (⟨S100000x32, .f32⟩ : BufTy).Contents (Elt F) → (⟨S100000x32, .f32⟩ : BufTy).Contents (Elt F)),
    unary main_arg5 main_v63 (broadcastInDim S1x32 ![1] bcast_S32_S1x32_1 : (⟨S32, .f32⟩ : BufTy).Contents (Elt F) → (⟨S1x32, .f32⟩ : BufTy).Contents (Elt F)),
    unary main_v63 main_v64 (broadcastInDim S100000x32 ![0, 1] bcast_S1x32_S100000x32_0_1 : (⟨S1x32, .f32⟩ : BufTy).Contents (Elt F) → (⟨S100000x32, .f32⟩ : BufTy).Contents (Elt F)),
    binary main_v62 main_v64 main_v65 (mulf : (⟨S100000x32, .f32⟩ : BufTy).Contents (Elt F) → (⟨S100000x32, .f32⟩ : BufTy).Contents (Elt F) → (⟨S100000x32, .f32⟩ : BufTy).Contents (Elt F)),
    unary main_arg6 main_v66 (broadcastInDim S1x32 ![1] bcast_S32_S1x32_1 : (⟨S32, .f32⟩ : BufTy).Contents (Elt F) → (⟨S1x32, .f32⟩ : BufTy).Contents (Elt F)),
    unary main_v66 main_v67 (broadcastInDim S100000x32 ![0, 1] bcast_S1x32_S100000x32_0_1 : (⟨S1x32, .f32⟩ : BufTy).Contents (Elt F) → (⟨S100000x32, .f32⟩ : BufTy).Contents (Elt F)),
    binary main_v65 main_v67 main_v68 (addf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x3C23D70A#32),
    TRef.nullary main_call0.cst (constant S_ .f32 0x00000000#32),
    TRef.unary main_call0.cst main_call0.v0 (broadcastInDim S100000x32 ![] bcast_S_S100000x32),
    TRef.binary (.of main_v68) main_call0.v0 main_call0.v1 (cmpf .oge),
    TRef.unary (.of main_cst_9) main_call0.v2 id,
    TRef.unary main_call0.v2 main_call0.v3 (broadcastInDim S100000x32 ![] bcast_S_S100000x32),
    TRef.binary main_call0.v3 (.of main_v68) main_call0.v4 mulf,
    TRef.ternary main_call0.v1 (.of main_v68) main_call0.v4 main_call0.call0.v0 select,
    unary main_arg7 main_v70 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v70 main_v71 rfl shapeCasts_S1x32x32_S32x32,
    binary main_v69 main_v71 main_v72 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_10 (constantI S_ 32 0#32),
    unary main_c_10 main_v73 (broadcastInDim S1600000 ![] bcast_S_S1600000 : (⟨S_, .i32⟩ : BufTy).Contents (Elt F) → (⟨S1600000, .i32⟩ : BufTy).Contents (Elt F)),
    binary main_v1 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v75 (broadcastInDim S1600000 ![] bcast_S_S1600000 : (⟨S_, .i32⟩ : BufTy).Contents (Elt F) → (⟨S1600000, .i32⟩ : BufTy).Contents (Elt F)),
    binary main_v1 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v69 main_v78 main_v79 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg2 main_v80 (broadcastInDim S1600000x1 ![0] bcast_S1600000_S1600000x1_0 : (⟨S1600000, .f32⟩ : BufTy).Contents (Elt F) → (⟨S1600000x1, .f32⟩ : BufTy).Contents (Elt F)),
    unary main_v80 main_v81 (broadcastInDim S1600000x32 ![0, 1] bcast_S1600000x1_S1600000x32_0_1 : (⟨S1600000x1, .f32⟩ : BufTy).Contents (Elt F) → (⟨S1600000x32, .f32⟩ : BufTy).Contents (Elt F)),
    binary main_v79 main_v81 main_v82 (mulf : (⟨S1600000x32, .f32⟩ : BufTy).Contents (Elt F) → (⟨S1600000x32, .f32⟩ : BufTy).Contents (Elt F) → (⟨S1600000x32, .f32⟩ : BufTy).Contents (Elt F)),
    nullary main_cst_12 (constant S_ .f32 0x00000000#32),
    unary main_cst_12 main_v83 (broadcastInDim S100000x32 ![] bcast_S_S100000x32 : (⟨S_, .f32⟩ : BufTy).Contents (Elt F) → (⟨S100000x32, .f32⟩ : BufTy).Contents (Elt F)),
    unary main_v3 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v82 main_v85 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg7 main_v86 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v86 main_v87 rfl shapeCasts_S1x32x32_S32x32,
    binary main_v85 main_v87 main_v88 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v72 main_v88 main_v89 (addf : (⟨S100000x32, .f32⟩ : BufTy).Contents (Elt F) → (⟨S100000x32, .f32⟩ : BufTy).Contents (Elt F) → (⟨S100000x32, .f32⟩ : BufTy).Contents (Elt F)),
    nullary main_c_13 (constantI S_ 32 0#32),
    unary main_c_13 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v85 main_v95 main_v96 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg2 main_v97 (broadcastInDim S1600000x1 ![0] bcast_S1600000_S1600000x1_0 : (⟨S1600000, .f32⟩ : BufTy).Contents (Elt F) → (⟨S1600000x1, .f32⟩ : BufTy).Contents (Elt F)),
    unary main_v97 main_v98 (broadcastInDim S1600000x32 ![0, 1] bcast_S1600000x1_S1600000x32_0_1 : (⟨S1600000x1, .f32⟩ : BufTy).Contents (Elt F) → (⟨S1600000x32, .f32⟩ : BufTy).Contents (Elt F)),
    binary main_v96 main_v98 main_v99 (mulf : (⟨S1600000x32, .f32⟩ : BufTy).Contents (Elt F) → (⟨S1600000x32, .f32⟩ : BufTy).Contents (Elt F) → (⟨S1600000x32, .f32⟩ : BufTy).Contents (Elt F)),
    nullary main_cst_15 (constant S_ .f32 0x00000000#32),
    unary main_cst_15 main_v100 (broadcastInDim S100000x32 ![] bcast_S_S100000x32 : (⟨S_, .f32⟩ : BufTy).Contents (Elt F) → (⟨S100000x32, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)) ]

/-- The rest: the second call's seven operations inline. -/
abbrev part2 : List (HloOp τ sig (Elt F)) :=
  [ ternary main_v100 main_v101 main_v99 main_v102 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg7 main_v103 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v103 main_v104 rfl shapeCasts_S1x32x32_S32x32,
    binary main_v102 main_v104 main_v105 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v89 main_v105 main_v106 (addf : (⟨S100000x32, .f32⟩ : BufTy).Contents (Elt F) → (⟨S100000x32, .f32⟩ : BufTy).Contents (Elt F) → (⟨S100000x32, .f32⟩ : BufTy).Contents (Elt F)),
    unary main_arg8 main_v107 (broadcastInDim S1x32 ![1] bcast_S32_S1x32_1 : (⟨S32, .f32⟩ : BufTy).Contents (Elt F) → (⟨S1x32, .f32⟩ : BufTy).Contents (Elt F)),
    unary main_v107 main_v108 (broadcastInDim S100000x32 ![0, 1] bcast_S1x32_S100000x32_0_1 : (⟨S1x32, .f32⟩ : BufTy).Contents (Elt F) → (⟨S100000x32, .f32⟩ : BufTy).Contents (Elt F)),
    binary main_v106 main_v108 main_v109 (addf : (⟨S100000x32, .f32⟩ : BufTy).Contents (Elt F) → (⟨S100000x32, .f32⟩ : BufTy).Contents (Elt F) → (⟨S100000x32, .f32⟩ : BufTy).Contents (Elt F)),
    nullary main_cst_16 (constant S_ .f32 0x00000000#32),
    binary main_v109 main_cst_16 main_v110 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_17 (constant S_ .f32 0x47C35000#32),
    unary main_cst_17 main_v111 (broadcastInDim S32 ![] bcast_S_S32 : (⟨S_, .f32⟩ : BufTy).Contents (Elt F) → (⟨S32, .f32⟩ : BufTy).Contents (Elt F)),
    binary main_v110 main_v111 main_v112 (Host.divf : (⟨S32, .f32⟩ : BufTy).Contents (Elt F) → (⟨S32, .f32⟩ : BufTy).Contents (Elt F) → (⟨S32, .f32⟩ : BufTy).Contents (Elt F)),
    unary main_v112 main_v113 (broadcastInDim S1x32 ![1] bcast_S32_S1x32_1 : (⟨S32, .f32⟩ : BufTy).Contents (Elt F) → (⟨S1x32, .f32⟩ : BufTy).Contents (Elt F)),
    unary main_v113 main_v114 (broadcastInDim S100000x32 ![0, 1] bcast_S1x32_S100000x32_0_1 : (⟨S1x32, .f32⟩ : BufTy).Contents (Elt F) → (⟨S100000x32, .f32⟩ : BufTy).Contents (Elt F)),
    binary main_v109 main_v114 main_v115 (subf : (⟨S100000x32, .f32⟩ : BufTy).Contents (Elt F) → (⟨S100000x32, .f32⟩ : BufTy).Contents (Elt F) → (⟨S100000x32, .f32⟩ : BufTy).Contents (Elt F)),
    binary main_v115 main_v115 main_v116 (mulf : (⟨S100000x32, .f32⟩ : BufTy).Contents (Elt F) → (⟨S100000x32, .f32⟩ : BufTy).Contents (Elt F) → (⟨S100000x32, .f32⟩ : BufTy).Contents (Elt F)),
    nullary main_cst_18 (constant S_ .f32 0x00000000#32),
    binary main_v116 main_cst_18 main_v117 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_19 (constant S_ .f32 0x47C35000#32),
    unary main_cst_19 main_v118 (broadcastInDim S32 ![] bcast_S_S32 : (⟨S_, .f32⟩ : BufTy).Contents (Elt F) → (⟨S32, .f32⟩ : BufTy).Contents (Elt F)),
    binary main_v117 main_v118 main_v119 (Host.divf : (⟨S32, .f32⟩ : BufTy).Contents (Elt F) → (⟨S32, .f32⟩ : BufTy).Contents (Elt F) → (⟨S32, .f32⟩ : BufTy).Contents (Elt F)),
    unary main_v112 main_v120 (broadcastInDim S1x32 ![1] bcast_S32_S1x32_1 : (⟨S32, .f32⟩ : BufTy).Contents (Elt F) → (⟨S1x32, .f32⟩ : BufTy).Contents (Elt F)),
    unary main_v120 main_v121 (broadcastInDim S100000x32 ![0, 1] bcast_S1x32_S100000x32_0_1 : (⟨S1x32, .f32⟩ : BufTy).Contents (Elt F) → (⟨S100000x32, .f32⟩ : BufTy).Contents (Elt F)),
    binary main_v109 main_v121 main_v122 (subf : (⟨S100000x32, .f32⟩ : BufTy).Contents (Elt F) → (⟨S100000x32, .f32⟩ : BufTy).Contents (Elt F) → (⟨S100000x32, .f32⟩ : BufTy).Contents (Elt F)),
    nullary main_cst_20 (constant S_ .f32 0x3727C5AC#32),
    unary main_cst_20 main_v123 (broadcastInDim S32 ![] bcast_S_S32 : (⟨S_, .f32⟩ : BufTy).Contents (Elt F) → (⟨S32, .f32⟩ : BufTy).Contents (Elt F)),
    binary main_v119 main_v123 main_v124 (addf : (⟨S32, .f32⟩ : BufTy).Contents (Elt F) → (⟨S32, .f32⟩ : BufTy).Contents (Elt F) → (⟨S32, .f32⟩ : BufTy).Contents (Elt F)),
    unary main_v124 main_v125 (Host.rsqrt : (⟨S32, .f32⟩ : BufTy).Contents (Elt F) → (⟨S32, .f32⟩ : BufTy).Contents (Elt F)),
    unary main_v125 main_v126 (broadcastInDim S1x32 ![1] bcast_S32_S1x32_1 : (⟨S32, .f32⟩ : BufTy).Contents (Elt F) → (⟨S1x32, .f32⟩ : BufTy).Contents (Elt F)),
    unary main_v126 main_v127 (broadcastInDim S100000x32 ![0, 1] bcast_S1x32_S100000x32_0_1 : (⟨S1x32, .f32⟩ : BufTy).Contents (Elt F) → (⟨S100000x32, .f32⟩ : BufTy).Contents (Elt F)),
    binary main_v122 main_v127 main_v128 (mulf : (⟨S100000x32, .f32⟩ : BufTy).Contents (Elt F) → (⟨S100000x32, .f32⟩ : BufTy).Contents (Elt F) → (⟨S100000x32, .f32⟩ : BufTy).Contents (Elt F)),
    unary main_arg9 main_v129 (broadcastInDim S1x32 ![1] bcast_S32_S1x32_1 : (⟨S32, .f32⟩ : BufTy).Contents (Elt F) → (⟨S1x32, .f32⟩ : BufTy).Contents (Elt F)),
    unary main_v129 main_v130 (broadcastInDim S100000x32 ![0, 1] bcast_S1x32_S100000x32_0_1 : (⟨S1x32, .f32⟩ : BufTy).Contents (Elt F) → (⟨S100000x32, .f32⟩ : BufTy).Contents (Elt F)),
    binary main_v128 main_v130 main_v131 (mulf : (⟨S100000x32, .f32⟩ : BufTy).Contents (Elt F) → (⟨S100000x32, .f32⟩ : BufTy).Contents (Elt F) → (⟨S100000x32, .f32⟩ : BufTy).Contents (Elt F)),
    unary main_arg10 main_v132 (broadcastInDim S1x32 ![1] bcast_S32_S1x32_1 : (⟨S32, .f32⟩ : BufTy).Contents (Elt F) → (⟨S1x32, .f32⟩ : BufTy).Contents (Elt F)),
    unary main_v132 main_v133 (broadcastInDim S100000x32 ![0, 1] bcast_S1x32_S100000x32_0_1 : (⟨S1x32, .f32⟩ : BufTy).Contents (Elt F) → (⟨S100000x32, .f32⟩ : BufTy).Contents (Elt F)),
    binary main_v131 main_v133 main_v134 (addf : (⟨S100000x32, .f32⟩ : BufTy).Contents (Elt F) → (⟨S100000x32, .f32⟩ : BufTy).Contents (Elt F) → (⟨S100000x32, .f32⟩ : BufTy).Contents (Elt F)),
    nullary main_cst_21 (constant S_ .f32 0x3C23D70A#32),
    TRef.nullary main_call1.cst (constant S_ .f32 0x00000000#32),
    TRef.unary main_call1.cst main_call1.v0 (broadcastInDim S100000x32 ![] bcast_S_S100000x32),
    TRef.binary (.of main_v134) main_call1.v0 main_call1.v1 (cmpf .oge),
    TRef.unary (.of main_cst_21) main_call1.v2 id,
    TRef.unary main_call1.v2 main_call1.v3 (broadcastInDim S100000x32 ![] bcast_S_S100000x32),
    TRef.binary main_call1.v3 (.of main_v134) main_call1.v4 mulf,
    TRef.ternary main_call1.v1 (.of main_v134) main_call1.v4 main_call1.call0.v0 select ]

/-- All of them, in order. -/
abbrev ops : List (HloOp τ sig (Elt F)) := part0 ++ (part1 ++ part2)

set_option maxRecDepth 8192 in
theorem main_part0_eq (c : Dev nD) : main_part0 (F := F) c = seq part0 := rfl

set_option maxRecDepth 8192 in
theorem main_part1_eq (c : Dev nD) : main_part1 (F := F) c = seq part1 := by
  simp only [main_part1, fn_leaky_relu.body, fn_where.body, seq, bind_assoc, pure_bind]
  rfl

set_option maxRecDepth 8192 in
theorem main_part2_eq (c : Dev nD) : main_part2 (F := F) c = seq part2 := by
  simp only [main_part2, fn_leaky_relu.body, fn_where.body, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem part0_sub : (part0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..⟩
theorem part1_sub : (part1 : List (HloOp τ sig (Elt F))).Forall fun op => op.bufs ⊆ tcRefs τ sig :=
  ⟨binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..⟩
theorem part2_sub : (part2 : List (HloOp τ sig (Elt F))).Forall fun op => op.bufs ⊆ tcRefs τ sig :=
  ⟨ternary_bufs_sub .., unary_bufs_sub .., reshape_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp part0_sub op h, List.forall_iff_forall_mem.mp part1_sub op h,
      List.forall_iff_forall_mem.mp part2_sub op h]

/-! ## What the buffers hold, window by window -/

/-- The buffers' contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- After the first window. -/
def val1 (V0 : Valuation τ sig (Elt F)) : Valuation τ sig (Elt F) := after part0 (val0 V0)
/-- After the second. -/
def val2 (V0 : Valuation τ sig (Elt F)) : Valuation τ sig (Elt F) := after part1 (val1 V0)
/-- After the third. -/
def val3 (V0 : Valuation τ sig (Elt F)) : Valuation τ sig (Elt F) := after part2 (val2 V0)

/-- The buffers the operations of this window write. -/
abbrev part0_W : List (Ref sig .tc) := [main_v0, main_v1, main_v2, main_v3, main_v4, main_v5, main_v6, main_c, main_v7, main_v8, main_c_0, main_v9, main_v10, main_v11, main_v12, main_v13, main_v14, main_v15, main_v16, main_cst, main_v17, main_v18, main_v19, main_v20, main_v21, main_v22, main_v23, main_c_1, main_v24, main_v25, main_c_2, main_v26, main_v27, main_v28, main_v29, main_v30, main_v31, main_v32, main_v33, main_cst_3, main_v34, main_v35, main_v36, main_v37, main_v38, main_v39, main_v40, main_v41, main_v42, main_v43, main_cst_4, main_v44, main_cst_5, main_v45, main_v46, main_v47, main_v48, main_v49, main_v50, main_cst_6]
set_option maxRecDepth 8192 in
theorem part0_writes : (part0 : List (HloOp τ sig (Elt F))).Forall fun op => op.writes ⊆ (part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val1_keep (V0 : Valuation τ sig (Elt F)) (r : Ref sig .tc) (h : r ∉ part0_W) :
    val1 V0 (Proc.devRef .tc r) = val0 V0 (Proc.devRef .tc r) :=
  after_of_writes_sub part0 _ part0_writes h

theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)

set_option maxRecDepth 8192 in
set_option maxHeartbeats 2000000 in
theorem val1_main_v1 (V0 : Valuation τ sig (Elt F)) : val1 V0 (no_index (Proc.devRef .tc main_v1)) = Cert.Hop.srcRow (V0 (Proc.devRef .tc main_arg1)) := by
  unfold val1
  simp only [part0]
  after_results_simp
  simp only [val0_main_arg1]
  rfl

set_option maxRecDepth 8192 in
set_option maxHeartbeats 2000000 in
theorem val1_main_v3 (V0 : Valuation τ sig (Elt F)) : val1 V0 (no_index (Proc.devRef .tc main_v3)) = Cert.Hop.dstRow (V0 (Proc.devRef .tc main_arg1)) := by
  unfold val1
  simp only [part0]
  after_results_simp
  simp only [val0_main_arg1]
  rfl

set_option maxRecDepth 8192 in
set_option maxHeartbeats 6000000 in
theorem val1_main_v43 (V0 : Valuation τ sig (Elt F)) : val1 V0 (no_index (Proc.devRef .tc main_v43)) = (zOf (V0 (Proc.devRef .tc main_arg0)) (Cert.Hop.hopV (V0 (Proc.devRef .tc main_arg1)) (V0 (Proc.devRef .tc main_arg2)) (V0 (Proc.devRef .tc main_arg0))) (Cert.Hop.hopV (V0 (Proc.devRef .tc main_arg1)) (V0 (Proc.devRef .tc main_arg2)) (Cert.Hop.hopV (V0 (Proc.devRef .tc main_arg1)) (V0 (Proc.devRef .tc main_arg2)) (V0 (Proc.devRef .tc main_arg0)))) (V0 (Proc.devRef .tc main_arg3)) (V0 (Proc.devRef .tc main_arg4))) := by
  unfold val1
  simp only [part0]
  after_results_simp
  simp only [val0_main_arg0, val0_main_arg1, val0_main_arg2, val0_main_arg3, val0_main_arg4]
  rfl

set_option maxRecDepth 8192 in
set_option maxHeartbeats 6000000 in
theorem val1_main_v46 (V0 : Valuation τ sig (Elt F)) : val1 V0 (no_index (Proc.devRef .tc main_v46)) = colMean (zOf (V0 (Proc.devRef .tc main_arg0)) (Cert.Hop.hopV (V0 (Proc.devRef .tc main_arg1)) (V0 (Proc.devRef .tc main_arg2)) (V0 (Proc.devRef .tc main_arg0))) (Cert.Hop.hopV (V0 (Proc.devRef .tc main_arg1)) (V0 (Proc.devRef .tc main_arg2)) (Cert.Hop.hopV (V0 (Proc.devRef .tc main_arg1)) (V0 (Proc.devRef .tc main_arg2)) (V0 (Proc.devRef .tc main_arg0)))) (V0 (Proc.devRef .tc main_arg3)) (V0 (Proc.devRef .tc main_arg4))) := by
  unfold val1
  simp only [part0]
  after_results_simp
  simp only [val0_main_arg0, val0_main_arg1, val0_main_arg2, val0_main_arg3, val0_main_arg4]
  rfl

set_option maxRecDepth 8192 in
set_option maxHeartbeats 6000000 in
theorem val1_main_v50 (V0 : Valuation τ sig (Elt F)) : val1 V0 (no_index (Proc.devRef .tc main_v50)) = devSq (zOf (V0 (Proc.devRef .tc main_arg0)) (Cert.Hop.hopV (V0 (Proc.devRef .tc main_arg1)) (V0 (Proc.devRef .tc main_arg2)) (V0 (Proc.devRef .tc main_arg0))) (Cert.Hop.hopV (V0 (Proc.devRef .tc main_arg1)) (V0 (Proc.devRef .tc main_arg2)) (Cert.Hop.hopV (V0 (Proc.devRef .tc main_arg1)) (V0 (Proc.devRef .tc main_arg2)) (V0 (Proc.devRef .tc main_arg0)))) (V0 (Proc.devRef .tc main_arg3)) (V0 (Proc.devRef .tc main_arg4))) := by
  unfold val1
  simp only [part0]
  after_results_simp
  simp only [val0_main_arg0, val0_main_arg1, val0_main_arg2, val0_main_arg3, val0_main_arg4]
  rfl

set_option maxRecDepth 8192 in
set_option maxHeartbeats 2000000 in
theorem val1_main_cst_6 (V0 : Valuation τ sig (Elt F)) : val1 V0 (no_index (Proc.devRef .tc main_cst_6)) = constant S_ .f32 0x00000000#32 := by
  unfold val1
  simp only [part0]
  after_results_simp

/-- The buffers the operations of this window write. -/
abbrev part1_W : List (Ref sig .tc) := [main_v51, main_cst_7, main_v52, main_v53, main_v54, main_v55, main_v56, main_cst_8, main_v57, main_v58, main_v59, main_v60, main_v61, main_v62, main_v63, main_v64, main_v65, main_v66, main_v67, main_v68, main_cst_9, main_call0_cst, main_call0_v0, main_call0_v1, main_call0_v2, main_call0_v3, main_call0_v4, main_v69, main_v70, main_v71, main_v72, main_c_10, main_v73, main_v74, main_c_11, main_v75, main_v76, main_v77, main_v78, main_v79, main_v80, main_v81, main_v82, main_cst_12, main_v83, main_v84, main_v85, main_v86, main_v87, main_v88, main_v89, main_c_13, main_v90, main_v91, main_c_14, main_v92, main_v93, main_v94, main_v95, main_v96, main_v97, main_v98, main_v99, main_cst_15, main_v100, main_v101]
set_option maxRecDepth 8192 in
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val2_keep (V0 : Valuation τ sig (Elt F)) (r : Ref sig .tc) (h : r ∉ part1_W) :
    val2 V0 (Proc.devRef .tc r) = val1 V0 (Proc.devRef .tc r) :=
  after_of_writes_sub part1 _ part1_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)

theorem val2_main_v1 (V0 : Valuation τ sig (Elt F)) : val2 V0 (no_index (Proc.devRef .tc main_v1)) = Cert.Hop.srcRow (V0 (Proc.devRef .tc main_arg1)) :=
  (val2_keep V0 main_v1 (by decide)).trans (val1_main_v1 V0)

theorem val2_main_v3 (V0 : Valuation τ sig (Elt F)) : val2 V0 (no_index (Proc.devRef .tc main_v3)) = Cert.Hop.dstRow (V0 (Proc.devRef .tc main_arg1)) :=
  (val2_keep V0 main_v3 (by decide)).trans (val1_main_v3 V0)

set_option maxRecDepth 8192 in
set_option maxHeartbeats 6000000 in
theorem val2_main_v89 (V0 : Valuation τ sig (Elt F)) : val2 V0 (no_index (Proc.devRef .tc main_v89)) = addf (dot (layer (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6))) (wMat0 (V0 (Proc.devRef .tc main_arg7)))) (dot (Cert.Hop.hopV (V0 (Proc.devRef .tc main_arg1)) (V0 (Proc.devRef .tc main_arg2)) (layer (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6)))) (wMat1 (V0 (Proc.devRef .tc main_arg7)))) := by
  unfold val2
  simp only [part1]
  after_results_simp
  simp only [val1_main_v1, val1_main_v3, val1_main_v43, val1_main_v46, val1_main_v50, val1_main_cst_6, val1_main_arg2, val1_main_arg5, val1_main_arg6, val1_main_arg7]
  rfl

set_option maxRecDepth 8192 in
set_option maxHeartbeats 6000000 in
theorem val2_main_v99 (V0 : Valuation τ sig (Elt F)) : val2 V0 (no_index (Proc.devRef .tc main_v99)) = mulf (Host.gather gather_S100000x32_S1600000x1_S1600000x32_1_0_n_n_0_1_132 (Cert.Hop.hopV (V0 (Proc.devRef .tc main_arg1)) (V0 (Proc.devRef .tc main_arg2)) (layer (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6))))
        (broadcastInDim S1600000x1 ![0] bcast_S1600000_S1600000x1_0 (Cert.Hop.wrapIdx (Cert.Hop.srcRow (V0 (Proc.devRef .tc main_arg1))))))
      (broadcastInDim S1600000x32 ![0, 1] bcast_S1600000x1_S1600000x32_0_1
        (broadcastInDim S1600000x1 ![0] bcast_S1600000_S1600000x1_0 (V0 (Proc.devRef .tc main_arg2)))) := by
  unfold val2
  simp only [part1]
  after_results_simp
  simp only [val1_main_v1, val1_main_v3, val1_main_v43, val1_main_v46, val1_main_v50, val1_main_cst_6, val1_main_arg2, val1_main_arg5, val1_main_arg6, val1_main_arg7]
  rfl

set_option maxRecDepth 8192 in
set_option maxHeartbeats 2000000 in
theorem val2_main_v100 (V0 : Valuation τ sig (Elt F)) : val2 V0 (no_index (Proc.devRef .tc main_v100)) = broadcastInDim S100000x32 ![] bcast_S_S100000x32 (constant S_ .f32 0x00000000#32) := by
  unfold val2
  simp only [part1]
  after_results_simp

set_option maxRecDepth 8192 in
set_option maxHeartbeats 2000000 in
theorem val2_main_v101 (V0 : Valuation τ sig (Elt F)) : val2 V0 (no_index (Proc.devRef .tc main_v101)) = broadcastInDim S1600000x1 ![0] bcast_S1600000_S1600000x1_0 (Cert.Hop.dstRow (V0 (Proc.devRef .tc main_arg1))) := by
  unfold val2
  simp only [part1]
  after_results_simp
  simp only [val1_main_v3]

/-- The buffers the operations of this window write. -/
abbrev part2_W : List (Ref sig .tc) := [main_v102, main_v103, main_v104, main_v105, main_v106, main_v107, main_v108, main_v109, main_cst_16, main_v110, main_cst_17, main_v111, main_v112, main_v113, main_v114, main_v115, main_v116, main_cst_18, main_v117, main_cst_19, main_v118, main_v119, main_v120, main_v121, main_v122, main_cst_20, main_v123, main_v124, main_v125, main_v126, main_v127, main_v128, main_v129, main_v130, main_v131, main_v132, main_v133, main_v134, main_cst_21, main_call1_cst, main_call1_v0, main_call1_v1, main_call1_v2, main_call1_v3, main_call1_v4, main_v135]
set_option maxRecDepth 8192 in
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val3_keep (V0 : Valuation τ sig (Elt F)) (r : Ref sig .tc) (h : r ∉ part2_W) :
    val3 V0 (Proc.devRef .tc r) = val2 V0 (Proc.devRef .tc r) :=
  after_of_writes_sub part2 _ part2_writes h

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)

set_option maxRecDepth 8192 in
set_option maxHeartbeats 6000000 in
theorem val3_main_v135 (V0 : Valuation τ sig (Elt F)) : val3 V0 (no_index (Proc.devRef .tc main_v135)) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  simp only [part2]
  after_results_simp
  simp only [val2_main_v89, val2_main_v99, val2_main_v100, val2_main_v101, val2_main_arg7, val2_main_arg8, val2_main_arg9, val2_main_arg10]
  rfl

theorem after_ops (V0 : Valuation τ sig (Elt F)) : after ops V0 = val3 V0 := by
  simp only [ops, after_append]
  rfl

/-! ## The run -/

set_option maxRecDepth 8192 in
/-- On every device, from any memory with zero counters: every weakly fair execution of the reference terminates with its
    result at `refOut` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v135).trans (by simp only [after_ops]; exact val3_main_v135 (launchContents m c)),
      (h c main_arg0).trans (by simp only [after_ops]; exact val3_main_arg0 (launchContents m c)),
      (h c main_arg1).trans (by simp only [after_ops]; exact val3_main_arg1 (launchContents m c)),
      (h c main_arg2).trans (by simp only [after_ops]; exact val3_main_arg2 (launchContents m c)),
      (h c main_arg3).trans (by simp only [after_ops]; exact val3_main_arg3 (launchContents m c)),
      (h c main_arg4).trans (by simp only [after_ops]; exact val3_main_arg4 (launchContents m c)),
      (h c main_arg5).trans (by simp only [after_ops]; exact val3_main_arg5 (launchContents m c)),
      (h c main_arg6).trans (by simp only [after_ops]; exact val3_main_arg6 (launchContents m c)),
      (h c main_arg7).trans (by simp only [after_ops]; exact val3_main_arg7 (launchContents m c)),
      (h c main_arg8).trans (by simp only [after_ops]; exact val3_main_arg8 (launchContents m c)),
      (h c main_arg9).trans (by simp only [after_ops]; exact val3_main_arg9 (launchContents m c)),
      (h c main_arg10).trans (by simp only [after_ops]; exact val3_main_arg10 (launchContents m c))⟩)
    (run_seq scopedRefs_eq scopedSems_eq defs main (fun _ => ops) main_eq (fun _ => ops_sub) m ρ)

end Cert.ReferenceIdeal.Hand

end
-- ==== Proof.RefValue.lean ====
/-
  The reference's composed term, read entry by entry at the extended reals, is the specification's two-layer network
  with the mean-squared-deviation variance: each stage at an entry (p, c) is the specification's formula — a matrix
  product the sum over the contracted coordinate, a column sum the sum over the rows from zero, a broadcast the value
  it repeats, the comparison-and-select the case split of the rectifier.
-/
import proofs.«101999_j28329604284662_1_alg».proof.Proof.RefRun
import proofs.«101999_j28329604284662_1_alg».proof.Proof.LibPlainDot
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx
open Cert.Arr (toMat toRow toWts ofMat)

/-! ## The small pieces at an entry -/

theorem wMat0_apply (w : (⟨S3x32x32, .f32⟩ : BufTy).Contents (Elt Ideal)) (j c : Fin 32) : wMat0 (F := Ideal) w (ix2 j c) = w (ix3 (0 : Fin 3) j c) := by
  unfold wMat0
  refine (shapeCast_1ab_ab_apply _ _ j c).trans ?_
  exact extractStridedSlice_apply _ _ _ _ _ fun a => match a with
    | ⟨0, _⟩ => rfl
    | ⟨1, _⟩ => by show j.val = 0 + j.val; omega
    | ⟨2, _⟩ => by show c.val = 0 + c.val; omega

theorem wMat1_apply (w : (⟨S3x32x32, .f32⟩ : BufTy).Contents (Elt Ideal)) (j c : Fin 32) : wMat1 (F := Ideal) w (ix2 j c) = w (ix3 (1 : Fin 3) j c) := by
  unfold wMat1
  refine (shapeCast_1ab_ab_apply _ _ j c).trans ?_
  exact extractStridedSlice_apply _ _ _ _ _ fun a => match a with
    | ⟨0, _⟩ => rfl
    | ⟨1, _⟩ => by show j.val = 0 + j.val; omega
    | ⟨2, _⟩ => by show c.val = 0 + c.val; omega

theorem wMat2_apply (w : (⟨S3x32x32, .f32⟩ : BufTy).Contents (Elt Ideal)) (j c : Fin 32) : wMat2 (F := Ideal) w (ix2 j c) = w (ix3 (2 : Fin 3) j c) := by
  unfold wMat2
  refine (shapeCast_1ab_ab_apply _ _ j c).trans ?_
  exact extractStridedSlice_apply _ _ _ _ _ fun a => match a with
    | ⟨0, _⟩ => rfl
    | ⟨1, _⟩ => by show j.val = 0 + j.val; omega
    | ⟨2, _⟩ => by show c.val = 0 + c.val; omega

/-- A per-feature value repeated down the rows reads that value. -/
theorem rowB_apply (r : (⟨S32, .f32⟩ : BufTy).Contents (Elt Ideal)) (p : Fin 100000) (c : Fin 32) : rowB (F := Ideal) r (ix2 p c) = r (ix1 c) := by
  unfold rowB
  refine (broadcastInDim_apply _ _ _ (ix2 p c) (ix2 (0 : Fin 1) c) fun a => match a with
    | ⟨0, _⟩ => rfl
    | ⟨1, _⟩ => rfl).trans ?_
  exact broadcastInDim_apply _ _ _ (ix2 (0 : Fin 1) c) (ix1 c) fun a => match a with
    | ⟨0, _⟩ => rfl

/-- The product with a 32×32 matrix at an entry: the sum over the contracted coordinate. -/
theorem dot_apply (x : (⟨S100000x32, .f32⟩ : BufTy).Contents (Elt Ideal)) (w : (⟨S32x32, .f32⟩ : BufTy).Contents (Elt Ideal)) (p : Fin 100000) (c : Fin 32) :
    dot (F := Ideal) x w (ix2 p c) = ∑ j : Fin 32, x (ix2 p j) * w (ix2 j c) := by
  unfold dot
  exact PlainDot.dotGeneral_apply dot_S100000x32_S32x32_S100000x32_1_0_0_1_n_n none rfl rfl
    (fun _ _ => rfl)
    (fun i q => DotDims.lhsIdx_val_of_single _ (cl := (1 : Fin 2)) rfl i q)
    (fun i q => DotDims.rhsIdx_val_of_single _ (cr := (0 : Fin 2)) rfl i q)
    (fun _ _ => rfl) x w p c

/-! ## The stages as the specification's -/

/-- The pre-activation is the specification's `conv`. -/
theorem zOf_toMat (x h1 h2 : (⟨S100000x32, .f32⟩ : BufTy).Contents (Elt Ideal)) (w : (⟨S3x32x32, .f32⟩ : BufTy).Contents (Elt Ideal)) (b : (⟨S32, .f32⟩ : BufTy).Contents (Elt Ideal)) :
    toMat (zOf (F := Ideal) x h1 h2 w b) = Cert.Spec.conv (toMat x) (toMat h1) (toMat h2) (toWts w) (toRow b) := by
  funext p c
  show zOf (F := Ideal) x h1 h2 w b (ix2 p c) = _
  unfold zOf Cert.Spec.conv
  rw [addf_apply, addf_apply, addf_apply, dot_apply, dot_apply, dot_apply, rowB_apply]
  simp only [wMat0_apply, wMat1_apply, wMat2_apply]
  rfl

/-- The row count repeated per feature reads the row count. -/
theorem nRowsB_apply (c : Fin 32) : nRowsB (F := Ideal) (ix1 c) = Cert.Spec.nRows := by
  unfold nRowsB
  rw [broadcastInDim_scalar_apply, constant_apply]

/-- A column sum from zero, at a feature: the sum down the rows. -/
theorem colSum_apply (z : (⟨S100000x32, .f32⟩ : BufTy).Contents (Elt Ideal)) (c : Fin 32) :
    Host.reduceAdd z (constant (F := Ideal) S_ .f32 0x00000000#32) reducesTo_S100000x32_S32_d0 h_S_ (ix1 c)
      = ∑ p : Fin 100000, z (ix2 p c) := by
  have h : S100000x32.Reduces [0] S32 := by decide
  rw [hostReduceAdd_apply, constant_apply, Ideal.ofBits_zero_f32]
  refine (Ideal.hostReduceAdd_single _ h _ _ _).trans ?_
  rw [zero_add]
  exact Finset.sum_congr rfl fun k _ => congrArg z (funext fun a => match a with
    | ⟨0, _⟩ => rfl
    | ⟨1, _⟩ => rfl)

/-- The column mean is the specification's. -/
theorem colMean_toRow (z : (⟨S100000x32, .f32⟩ : BufTy).Contents (Elt Ideal)) : toRow (colMean (F := Ideal) z) = Cert.Spec.mean (toMat z) := by
  funext c
  show colMean (F := Ideal) z (ix1 c) = _
  unfold colMean Cert.Spec.mean
  rw [hostDivf_apply, colSum_apply, nRowsB_apply]
  rfl

/-- The squared deviation at an entry. -/
theorem devSq_apply (z : (⟨S100000x32, .f32⟩ : BufTy).Contents (Elt Ideal)) (p : Fin 100000) (c : Fin 32) :
    devSq (F := Ideal) z (ix2 p c)
      = (toMat z p c - Cert.Spec.mean (toMat z) c) * (toMat z p c - Cert.Spec.mean (toMat z) c) := by
  unfold devSq
  rw [mulf_apply, subf_apply, rowB_apply, ← colMean_toRow]
  rfl

/-- The column variance is the specification's mean squared deviation. -/
theorem colVar_toRow (z : (⟨S100000x32, .f32⟩ : BufTy).Contents (Elt Ideal)) : toRow (colVar (F := Ideal) z) = Cert.Spec.varDev (toMat z) := by
  funext c
  show colVar (F := Ideal) z (ix1 c) = _
  unfold colVar Cert.Spec.varDev
  rw [hostDivf_apply, colSum_apply, nRowsB_apply]
  simp only [devSq_apply]

/-- The host's reciprocal square root at an index is the extended reals' at the element. -/
theorem hostRsqrt_apply {s : Shape} {φ : FTy} (a : FVec Ideal s φ) (i : s.Idx) : Host.rsqrt a i = Ideal.rsqrt (a i) := rfl

/-- The normalised, scaled and shifted entry. -/
theorem normed_apply (z : (⟨S100000x32, .f32⟩ : BufTy).Contents (Elt Ideal)) (g be : (⟨S32, .f32⟩ : BufTy).Contents (Elt Ideal)) (p : Fin 100000) (c : Fin 32) :
    normed (F := Ideal) z g be (ix2 p c)
      = (toMat z p c - Cert.Spec.mean (toMat z) c) * Ideal.rsqrt (Cert.Spec.varDev (toMat z) c + Cert.Spec.eps) * toRow g c
        + toRow be c := by
  unfold normed
  rw [addf_apply, mulf_apply, mulf_apply, subf_apply, rowB_apply, rowB_apply, rowB_apply, rowB_apply,
    ← colMean_toRow, ← colVar_toRow]
  rw [hostRsqrt_apply, addf_apply, broadcastInDim_scalar_apply, constant_apply]
  rfl

/-- The rectifier at an entry: the case split on the sign. -/
theorem leaky_apply (n : (⟨S100000x32, .f32⟩ : BufTy).Contents (Elt Ideal)) (p : Fin 100000) (c : Fin 32) :
    leaky (F := Ideal) n (ix2 p c)
      = if Cert.Spec.zeroW ≤ n (ix2 p c) then n (ix2 p c) else Cert.Spec.slope * n (ix2 p c) := by
  unfold leaky
  rw [select_apply, cmpf_apply, mulf_apply, broadcastInDim_scalar_apply, broadcastInDim_scalar_apply, constant_apply,
    constant_apply, Ideal.cmpf_def]
  unfold Ideal.cmp
  by_cases h : Cert.Spec.zeroW ≤ n (ix2 p c)
  · rw [if_pos h]
    show Scalar.select (BitVec.ofBool (decide (Cert.Spec.zeroW ≤ n (ix2 p c)))) _ _ = _
    rw [decide_eq_true h]
    exact select_one _ _
  · rw [if_neg h]
    show Scalar.select (BitVec.ofBool (decide (Cert.Spec.zeroW ≤ n (ix2 p c)))) _ _ = _
    rw [decide_eq_false h]
    exact select_zero _ _

/-- Normalisation and rectifier together are the specification's `act`. -/
theorem act_toMat (z : (⟨S100000x32, .f32⟩ : BufTy).Contents (Elt Ideal)) (g be : (⟨S32, .f32⟩ : BufTy).Contents (Elt Ideal)) :
    toMat (leaky (F := Ideal) (normed (F := Ideal) z g be))
      = Cert.Spec.act (toMat z) (Cert.Spec.mean (toMat z)) (Cert.Spec.varDev (toMat z)) (toRow g) (toRow be) := by
  funext p c
  show leaky (F := Ideal) (normed (F := Ideal) z g be) (ix2 p c) = _
  rw [leaky_apply, normed_apply]
  rfl

/-- The neighbourhood-sum operator on a matrix read off an array is the array's neighbourhood sum read as a matrix. -/
theorem H_toMat (ei : (⟨S2x1600000, .i32⟩ : BufTy).Contents (Elt Ideal)) (ew : (⟨S1600000, .f32⟩ : BufTy).Contents (Elt Ideal)) (x : (⟨S100000x32, .f32⟩ : BufTy).Contents (Elt Ideal)) :
    Cert.Hop.H ei ew (toMat x) = toMat (Cert.Hop.hopV (F := Ideal) ei ew x) := by
  unfold Cert.Hop.H
  rw [Cert.Arr.ofMat_toMat]

/-- One layer is the specification's layer over the operator `H`. -/
theorem layer_toMat (ei : (⟨S2x1600000, .i32⟩ : BufTy).Contents (Elt Ideal)) (ew : (⟨S1600000, .f32⟩ : BufTy).Contents (Elt Ideal)) (x : (⟨S100000x32, .f32⟩ : BufTy).Contents (Elt Ideal)) (w : (⟨S3x32x32, .f32⟩ : BufTy).Contents (Elt Ideal)) (b g be : (⟨S32, .f32⟩ : BufTy).Contents (Elt Ideal)) :
    toMat (layer (F := Ideal) ei ew x w b g be)
      = Cert.Spec.layerDev (toMat x) (Cert.Hop.H ei ew (toMat x)) (Cert.Hop.H ei ew (Cert.Hop.H ei ew (toMat x)))
          (toWts w) (toRow b) (toRow g) (toRow be) := by
  unfold layer Cert.Spec.layerDev
  rw [H_toMat, H_toMat]
  generalize Cert.Hop.hopV (F := Ideal) ei ew x = h1
  generalize Cert.Hop.hopV (F := Ideal) ei ew h1 = h2
  rw [act_toMat, zOf_toMat]

/-- The reference's result, as a matrix, is the specification's network with the mean-squared-deviation variance. -/
theorem refOut_toMat (a0 : (⟨S100000x32, .f32⟩ : BufTy).Contents (Elt Ideal)) (a1 : (⟨S2x1600000, .i32⟩ : BufTy).Contents (Elt Ideal)) (a2 : (⟨S1600000, .f32⟩ : BufTy).Contents (Elt Ideal)) (a3 : (⟨S3x32x32, .f32⟩ : BufTy).Contents (Elt Ideal)) (a4 a5 a6 : (⟨S32, .f32⟩ : BufTy).Contents (Elt Ideal)) (a7 : (⟨S3x32x32, .f32⟩ : BufTy).Contents (Elt Ideal))
    (a8 a9 a10 : (⟨S32, .f32⟩ : BufTy).Contents (Elt Ideal)) :
    toMat (refOut (F := Ideal) a0 a1 a2 a3 a4 a5 a6 a7 a8 a9 a10)
      = Cert.Spec.netDev (Cert.Hop.H a1 a2) (toMat a0) (toWts a3) (toRow a4) (toRow a5) (toRow a6) (toWts a7) (toRow a8)
          (toRow a9) (toRow a10) := by
  unfold refOut Cert.Spec.netDev
  rw [layer_toMat, layer_toMat]

end Cert.ReferenceIdeal.Hand

end
-- ==== Proof.SpecLaws.lean ====
/-
  Laws of the shared specification, over the extended reals, with no program in sight.

  * the three printed words denote the reals 100000, a positive number, a real number, and zero;
  * on finite (real-valued) entries the two variance formulas agree:
      (Σ z²)/n − ((Σ z)/n)² = (Σ (z − (Σ z)/n)²)/n   when n is the number of summands;
  * finiteness is preserved by every stage (sums of products, mean, normalisation, rectifier),
    because the mean squared deviation is a nonnegative real, the guard ε a positive real, and the
    reciprocal square root of a positive real is a real;
  * hence one layer, and the two-layer network, are the same function with either variance.
-/
import proofs.«101999_j28329604284662_1_alg».proof.Proof.Spec
import Mathlib.Tactic

noncomputable section

namespace Cert.Spec

open Idealize.ShloMosaic

/-! ### The printed words -/

/-- The word 0x47C35000 is 2⁻⁷ · (2²³ + 4411392) = 100000. -/
theorem nRows_eq : nRows = ((100000 : ℝ) : EReal) := by
  simp [Ideal.ofBits, Ideal.ieee, -EReal.coe_mul]; norm_num

/-- The word 0x3727C5AC is a normal positive number. -/
theorem eps_pos : ∃ e : ℝ, 0 < e ∧ eps = (e : EReal) := by
  refine ⟨(1 * ((2 ^ 23 + 2606508 : ℕ) : ℝ) * (2 : ℝ) ^ ((110 : ℤ) - 127 - 23)), by positivity, ?_⟩
  simp [Ideal.ofBits, Ideal.ieee, -EReal.coe_mul]

/-- The word 0x3C23D70A is a normal number. -/
theorem slope_real : ∃ s : ℝ, slope = (s : EReal) := by
  refine ⟨(1 * ((2 ^ 23 + 2348810 : ℕ) : ℝ) * (2 : ℝ) ^ ((120 : ℤ) - 127 - 23)), ?_⟩
  simp [Ideal.ofBits, Ideal.ieee, -EReal.coe_mul]

/-- The all-zero word is zero. -/
theorem zeroW_eq : zeroW = 0 := by
  simp [Ideal.ofBits, Ideal.ieee]

/-! ### Real-valued entries -/

/-- The coercion of reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array with no infinite entry is the coercion of a real array. -/
private theorem mat_lift {z : Mat} (hz : MatFinite z) :
    ∃ r : Fin 100000 → Fin 32 → ℝ, z = fun p c => ((r p c : ℝ) : EReal) :=
  ⟨fun p c => (z p c).toReal, by
    funext p c; exact (EReal.coe_toReal (hz p c).1 (hz p c).2).symm⟩

/-- A coerced real array has no infinite entry. -/
private theorem matFinite_coe (r : Fin 100000 → Fin 32 → ℝ) :
    MatFinite (fun p c => ((r p c : ℝ) : EReal)) :=
  fun p c => ⟨EReal.coe_ne_top _, EReal.coe_ne_bot _⟩

/-- The column mean of a real array is the real mean. -/
private theorem mean_coe (r : Fin 100000 → Fin 32 → ℝ) (c : Fin 32) :
    mean (fun p c => ((r p c : ℝ) : EReal)) c = (((∑ p, r p c) / 100000 : ℝ) : EReal) := by
  unfold mean
  rw [nRows_eq, Ideal.div_coe (by norm_num), ← coe_sum, ← EReal.coe_mul]
  congr 1
  ring

/-- Over the reals, with n the number of summands: mean of squares minus squared mean is the mean
    squared deviation. Expand the square and use Σ_p μ = n·μ. -/
private theorem real_var_id {n : ℕ} (hn : (n : ℝ) ≠ 0) (f : Fin n → ℝ) :
    (∑ p, f p * f p) / n - (∑ p, f p) / n * ((∑ p, f p) / n)
      = (∑ p, (f p - (∑ q, f q) / n) * (f p - (∑ q, f q) / n)) / n := by
  set m : ℝ := (∑ q, f q) / n with hm
  have hS : ∑ q, f q = n * m := by rw [hm]; field_simp
  have h : ∑ p, (f p - m) * (f p - m) = ∑ p, f p * f p - 2 * m * ∑ p, f p + n * (m * m) := by
    have e : ∀ p, (f p - m) * (f p - m) = f p * f p - 2 * m * f p + m * m := fun p => by ring
    simp only [e, Finset.sum_add_distrib, Finset.sum_sub_distrib, ← Finset.mul_sum,
      Finset.sum_const, Finset.card_univ, Fintype.card_fin, nsmul_eq_mul]
    ring
  rw [h, hS]
  field_simp
  ring

/-- The mean-of-squares variance of a real array, as a real. -/
private theorem varSq_coe (r : Fin 100000 → Fin 32 → ℝ) (c : Fin 32) :
    varSq (fun p c => ((r p c : ℝ) : EReal)) c
      = (((∑ p, r p c * r p c) / 100000
          - (∑ p, r p c) / 100000 * ((∑ p, r p c) / 100000) : ℝ) : EReal) := by
  unfold varSq
  rw [mean_coe, nRows_eq, Ideal.div_coe (by norm_num)]
  simp only [← EReal.coe_mul]
  rw [← coe_sum, ← EReal.coe_mul, ← EReal.coe_sub]
  congr 1
  ring

/-- The mean squared deviation of a real array, as a real. -/
private theorem varDev_coe (r : Fin 100000 → Fin 32 → ℝ) (c : Fin 32) :
    varDev (fun p c => ((r p c : ℝ) : EReal)) c
      = (((∑ p, (r p c - (∑ q, r q c) / 100000) * (r p c - (∑ q, r q c) / 100000)) / 100000 : ℝ)
          : EReal) := by
  unfold varDev
  rw [mean_coe, nRows_eq, Ideal.div_coe (by norm_num)]
  simp only [← EReal.coe_sub, ← EReal.coe_mul]
  rw [← coe_sum, ← EReal.coe_mul]
  congr 1
  ring

/-- On finite entries the two variances are one number. -/
theorem varSq_eq_varDev {z : Mat} (hz : MatFinite z) : varSq z = varDev z := by
  obtain ⟨r, rfl⟩ := mat_lift hz
  funext c
  rw [varSq_coe, varDev_coe]
  congr 1
  have h := real_var_id (n := 100000) (by norm_num) (fun p => r p c)
  simpa using h

/-! ### Finiteness is preserved -/

/-- Being (the coercion of) a real number. -/
private def IsR (x : EReal) : Prop := ∃ r : ℝ, x = (r : EReal)

private theorem IsR.of_finite {x : EReal} (h : x ≠ ⊤ ∧ x ≠ ⊥) : IsR x :=
  ⟨x.toReal, (EReal.coe_toReal h.1 h.2).symm⟩

private theorem IsR.finite {x : EReal} (h : IsR x) : x ≠ ⊤ ∧ x ≠ ⊥ := by
  obtain ⟨r, rfl⟩ := h
  exact ⟨EReal.coe_ne_top _, EReal.coe_ne_bot _⟩

private theorem IsR.add {x y : EReal} (hx : IsR x) (hy : IsR y) : IsR (x + y) := by
  obtain ⟨a, rfl⟩ := hx
  obtain ⟨b, rfl⟩ := hy
  exact ⟨a + b, (EReal.coe_add a b).symm⟩

private theorem IsR.sub {x y : EReal} (hx : IsR x) (hy : IsR y) : IsR (x - y) := by
  obtain ⟨a, rfl⟩ := hx
  obtain ⟨b, rfl⟩ := hy
  exact ⟨a - b, (EReal.coe_sub a b).symm⟩

private theorem IsR.mul {x y : EReal} (hx : IsR x) (hy : IsR y) : IsR (x * y) := by
  obtain ⟨a, rfl⟩ := hx
  obtain ⟨b, rfl⟩ := hy
  exact ⟨a * b, (EReal.coe_mul a b).symm⟩

private theorem IsR.sum {ι : Type*} (s : Finset ι) (f : ι → EReal) (h : ∀ i ∈ s, IsR (f i)) :
    IsR (∑ i ∈ s, f i) :=
  Finset.sum_induction f IsR (fun _ _ => IsR.add) ⟨0, rfl⟩ h

/-- The reciprocal square root of a positive real is a real. -/
private theorem isR_rsqrt_pos {r : ℝ} (hr : 0 < r) : IsR (Ideal.rsqrt (r : EReal)) := by
  rw [Ideal.rsqrt_coe, if_neg (not_lt.mpr hr.le), if_neg hr.ne']
  exact ⟨_, rfl⟩

/-- Sums of products of finite entries, plus a finite bias, are finite. -/
theorem conv_finite {x h1 h2 : Mat} {W : Wts} {b : Row} (hx : MatFinite x) (hh1 : MatFinite h1)
    (hh2 : MatFinite h2) (hW : WtsFinite W) (hb : RowFinite b) : MatFinite (conv x h1 h2 W b) := by
  intro p c
  apply IsR.finite
  unfold conv
  refine IsR.add (IsR.add (IsR.add ?_ ?_) ?_) (IsR.of_finite (hb c))
  · exact IsR.sum _ _ fun j _ => IsR.mul (IsR.of_finite (hx p j)) (IsR.of_finite (hW 0 j c))
  · exact IsR.sum _ _ fun j _ => IsR.mul (IsR.of_finite (hh1 p j)) (IsR.of_finite (hW 1 j c))
  · exact IsR.sum _ _ fun j _ => IsR.mul (IsR.of_finite (hh2 p j)) (IsR.of_finite (hW 2 j c))

/-- The column mean of a finite array is finite. -/
private theorem mean_finite {z : Mat} (hz : MatFinite z) : RowFinite (mean z) := by
  obtain ⟨r, rfl⟩ := mat_lift hz
  intro c
  rw [mean_coe]
  exact ⟨EReal.coe_ne_top _, EReal.coe_ne_bot _⟩

/-- The mean squared deviation of a finite array is a nonnegative real. -/
private theorem varDev_nonneg {z : Mat} (hz : MatFinite z) :
    ∀ c, ∃ v : ℝ, 0 ≤ v ∧ varDev z c = (v : EReal) := by
  obtain ⟨r, rfl⟩ := mat_lift hz
  intro c
  exact ⟨_, div_nonneg (Finset.sum_nonneg fun _ _ => mul_self_nonneg _) (by norm_num),
    varDev_coe r c⟩

/-- Normalisation with a finite mean, a nonnegative real variance, finite scale and shift, followed
    by the rectifier, keeps every entry finite: variance plus guard is a positive real, so its
    reciprocal square root is a real, and either branch of the rectifier is a product of reals. -/
theorem act_finite {z : Mat} {mu var g be : Row} (hz : MatFinite z) (hmu : RowFinite mu)
    (hvar : ∀ c, ∃ v : ℝ, 0 ≤ v ∧ var c = (v : EReal)) (hg : RowFinite g) (hbe : RowFinite be) :
    MatFinite (act z mu var g be) := by
  intro p c
  apply IsR.finite
  obtain ⟨v, hv, hvc⟩ := hvar c
  obtain ⟨e, he, hee⟩ := eps_pos
  obtain ⟨s, hs⟩ := slope_real
  have hrs : IsR (Ideal.rsqrt (var c + eps)) := by
    rw [hvc, hee, ← EReal.coe_add]
    exact isR_rsqrt_pos (by linarith)
  have hn : IsR ((z p c - mu c) * Ideal.rsqrt (var c + eps) * g c + be c) :=
    IsR.add (IsR.mul (IsR.mul (IsR.sub (IsR.of_finite (hz p c)) (IsR.of_finite (hmu c))) hrs)
      (IsR.of_finite (hg c))) (IsR.of_finite (hbe c))
  unfold act
  split
  · exact hn
  · exact IsR.mul ⟨s, hs⟩ hn

/-! ### One layer, two layers -/

/-- One layer is the same function with either variance. -/
theorem layer_eq {x h1 h2 : Mat} {W : Wts} {b : Row} (g be : Row) (hx : MatFinite x)
    (hh1 : MatFinite h1) (hh2 : MatFinite h2) (hW : WtsFinite W) (hb : RowFinite b) :
    layerSq x h1 h2 W b g be = layerDev x h1 h2 W b g be := by
  unfold layerSq layerDev
  rw [varSq_eq_varDev (conv_finite hx hh1 hh2 hW hb)]

/-- One layer maps finite data to finite data. -/
theorem layerDev_finite {x h1 h2 : Mat} {W : Wts} {b g be : Row} (hx : MatFinite x)
    (hh1 : MatFinite h1) (hh2 : MatFinite h2) (hW : WtsFinite W) (hb : RowFinite b)
    (hg : RowFinite g) (hbe : RowFinite be) : MatFinite (layerDev x h1 h2 W b g be) := by
  have hc := conv_finite hx hh1 hh2 hW hb
  unfold layerDev
  exact act_finite hc (mean_finite hc) (varDev_nonneg hc) hg hbe

/-- The two-layer network is the same function with either variance: the first layers agree, their
    common output is finite, so the second layers agree. -/
theorem net_eq (H : Mat → Mat) (hH : ∀ x, MatFinite x → MatFinite (H x)) {y : Mat} {W1 : Wts}
    {b1 g1 be1 : Row} {W2 : Wts} {b2 : Row} (g2 be2 : Row) (hy : MatFinite y) (hW1 : WtsFinite W1)
    (hb1 : RowFinite b1) (hg1 : RowFinite g1) (hbe1 : RowFinite be1) (hW2 : WtsFinite W2)
    (hb2 : RowFinite b2) :
    netSq H y W1 b1 g1 be1 W2 b2 g2 be2 = netDev H y W1 b1 g1 be1 W2 b2 g2 be2 := by
  have hHy := hH y hy
  have hHHy := hH _ hHy
  have hl : MatFinite (layerDev y (H y) (H (H y)) W1 b1 g1 be1) :=
    layerDev_finite hy hHy hHHy hW1 hb1 hg1 hbe1
  unfold netSq netDev
  rw [layer_eq g1 be1 hy hHy hHHy hW1 hb1]
  exact layer_eq g2 be2 hl (hH _ hl) (hH _ (hH _ hl)) hW2 hb2

end Cert.Spec

end
-- ==== Proof.HopLaws.lean ====
/-
  The weighted neighbourhood sum keeps arrays finite. At the extended reals every element of the result is zero plus a
  finite sum of products, each product an element of the input array (a gather only reads its operand) times an edge
  weight. With the input and the weights finite, every product is a real number, a finite sum of real numbers is a
  real number, and so is zero plus it. Where an update lands plays no part: only that every summand is finite.
-/
import proofs.«101999_j28329604284662_1_alg».proof.Proof.HopDef
import Idealize.ShloMosaic.Lib.ValueIdx
import Idealize.ShloMosaic.PureOps.Ideal.Laws

noncomputable section

namespace Cert.Hop

open Idealize.ShloMosaic Cert.ReferenceIdeal Cert.ReferenceIdeal.Facts₀ Idealize.ShloMosaic.ValueIdx

variable [Cert.ReferenceIdeal.Facts]

/-- A finite sum of extended reals none of which is infinite is not infinite. -/
theorem sum_finite {ι : Type*} (s : Finset ι) (f : ι → EReal) (h : ∀ j ∈ s, f j ≠ ⊤ ∧ f j ≠ ⊥) :
    (∑ j ∈ s, f j) ≠ ⊤ ∧ (∑ j ∈ s, f j) ≠ ⊥ := by
  classical
  induction s using Finset.induction_on with
  | empty => simp
  | insert a s ha ih =>
    rw [Finset.sum_insert ha]
    have h1 := h a (Finset.mem_insert_self a s)
    have h2 := ih (fun j hj => h j (Finset.mem_insert_of_mem hj))
    exact ⟨EReal.add_ne_top h1.1 h2.1, EReal.add_ne_bot_iff.2 ⟨h1.2, h2.2⟩⟩

/-- The product of two real numbers is a real number. -/
theorem mul_finite {a b : EReal} (ha : a ≠ ⊤ ∧ a ≠ ⊥) (hb : b ≠ ⊤ ∧ b ≠ ⊥) : a * b ≠ ⊤ ∧ a * b ≠ ⊥ := by
  lift a to ℝ using ⟨ha.1, ha.2⟩
  lift b to ℝ using ⟨hb.1, hb.2⟩
  rw [← EReal.coe_mul]
  exact ⟨EReal.coe_ne_top _, EReal.coe_ne_bot _⟩

/-- At the extended reals an accumulating scatter of finite updates onto a finite operand element is finite there. -/
theorem scatterAdd_finite (d : ScatterDims S100000x32 S1600000x1 S1600000x32) {w : Nat}
    (x : S100000x32.Idx → EReal) (idx : IVec S1600000x1 w) (upd : S1600000x32.Idx → EReal)
    (i : S100000x32.Idx) (hx : x i ≠ ⊤ ∧ x i ≠ ⊥) (hu : ∀ j, upd j ≠ ⊤ ∧ upd j ≠ ⊥) :
    Ideal.hostScatterAdd d x idx upd i ≠ ⊤ ∧ Ideal.hostScatterAdd d x idx upd i ≠ ⊥ := by
  have hs := sum_finite (Finset.univ.filter (fun j => d.resultIdx? j idx = some i)) upd (fun j _ => hu j)
  exact ⟨EReal.add_ne_top hx.1 hs.1, EReal.add_ne_bot_iff.2 ⟨hx.2, hs.2⟩⟩

/-- The same for the host operation the programs print, which at the extended reals is that sum. -/
theorem hostScatterAdd_finite (d : ScatterDims S100000x32 S1600000x1 S1600000x32) {w : Nat}
    (x : FVec Ideal S100000x32 .f32) (idx : IVec S1600000x1 w) (upd : FVec Ideal S1600000x32 .f32)
    (i : S100000x32.Idx) (hx : x i ≠ ⊤ ∧ x i ≠ ⊥) (hu : ∀ j, upd j ≠ ⊤ ∧ upd j ≠ ⊥) :
    Host.scatterAdd d x idx upd i ≠ ⊤ ∧ Host.scatterAdd d x idx upd i ≠ ⊥ :=
  scatterAdd_finite d x idx upd i hx hu

/-- A gather's every element is an element of its operand. -/
theorem gather_finite {w : Nat} (d : GatherDims S100000x32 S1600000x1 S1600000x32) (x : S100000x32.Idx → EReal)
    (idx : IVec S1600000x1 w) (hx : ∀ i, x i ≠ ⊤ ∧ x i ≠ ⊥) (j : S1600000x32.Idx) :
    Host.gather d x idx j ≠ ⊤ ∧ Host.gather d x idx j ≠ ⊥ :=
  hx (d.operandIdx j idx)

/-- A broadcast's every element is an element of its operand. -/
theorem bcast_finite {s t : Shape} (dims : Fin s.rank → Fin t.rank) (h : s.BroadcastsInDim t dims) (x : s.Idx → EReal)
    (hx : ∀ i, x i ≠ ⊤ ∧ x i ≠ ⊥) (j : t.Idx) :
    broadcastInDim t dims h x j ≠ ⊤ ∧ broadcastInDim t dims h x j ≠ ⊥ :=
  hx _

/-- An elementwise product of finite arrays is finite. -/
theorem mulf_finite (a b : FVec Ideal S1600000x32 .f32) (j : S1600000x32.Idx) (ha : a j ≠ ⊤ ∧ a j ≠ ⊥)
    (hb : b j ≠ ⊤ ∧ b j ≠ ⊥) : mulf a b j ≠ ⊤ ∧ mulf a b j ≠ ⊥ := by
  rw [mulf_apply]
  exact mul_finite ha hb

/-- The zero array is finite. -/
theorem zeros_finite (h : S_.BroadcastsInDim S100000x32 (![] : Fin 0 → Fin S100000x32.rank)) (i : S100000x32.Idx) :
    broadcastInDim S100000x32 ![] h (constant (F := Ideal) S_ .f32 0x00000000#32) i ≠ ⊤ ∧
      broadcastInDim S100000x32 ![] h (constant (F := Ideal) S_ .f32 0x00000000#32) i ≠ ⊥ := by
  refine bcast_finite _ h _ (fun k => ?_) i
  rw [constant_apply, Ideal.ofBits_zero_f32]
  exact ⟨EReal.zero_ne_top, EReal.zero_ne_bot⟩

/-- The neighbourhood sum of a finite array under finite weights is finite: zero plus a sum of products of an element of
    the array with a weight. -/
theorem hopV_finite (ei : (⟨S2x1600000, .i32⟩ : BufTy).Contents (Elt Ideal)) (ew : (⟨S1600000, .f32⟩ : BufTy).Contents (Elt Ideal))
    (hew : ∀ e, ew e ≠ ⊤ ∧ ew e ≠ ⊥) (v : (⟨S100000x32, .f32⟩ : BufTy).Contents (Elt Ideal)) (hv : ∀ i, v i ≠ ⊤ ∧ v i ≠ ⊥)
    (i : S100000x32.Idx) : hopV (F := Ideal) ei ew v i ≠ ⊤ ∧ hopV (F := Ideal) ei ew v i ≠ ⊥ := by
  refine hostScatterAdd_finite _ _ _ _ i (zeros_finite _ i) (fun j => ?_)
  refine mulf_finite _ _ j (gather_finite _ v _ hv j) ?_
  exact bcast_finite _ _ _ (bcast_finite _ _ ew hew) j

/-- An array all of whose elements are finite reads as a finite matrix. -/
theorem toMat_finite (v : Cert.Arr.A2.Idx → EReal) (hv : ∀ i, v i ≠ ⊤ ∧ v i ≠ ⊥) : Cert.Spec.MatFinite (Cert.Arr.toMat v) :=
  fun p c => hv (ix2 p c)

/-- The neighbourhood-sum operator maps finite matrices to finite matrices when the edge weights are finite. -/
theorem H_finite (ei : (⟨Cert.ReferenceIdeal.S2x1600000, .i32⟩ : BufTy).Contents (Elt Ideal))
    (ew : (⟨Cert.ReferenceIdeal.S1600000, .f32⟩ : BufTy).Contents (Elt Ideal))
    (hew : ∀ e, ew e ≠ ⊤ ∧ ew e ≠ ⊥) {x : Cert.Spec.Mat} (hx : Cert.Spec.MatFinite x) : Cert.Spec.MatFinite (H ei ew x) :=
  toMat_finite (hopV (F := Ideal) ei ew (Cert.Arr.ofMat x))
    (hopV_finite ei ew hew (Cert.Arr.ofMat x) (fun i => hx (i 0) (i 1)))

end Cert.Hop

end
-- ==== Proof.PreFinite.lean ====
/-
  The certificate's precondition, read. The predicate tests, for each of the ten float arguments, that every element's
  absolute value is below plus infinity, and joins the ten answers by "and". At the extended reals the absolute value of x
  is max x (-x), which is plus infinity exactly when x is plus or minus infinity; so the predicate answering true says
  that every element of every float argument is a real number. Each test is read at one symbolic index.
-/
import proofs.«101999_j28329604284662_1_alg».proof.Defs
import proofs.«101999_j28329604284662_1_alg».proof.Proof.Gen.Pre_finite_inputs
import proofs.«101999_j28329604284662_1_alg».proof.Proof.Arr
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx Cert.Pre_finite_inputs Cert.Pre_finite_inputs.Facts

variable [Cert.Pre_finite_inputs.Facts]

/-- The rank-zero shape has one index. -/
local instance subsingleton_S_ : Subsingleton S_.Idx := ⟨fun a b => funext fun d => d.elim0⟩

/-- The word the predicate compares against is plus infinity. -/
theorem inf_word : Ideal.ofBits .f32 0x7F800000#32 = ⊤ := by simp [Ideal.ofBits, Ideal.ieee]

/-- An extended real whose absolute value is below plus infinity is a real number. -/
theorem finite_of_abs_lt (x : EReal) (h : Ideal.cmp .olt (max x (-x)) (Ideal.ofBits .f32 0x7F800000#32) = 1#1) :
    x ≠ ⊤ ∧ x ≠ ⊥ := by
  rw [inf_word] at h
  have hlt : max x (-x) < ⊤ := by
    by_contra hn
    simp [Ideal.cmp, hn] at h
  constructor
  · rintro rfl
    simp at hlt
  · rintro rfl
    simp at hlt

/-- The predicate's test of one array: if the conjunction over all its elements of "absolute value below plus infinity"
    is true, every element is a real number. -/
theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : a i ≠ ⊤ ∧ a i ≠ ⊥ :=
  finite_of_abs_lt (a i) (Host.reduce_andi_all _ _ hr hu ix0 e i)

/-- A conjunction of two rank-zero truth values that is true has both true. -/
theorem andi_one {a b : IVec S_ 1} (h : andi a b ix0 = 1#1) : a ix0 = 1#1 ∧ b ix0 = 1#1 :=
  IntOp.andi_eq_one.1 h

/-- The printed predicate, read: when it answers true, each of its ten float arguments is finite everywhere. -/
theorem fn_finite (a0 : FVec Ideal S100000x32 .f32) (a1 : IVec S2x1600000 32) (a2 : FVec Ideal S1600000 .f32)
    (a3 : FVec Ideal S3x32x32 .f32) (a4 a5 a6 : FVec Ideal S32 .f32) (a7 : FVec Ideal S3x32x32 .f32)
    (a8 a9 a10 : FVec Ideal S32 .f32)
    (h : Cert.Pre_finite_inputs.fn (F := Ideal) a0 a1 a2 a3 a4 a5 a6 a7 a8 a9 a10 = (fun _ => 1#1)) :
    (∀ i, a0 i ≠ ⊤ ∧ a0 i ≠ ⊥) ∧ (∀ i, a2 i ≠ ⊤ ∧ a2 i ≠ ⊥) ∧ (∀ i, a3 i ≠ ⊤ ∧ a3 i ≠ ⊥) ∧ (∀ i, a4 i ≠ ⊤ ∧ a4 i ≠ ⊥)
      ∧ (∀ i, a5 i ≠ ⊤ ∧ a5 i ≠ ⊥) ∧ (∀ i, a6 i ≠ ⊤ ∧ a6 i ≠ ⊥) ∧ (∀ i, a7 i ≠ ⊤ ∧ a7 i ≠ ⊥) ∧ (∀ i, a8 i ≠ ⊤ ∧ a8 i ≠ ⊥)
      ∧ (∀ i, a9 i ≠ ⊤ ∧ a9 i ≠ ⊥) ∧ (∀ i, a10 i ≠ ⊤ ∧ a10 i ≠ ⊥) := by
  have h0 := congrFun h ix0
  dsimp only [Cert.Pre_finite_inputs.fn, Cert.Pre_finite_inputs.fn_part1, Cert.Pre_finite_inputs.fn_part2] at h0
  obtain ⟨h0, h10⟩ := andi_one h0
  obtain ⟨h0, h9⟩ := andi_one h0
  obtain ⟨h0, h8⟩ := andi_one h0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  exact ⟨all_finite a0 _ _ _ h0, all_finite a2 _ _ _ h2, all_finite a3 _ _ _ h3, all_finite a4 _ _ _ h4,
    all_finite a5 _ _ _ h5, all_finite a6 _ _ _ h6, all_finite a7 _ _ _ h7, all_finite a8 _ _ _ h8,
    all_finite a9 _ _ _ h9, all_finite a10 _ _ _ h10⟩

/-- An array all of whose elements are finite reads as a finite matrix, ... -/
theorem toMat_finite (v : Cert.Arr.A2.Idx → EReal) (hv : ∀ i, v i ≠ ⊤ ∧ v i ≠ ⊥) : Cert.Spec.MatFinite (Cert.Arr.toMat v) :=
  fun p c => hv (ix2 p c)
/-- ... as a finite row, ... -/
theorem toRow_finite (v : Cert.Arr.A1.Idx → EReal) (hv : ∀ i, v i ≠ ⊤ ∧ v i ≠ ⊥) : Cert.Spec.RowFinite (Cert.Arr.toRow v) :=
  fun c => hv (ix1 c)
/-- ... as finite weight matrices. -/
theorem toWts_finite (v : Cert.Arr.A3.Idx → EReal) (hv : ∀ i, v i ≠ ⊤ ∧ v i ≠ ⊥) : Cert.Spec.WtsFinite (Cert.Arr.toWts v) :=
  fun k j c => hv (ix3 k j c)

/-- The certificate's precondition, read: on every device each float argument of the kernel program is finite everywhere. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.MatFinite (Cert.Arr.toMat (m ((c.tc : Thread Cert.KernelIdeal.nD Cert.KernelIdeal.τ).loc Cert.KernelIdeal.main_arg0)))
    ∧ (∀ e : Cert.KernelIdeal.S1600000.Idx, Ne (α := EReal) ((m ((c.tc : Thread Cert.KernelIdeal.nD Cert.KernelIdeal.τ).loc Cert.KernelIdeal.main_arg2)) e) ⊤
          ∧ Ne (α := EReal) ((m ((c.tc : Thread Cert.KernelIdeal.nD Cert.KernelIdeal.τ).loc Cert.KernelIdeal.main_arg2)) e) ⊥)
    ∧ Cert.Spec.WtsFinite (Cert.Arr.toWts (m ((c.tc : Thread Cert.KernelIdeal.nD Cert.KernelIdeal.τ).loc Cert.KernelIdeal.main_arg3)))
    ∧ Cert.Spec.RowFinite (Cert.Arr.toRow (m ((c.tc : Thread Cert.KernelIdeal.nD Cert.KernelIdeal.τ).loc Cert.KernelIdeal.main_arg4)))
    ∧ Cert.Spec.RowFinite (Cert.Arr.toRow (m ((c.tc : Thread Cert.KernelIdeal.nD Cert.KernelIdeal.τ).loc Cert.KernelIdeal.main_arg5)))
    ∧ Cert.Spec.RowFinite (Cert.Arr.toRow (m ((c.tc : Thread Cert.KernelIdeal.nD Cert.KernelIdeal.τ).loc Cert.KernelIdeal.main_arg6)))
    ∧ Cert.Spec.WtsFinite (Cert.Arr.toWts (m ((c.tc : Thread Cert.KernelIdeal.nD Cert.KernelIdeal.τ).loc Cert.KernelIdeal.main_arg7)))
    ∧ Cert.Spec.RowFinite (Cert.Arr.toRow (m ((c.tc : Thread Cert.KernelIdeal.nD Cert.KernelIdeal.τ).loc Cert.KernelIdeal.main_arg8)))
    ∧ Cert.Spec.RowFinite (Cert.Arr.toRow (m ((c.tc : Thread Cert.KernelIdeal.nD Cert.KernelIdeal.τ).loc Cert.KernelIdeal.main_arg9)))
    ∧ Cert.Spec.RowFinite (Cert.Arr.toRow (m ((c.tc : Thread Cert.KernelIdeal.nD Cert.KernelIdeal.τ).loc Cert.KernelIdeal.main_arg10))) := by
  obtain ⟨h0, h2, h3, h4, h5, h6, h7, h8, h9, h10⟩ := fn_finite _ _ _ _ _ _ _ _ _ _ _ (h c)
  exact ⟨toMat_finite _ h0, h2, toWts_finite _ h3, toRow_finite _ h4, toRow_finite _ h5, toRow_finite _ h6,
    toWts_finite _ h7, toRow_finite _ h8, toRow_finite _ h9, toRow_finite _ h10⟩

end Cert.PreFinite

end
-- ==== Proof.lean ====
/-
  The certificate's five claims.

  The kernel program and the reference compute the same two-layer network on 100000 nodes of 32 features: in each layer
  z = x·W₀ + (A x)·W₁ + (A² x)·W₂ + b with A the weighted neighbourhood sum (gather the source rows, weight them,
  scatter-add them at the targets — the same host operations on both sides), then a batch normalisation of z over the
  rows followed by the leaky rectifier. The kernel accumulates the column sums of z and of z² block by block and takes
  the variance as (Σ z²)/n − ((Σ z)/n)²; the reference takes it as (Σ (z − μ)²)/n. With every entry of z a real number
  and n the number of rows these are one number, and z's entries are real because the inputs are (the precondition) and
  sums and products of reals are real; the first layer's output is real because its variance is a nonnegative real and
  the guard ε is positive, so the reciprocal square root is real. That is the algebraic claim. The three frames: the
  kernel program's run through its four regions and two stretches of host operations (at the word-level instance and
  at the extended reals, one text), and the reference's run of its host operations; the idealization rewrote nothing.
-/
import proofs.«101999_j28329604284662_1_alg».proof.Defs
import proofs.«101999_j28329604284662_1_alg».proof.Proof.KB.FrameArgs
import proofs.«101999_j28329604284662_1_alg».proof.Proof.KI.FrameArgs
import proofs.«101999_j28329604284662_1_alg».proof.Proof.KI.KValue
import proofs.«101999_j28329604284662_1_alg».proof.Proof.RefRun
import proofs.«101999_j28329604284662_1_alg».proof.Proof.RefValue
import proofs.«101999_j28329604284662_1_alg».proof.Proof.SpecLaws
import proofs.«101999_j28329604284662_1_alg».proof.Proof.HopLaws
import proofs.«101999_j28329604284662_1_alg».proof.Proof.PreFinite
import proofs.«101999_j28329604284662_1_alg».proof.Proof.Gen.Kernel
import proofs.«101999_j28329604284662_1_alg».proof.Proof.Gen.KernelIdeal
import proofs.«101999_j28329604284662_1_alg».proof.Proof.Gen.ReferenceIdeal
import proofs.«101999_j28329604284662_1_alg».proof.Proof.Gen.Pre_finite_inputs

noncomputable section

namespace Cert.Proof

open Idealize.ShloMosaic Idealize.ShloMosaic.TcCoe Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel program read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- At the extended reals, from memories agreeing on the arguments, both programs run, with one result: the reference's
    is the network with the mean-squared-deviation variance, the kernel's the network with the mean-of-squares variance,
    and with every input finite these are one function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W6 (F := Ideal) m ρ c (Proc.devRef .tc Cert.KernelIdeal.main_v63), Cert.KernelIdeal.Hand.run_out (F := Ideal) m ρ, ?_⟩
  refine (θ_run Cert.ReferenceIdeal.defs _ _).mono (fun _ h c => ⟨(h c).1.trans ?_, (h c).2⟩) (Cert.ReferenceIdeal.Hand.run (F := Ideal) m' ρ')
  obtain ⟨h0, h1, h2, h3, h4, h5, h6, h7, h8, h9, h10⟩ := hagree c
  rw [h0, h1, h2, h3, h4, h5, h6, h7, h8, h9, h10]
  obtain ⟨fy, few, fW1, fb1, fg1, fbe1, fW2, fb2, fg2, fbe2⟩ := Cert.PreFinite.of_pre m hpre c
  refine Cert.Arr.toMat_injective ?_
  refine (Cert.ReferenceIdeal.Hand.refOut_toMat _ _ _ _ _ _ _ _ _ _ _).trans ?_
  refine (Cert.Spec.net_eq (Cert.Hop.H _ _) (fun x hx => Cert.Hop.H_finite _ _ few hx) _ _ fy fW1 fb1 fg1 fbe1 fW2 fb2).symm.trans ?_
  exact (Cert.KernelIdeal.KValue.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
